-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S3x3 : Shape := ⟨2, ![3, 3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S3x3 : S_.BroadcastsInDim S3x3 (![] : Fin 0 → Fin S3x3.rank)
  reducesTo_S3x3_S_d0_1 : S3x3.ReducesTo [0, 1] S_

variable [Facts]

def fn_part3 {F : FTy → Type} [FloatOps F] (main_arg11 : FVec F S128x128 .f32) (main_arg12 : FVec F S3x3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S3x3 .f32 := Host.absf main_arg12
  let main_cst_22 : FVec F S_ .f32 := constant S_ .f32 0x7F800000#32
  let main_v60 : FVec F S3x3 .f32 := broadcastInDim S3x3 ![] bcast_S_S3x3 main_cst_22
  let main_v61 : IVec S3x3 1 := cmpf .olt main_v59 main_v60
  let main_c_23 : IVec S_ 1 := constantI S_ 1 1#1
  let main_v62 : IVec S_ 1 := (fun x v => Host.reduce IntOp.andi x v reducesTo_S3x3_S_d0_1 h_S_) main_v61 main_c_23
  let main_v63 : IVec S_ 1 := andi main_v58 main_v62
  main_v63

def fn_part2 {F : FTy → Type} [FloatOps F] (main_arg7 : FVec F S128x128 .f32) (main_arg8 : FVec F S128x128 .f32) (main_arg9 : FVec F S128x128 .f32) (main_arg10 : FVec F S128x128 .f32) (main_arg11 : FVec F S128x128 .f32) (main_arg12 : FVec F S3x3 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S3x3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S3x3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S3x3 : Shape := ⟨2, ![3, 3]⟩
abbrev S1x128 : Shape := ⟨2, ![1, 128]⟩
abbrev S128 : Shape := ⟨1, ![128]⟩
abbrev S200x10000 : Shape := ⟨2, ![200, 10000]⟩
abbrev S200x128 : Shape := ⟨2, ![200, 128]⟩
abbrev S1000x128 : Shape := ⟨2, ![1000, 128]⟩
abbrev S1000 : Shape := ⟨1, ![1000]⟩
abbrev S1000x1 : Shape := ⟨2, ![1000, 1]⟩
abbrev S1x3 : Shape := ⟨2, ![1, 3]⟩
abbrev S1000x3 : Shape := ⟨2, ![1000, 3]⟩

abbrev nBuf : Space → Nat
  | .hbm => 22
  | .vmem => 38
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S3x3, .f32⟩
  | .hbm, ⟨13, _⟩ => ⟨S10000x128, .bf16⟩
  | .hbm, ⟨14, _⟩ => ⟨S10000x128, .bf16⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S1x128, .f32⟩
  | .hbm, ⟨21, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S10000x128, .bf16⟩
  | .local _ .vmem, ⟨5, _⟩ => ⟨S10000x128, .bf16⟩
  | .local _ .vmem, ⟨6, _⟩ => ⟨S10000x128, .f32⟩
  | .local _ .vmem, ⟨7, _⟩ => ⟨S1x128, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S10000x128, .bf16⟩
  | .local _ .vmem, ⟨13, _⟩ => ⟨S10000x128, .bf16⟩
  | .local _ .vmem, ⟨14, _⟩ => ⟨S200x128, .f32⟩
  | .local _ .vmem, ⟨15, _⟩ => ⟨S200x128, .f32⟩
  | .local _ .vmem, ⟨16, _⟩ => ⟨S200x128, .f32⟩
  | .local _ .vmem, ⟨17, _⟩ => ⟨S200x128, .f32⟩
  | .local _ .vmem, ⟨18, _⟩ => ⟨S1x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S3x3, .f32⟩
  | .local _ .vmem, ⟨36, _⟩ => ⟨S1000x128, .f32⟩
  | .local _ .vmem, ⟨37, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0_0 : Ref sig .tc := ⟨.hbm, 13, rfl⟩
abbrev main_call0_v0_1 : Ref sig .tc := ⟨.hbm, 14, rfl⟩
abbrev main_call0_v0_2 : Ref sig .tc := ⟨.hbm, 15, rfl⟩
abbrev main_call0_v0_3 : Ref sig .tc := ⟨.hbm, 16, rfl⟩
abbrev main_call0_v1_0 : Ref sig .tc := ⟨.hbm, 17, rfl⟩
abbrev main_call0_v1_1 : Ref sig .tc := ⟨.hbm, 18, rfl⟩
abbrev main_call0_v1_2 : Ref sig .tc := ⟨.hbm, 19, rfl⟩
abbrev main_call0_v1_3 : Ref sig .tc := ⟨.hbm, 20, rfl⟩
abbrev main_v0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem13_1 : DmaSem sig := 37

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S3x3 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S1000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  reduces_S10000x128_S128 : S10000x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  shapeCasts_S1x128_S1x128 : S1x128.ShapeCasts S1x128
  reduces_S200x128_S128 : S200x128.Reduces [0] S128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  reduces_S1000x128_S1000 : S1000x128.Reduces [1] S1000
  shapeCasts_S1000_S1000x1 : S1000.ShapeCasts S1000x1
  inb_S3x3_S3x3_0_0 : ∀ a, (![0, 0] : Fin 2 → Nat) a + S3x3.size a ≤ S3x3.size a
  h_S3x3 : 0 < S3x3.numel
  slices_S3x3_o0_0_S1x3 : S3x3.Slices ![0, 0] S1x3
  broadcasts_S1000x1_S1000x3 : S1000x1.Broadcasts S1000x3
  broadcasts_S1x3_S1000x3 : S1x3.Broadcasts S1000x3
  slices_S3x3_o1_0_S1x3 : S3x3.Slices ![1, 0] S1x3
  slices_S3x3_o2_0_S1x3 : S3x3.Slices ![2, 0] S1x3
  reduces_S1000x3_S1000 : S1000x3.Reduces [1] S1000
  slices_S1000x3_o0_0_S1000x1 : S1000x3.Slices ![0, 0] S1000x1
  broadcasts_S1000x1_S1000x128 : S1000x1.Broadcasts S1000x128
  slices_S1000x3_o0_1_S1000x1 : S1000x3.Slices ![0, 1] S1000x1
  slices_S1000x3_o0_2_S1000x1 : S1000x3.Slices ![0, 2] S1000x1
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S1x128_S128x128_S1x128_1_0_0_1_n_n_wf : DotDims.WF S1x128 S128x128 S1x128 [1] [0] [0] [1] [] []
  dot_S1x128_S128x128_S1x128_1_1_0_0_n_n_wf : DotDims.WF S1x128 S128x128 S1x128 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .bf16 = 32 ∨ (Rect.block (s := S10000x128) S10000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S3x3.size a ≤ S3x3.size a
  hwx2_12 : ∀ i : grid2.Coords, EltTy.bits .f32 = 32 ∨ (Rect.block (s := S3x3) S3x3.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1000x128.size a ≤ S10000x128.size a
  hwx2_13 : ∀ i : grid2.Coords, EltTy.bits .f32 = 32 ∨ (Rect.block (s := S10000x128) S1000x128.size (cc2_transform_13 i) (hinb2_13 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_arg5) false false (stage0_3 0) (sem0_3 0) (Memref.isWhole_whole _) (hstage0_3 0)

abbrev win0_4 : Pipeline.Window sig grid0 :=
  Pipeline.Window.whole (Memref.whole main_call0_v0_0) true false (stage0_4 0) (sem0_4 0) (Memref.isWhole_whole _) (hstage0_4 0)

abbrev win0_5 : Pipeline.Window sig grid0 :=
  Pipeline.Window.whole (Memref.whole main_call0_v0_1) true false (stage0_5 0) (sem0_5 0) (Memref.isWhole_whole _) (hstage0_5 0)

abbrev win0_6 : Pipeline.Window sig grid0 :=
  Pipeline.Window.whole (Memref.whole main_call0_v0_2) true false (stage0_6 0) (sem0_6 0) (Memref.isWhole_whole _) (hstage0_6 0)

abbrev win0_7 : Pipeline.Window sig grid0 :=
  Pipeline.Window.whole (Memref.whole main_call0_v0_3) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_0) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0_1) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1_0) S200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v1_1) S200x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v1_2) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v1_3) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v1_0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1_1) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0_2) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v1_2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v1_3) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v0_3) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg11) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg12) S3x3.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v0) S1000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S3x3 : Shape := ⟨2, ![3, 3]⟩
abbrev S_ : Shape := ⟨0, ![]⟩
abbrev S128 : Shape := ⟨1, ![128]⟩
abbrev S1x128 : Shape := ⟨2, ![1, 128]⟩
abbrev S128x1 : Shape := ⟨2, ![128, 1]⟩
abbrev S10000x1 : Shape := ⟨2, ![10000, 1]⟩
abbrev S10000x3 : Shape := ⟨2, ![10000, 3]⟩
abbrev S10000 : Shape := ⟨1, ![10000]⟩

abbrev nBuf : Space → Nat
  | .hbm => 104
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S3x3, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S10000x128, .f32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S10000x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S10000x128, .f32⟩
  | .hbm, ⟨49, _⟩ => ⟨S128x1, .f32⟩
  | .hbm, ⟨50, _⟩ => ⟨S10000x1, .f32⟩
  | .hbm, ⟨51, _⟩ => ⟨S10000x128, .f32⟩
  | .hbm, ⟨52, _⟩ => ⟨S128x1, .f32⟩
  | .hbm, ⟨53, _⟩ => ⟨S10000x1, .f32⟩
  | .hbm, ⟨54, _⟩ => ⟨S10000x128, .f32⟩
  | .hbm, ⟨55, _⟩ => ⟨S128x1, .f32⟩
  | .hbm, ⟨56, _⟩ => ⟨S10000x1, .f32⟩
  | .hbm, ⟨57, _⟩ => ⟨S10000x3, .f32⟩
  | .hbm, ⟨58, _⟩ => ⟨S10000x3, .f32⟩
  | .hbm, ⟨59, _⟩ => ⟨S10000x3, .f32⟩
  | .hbm, ⟨60, _⟩ => ⟨S_, .f32⟩
  | .hbm, ⟨61, _⟩ => ⟨S10000x3, .f32⟩
  | .hbm, ⟨62, _⟩ => ⟨S10000x3, .f32⟩
  | .hbm, ⟨63, _⟩ => ⟨S_, .f32⟩
  | .hbm, ⟨64, _⟩ => ⟨S10000x3, .f32⟩
  | .hbm, ⟨65, _⟩ => ⟨S10000x3, .f32⟩
  | .hbm, ⟨66, _⟩ => ⟨S10000x3, .f32⟩
  | .hbm, ⟨67, _⟩ => ⟨S_, .f32⟩
  | .hbm, ⟨68, _⟩ => ⟨S10000x3, .f32⟩
  | .hbm, ⟨69, _⟩ => ⟨S10000x3, .f32⟩
  | .hbm, ⟨70, _⟩ => ⟨S_, .f32⟩
  | .hbm, ⟨71, _⟩ => ⟨S10000, .f32⟩
  | .hbm, ⟨72, _⟩ => ⟨S_, .f32⟩
  | .hbm, ⟨73, _⟩ => ⟨S10000, .f32⟩
  | .hbm, ⟨74, _⟩ => ⟨S10000, .f32⟩
  | .hbm, ⟨75, _⟩ => ⟨S10000x1, .f32⟩
  | .hbm, ⟨76, _⟩ => ⟨S10000x3, .f32⟩
  | .hbm, ⟨77, _⟩ => ⟨S10000x3, .f32⟩
  | .hbm, ⟨78, _⟩ => ⟨S10000x3, .f32⟩
  | .hbm, ⟨79, _⟩ => ⟨S_, .f32⟩
  | .hbm, ⟨80, _⟩ => ⟨S10000, .f32⟩
  | .hbm, ⟨81, _⟩ => ⟨S10000x1, .f32⟩
  | .hbm, ⟨82, _⟩ => ⟨S10000x3, .f32⟩
  | .hbm, ⟨83, _⟩ => ⟨S10000x3, .f32⟩
  | .hbm, ⟨84, _⟩ => ⟨S10000x1, .f32⟩
  | .hbm, ⟨85, _⟩ => ⟨S10000, .f32⟩
  | .hbm, ⟨86, _⟩ => ⟨S10000x1, .f32⟩
  | .hbm, ⟨87, _⟩ => ⟨S10000x1, .f32⟩
  | .hbm, ⟨88, _⟩ => ⟨S10000, .f32⟩
  | .hbm, ⟨89, _⟩ => ⟨S10000x1, .f32⟩
  | .hbm, ⟨90, _⟩ => ⟨S10000x1, .f32⟩
  | .hbm, ⟨91, _⟩ => ⟨S10000, .f32⟩
  | .hbm, ⟨92, _⟩ => ⟨S10000x1, .f32⟩
  | .hbm, ⟨93, _⟩ => ⟨S10000x128, .f32⟩
  | .hbm, ⟨94, _⟩ => ⟨S10000x128, .f32⟩
  | .hbm, ⟨95, _⟩ => ⟨S10000x128, .f32⟩
  | .hbm, ⟨96, _⟩ => ⟨S10000x128, .f32⟩
  | .hbm, ⟨97, _⟩ => ⟨S10000x128, .f32⟩
  | .hbm, ⟨98, _⟩ => ⟨S10000x128, .f32⟩
  | .hbm, ⟨99, _⟩ => ⟨S10000x128, .f32⟩
  | .hbm, ⟨100, _⟩ => ⟨S10000x128, .f32⟩
  | .hbm, ⟨101, _⟩ => ⟨S_, .f32⟩
  | .hbm, ⟨102, _⟩ => ⟨S10000x128, .f32⟩
  | .hbm, ⟨103, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_cst : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_cst : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_call2_cst : Ref sig .tc := ⟨.hbm, 24, rfl⟩
abbrev main_call2_v0 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x128_S128_d0 : S10000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  transposes_S1x128_S128x1_1_0 : S1x128.Transposes [1, 0] S128x1
  concatenates_S10000x1_S10000x1_S10000x1_S10000x3_d1 : Shape.Concatenates [S10000x1, S10000x1, S10000x1] S10000x3 1
  bcast_S_S10000x3 : S_.BroadcastsInDim S10000x3 (![] : Fin 0 → Fin S10000x3.rank)
  reducesTo_S10000x3_S10000_d1 : S10000x3.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  slices_S10000x3_S10000x1_0_0 : S10000x3.Slices ![0, 0] S10000x1
  shapeCasts_S10000x1_S10000 : S10000x1.ShapeCasts S10000
  slices_S10000x3_S10000x1_0_1 : S10000x3.Slices ![0, 1] S10000x1
  slices_S10000x3_S10000x1_0_2 : S10000x3.Slices ![0, 2] S10000x1
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x3_S3x3_S10000x3_1_0_0_1_n_n_wf : DotDims.WF S10000x3 S3x3 S10000x3 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x3_S3x3_S10000x3_1_0_0_1_n_n : DotDims S10000x3 S3x3 S10000x3 where
  lhsContracting := [1]
  rhsContracting := [0]
  lhsNonContracting := [0]
  rhsNonContracting := [1]
  lhsBatch := []
  rhsBatch := []
  wf := dot_S10000x3_S3x3_S10000x3_1_0_0_1_n_n_wf

class Facts : Prop extends Facts₀ where

variable [Facts]
-- ==== Proof.Spec.lean ====
/- Both programs compute one function of the thirteen argument arrays; this module states it, index by index, over
   the extended reals. A graph layer with three branches — two neighbourhood aggregations relu(A · (x · W)) and one
   plain transform relu(x · W) — is combined row by row with softmax attention weights: for each branch a logit (the
   row of o · att against the column mean of o · Wk), a sigmoid, a 3 × 3 mixing, a temperature 1/3, a softmax over the
   three branches, and three times the weighted sum of the branch rows.
   Two spellings of the logit are stated: the one that takes the column mean of the product o · Wk (`logit`), and the
   one that multiplies the column sums of o, scaled by 1/10000, into Wk and then into att (`logitC`, `logitK`). -/
import Idealize.ShloMosaic.PureOps.Ideal
import Idealize.ShloMosaic.Lib.ValueIdx

noncomputable section

namespace Cert.GraphAtt

open Idealize.ShloMosaic Idealize.ShloMosaic.ValueIdx

/-- An a × b array as the programs hold it: a function of its two-coordinate index. -/
abbrev Arr (a b : ℕ) := (⟨2, ![a, b]⟩ : Shape).Idx → EReal
/-- The same array as a function of a row and a column. -/
abbrev Mat (a b : ℕ) := Fin a → Fin b → EReal

/-- An array read by row and column. -/
def cur {a b : ℕ} (A : Arr a b) : Mat a b := fun r c => A (ix2 r c)

theorem cur_apply {a b : ℕ} (A : Arr a b) (r : Fin a) (c : Fin b) : cur A r c = A (ix2 r c) := rfl

/-- Every entry is a real number (neither infinity). -/
def IsReal {a b : ℕ} (A : Mat a b) : Prop := ∀ r c, ∃ y : ℝ, A r c = (y : EReal)

/-- The matrix product. -/
def mm {a k b : ℕ} (A : Mat a k) (B : Mat k b) : Mat a b := fun r c => ∑ l : Fin k, A r l * B l c

/-- The positive part, entry by entry. -/
def relu {a b : ℕ} (A : Mat a b) : Mat a b := fun r c => max (A r c) 0

/-- The sum of each column. -/
def colsum {a b : ℕ} (A : Mat a b) : Fin b → EReal := fun d => ∑ r : Fin a, A r d

/-- A branch's logit as the reference spells it: row r of o · att against the mean over all rows of o · Wk. -/
def logit (o : Mat 10000 128) (Wk att : Mat 128 128) (r : Fin 10000) : EReal :=
  ∑ h : Fin 128, mm o att r h * Ideal.div (∑ r' : Fin 10000, mm o Wk r' h) ((10000 : ℝ) : EReal)

/-- A branch's logit from a row `col` of column sums: (col / 10000) · Wk, contracted with att's second axis, against
    row r of o. -/
def logitC (o : Mat 10000 128) (col : Mat 1 128) (Wk att : Mat 128 128) (r : Fin 10000) : EReal :=
  ∑ j : Fin 128, o r j *
    ∑ h : Fin 128, (∑ d : Fin 128, (col 0 d * ((1 / 10000 : ℝ) : EReal)) * Wk d h) * att j h

/-- The same with the column sums of o itself. -/
def logitK (o : Mat 10000 128) (Wk att : Mat 128 128) (r : Fin 10000) : EReal :=
  logitC o (fun _ d => colsum o d) Wk att r

/-- Three numbers as a function of the branch. -/
def sel3 (a b c : EReal) : Fin 3 → EReal := ![a, b, c]

/-- The mixed and scaled scores of one row: (s · av) / 3. -/
def zrow (s : Fin 3 → EReal) (av : Mat 3 3) (c : Fin 3) : EReal :=
  (∑ i : Fin 3, s i * av i c) * ((1 / 3 : ℝ) : EReal)

/-- The largest of three scores. -/
def rowmax (z : Fin 3 → EReal) : EReal := (Finset.univ : Finset (Fin 3)).fold max ⊥ z

/-- The softmax weight of branch c. -/
def attw (s : Fin 3 → EReal) (av : Mat 3 3) (c : Fin 3) : EReal :=
  Ideal.div (Ideal.exp (zrow s av c - rowmax (zrow s av)))
    (∑ c' : Fin 3, Ideal.exp (zrow s av c' - rowmax (zrow s av)))

/-- The result from the three logits and the three branch outputs. -/
def out3 (l0 l1 l2 : Fin 10000 → EReal) (oA oA2 oM : Mat 10000 128) (av : Mat 3 3) : Mat 10000 128 := fun r c =>
  Ideal.ofBits .f32 0x40400000#32 *
    ((attw (fun i => Ideal.logistic (sel3 (l0 r) (l1 r) (l2 r) i)) av 0 * oA r c
      + attw (fun i => Ideal.logistic (sel3 (l0 r) (l1 r) (l2 r) i)) av 1 * oA2 r c)
      + attw (fun i => Ideal.logistic (sel3 (l0 r) (l1 r) (l2 r) i)) av 2 * oM r c)

/-- The three branch outputs. -/
def outA (x : Mat 10000 128) (adj : Mat 10000 10000) (W : Mat 128 128) : Mat 10000 128 := relu (mm adj (mm x W))
def outM (x : Mat 10000 128) (W : Mat 128 128) : Mat 10000 128 := relu (mm x W)

/-- The whole function with the reference's logits. -/
def Gref (x : Mat 10000 128) (adjA adjA2 : Mat 10000 10000) (WA WA2 Wm Wk0 Wk1 Wk2 attA attA2 attM : Mat 128 128)
    (av : Mat 3 3) : Mat 10000 128 :=
  out3 (logit (outA x adjA WA) Wk0 attA) (logit (outA x adjA2 WA2) Wk1 attA2) (logit (outM x Wm) Wk2 attM)
    (outA x adjA WA) (outA x adjA2 WA2) (outM x Wm) av

/-- The whole function with the kernel's logits. -/
def Gker (x : Mat 10000 128) (adjA adjA2 : Mat 10000 10000) (WA WA2 Wm Wk0 Wk1 Wk2 attA attA2 attM : Mat 128 128)
    (av : Mat 3 3) : Mat 10000 128 :=
  out3 (logitK (outA x adjA WA) Wk0 attA) (logitK (outA x adjA2 WA2) Wk1 attA2) (logitK (outM x Wm) Wk2 attM)
    (outA x adjA WA) (outA x adjA2 WA2) (outM x Wm) av

end Cert.GraphAtt

end
-- ==== Proof.KernelValue.lean ====
/- The idealized kernel's result as one function of the argument arrays. The run ends with the result buffer at
   the contents the third region leaves; each region's arrays are functions of what the region found; composing the
   three — the first region's products x · W and the positive part of x · W_mlp with its column sums, the second
   region's positive parts of adj · (x · W) with their column sums, the third region's attention — gives `Gker` of the
   launch memory's argument arrays. The three regions' values enter as hypotheses, stated for arbitrary entry contents,
   so that this composition does not depend on how they are proved. -/
import proofs.«148014_g67783173865566_cont_9to1c4b_46_2_alg».proof.Proof.KernelRun
import proofs.«148014_g67783173865566_cont_9to1c4b_46_2_alg».proof.Proof.Spec
import Idealize.ShloMosaic.Lib.ValueIdx

noncomputable section

namespace Cert.KernelIdeal.KValue

open Cert.KernelIdeal Cert.KernelIdeal.Gen Cert.GraphAtt
open Idealize.ShloMosaic Idealize.ShloMosaic.TcCoe Idealize.ShloMosaic.ValueIdx Idealize.SL.Sem

/-- What a region's value theorem speaks of: the TensorCore's buffer contents when the region is entered. -/
abbrev Entry := (c : Dev nD) → (b : Ref sig .tc) → Buf (Elt Ideal) ((c : Thread nD τ).loc b)

/-- The first region's four arrays, for any entry contents: x · W_A, x · W_A2, the positive part of x · W_mlp, and
    that array's column sums. -/
structure Region0Values : Prop where
  xa : ∀ (V : Entry) (c : Dev nD) (r : Fin 10000) (d : Fin 128),
    (dat0 (F := Ideal) V c).arrAt 4 cfg0.N (ix2 r d) = mm (cur (V c main_arg0)) (cur (V c main_arg3)) r d
  xa2 : ∀ (V : Entry) (c : Dev nD) (r : Fin 10000) (d : Fin 128),
    (dat0 (F := Ideal) V c).arrAt 5 cfg0.N (ix2 r d) = mm (cur (V c main_arg0)) (cur (V c main_arg4)) r d
  xm : ∀ (V : Entry) (c : Dev nD) (r : Fin 10000) (d : Fin 128),
    (dat0 (F := Ideal) V c).arrAt 6 cfg0.N (ix2 r d) = outM (cur (V c main_arg0)) (cur (V c main_arg5)) r d
  colm : ∀ (V : Entry) (c : Dev nD) (d : Fin 128),
    (dat0 (F := Ideal) V c).arrAt 7 cfg0.N (ix2 (0 : Fin 1) d) = colsum (outM (cur (V c main_arg0)) (cur (V c main_arg5))) d

/-- The second region's four arrays, for any entry contents: the positive parts of adj · XA and adj2 · XA2, and their
    column sums. -/
structure Region1Values : Prop where
  oa : ∀ (V : Entry) (c : Dev nD) (r : Fin 10000) (d : Fin 128),
    (dat1 (F := Ideal) V c).arrAt 4 cfg1.N (ix2 r d) = relu (mm (cur (V c main_arg1)) (cur (V c main_call0_v0_0))) r d
  oa2 : ∀ (V : Entry) (c : Dev nD) (r : Fin 10000) (d : Fin 128),
    (dat1 (F := Ideal) V c).arrAt 5 cfg1.N (ix2 r d) = relu (mm (cur (V c main_arg2)) (cur (V c main_call0_v0_1))) r d
  cola : ∀ (V : Entry) (c : Dev nD) (d : Fin 128),
    (dat1 (F := Ideal) V c).arrAt 6 cfg1.N (ix2 (0 : Fin 1) d) = colsum (relu (mm (cur (V c main_arg1)) (cur (V c main_call0_v0_0)))) d
  cola2 : ∀ (V : Entry) (c : Dev nD) (d : Fin 128),
    (dat1 (F := Ideal) V c).arrAt 7 cfg1.N (ix2 (0 : Fin 1) d) = colsum (relu (mm (cur (V c main_arg2)) (cur (V c main_call0_v0_1)))) d

/-- The third region's array, for any entry contents: the attention-weighted combination of the three branch arrays,
    the logits taken from the given rows of column sums. -/
def Region2Value : Prop :=
  ∀ (V : Entry) (c : Dev nD) (r : Fin 10000) (k : Fin 128),
    (dat2 (F := Ideal) V c).arrAt 13 cfg2.N (ix2 r k) =
      out3 (logitC (cur (V c main_call0_v1_0)) (cur (V c main_call0_v1_2)) (cur (V c main_arg6)) (cur (V c main_arg9)))
           (logitC (cur (V c main_call0_v1_1)) (cur (V c main_call0_v1_3)) (cur (V c main_arg7)) (cur (V c main_arg10)))
           (logitC (cur (V c main_call0_v0_2)) (cur (V c main_call0_v0_3)) (cur (V c main_arg8)) (cur (V c main_arg11)))
           (cur (V c main_call0_v1_0)) (cur (V c main_call0_v1_1)) (cur (V c main_call0_v0_2)) (cur (V c main_arg12)) r k

variable (m : (ℓ : Loc nD τ sig) → Buf (Elt Ideal) ℓ) (ρ : Dev nD → PrngReg)

/-- A one-row array read by row and column depends on the column only. -/
theorem cur_row (A : Arr 1 128) (f : Fin 128 → EReal) (h : ∀ d, A (ix2 (0 : Fin 1) d) = f d) : cur A = fun _ d => f d := by
  funext i d
  obtain rfl : i = 0 := Subsingleton.elim _ _
  exact h d

/-- The result buffer after the run, read at row r and column k, is `Gker` of the launched argument arrays. -/
theorem result_eq (h0 : Region0Values) (h1 : Region1Values) (h2 : Region2Value) (c : Dev nD) (r : Fin 10000) (k : Fin 128) :
    W3 m ρ c (Proc.devRef .tc main_v0) (ix2 r k)
      = Gker (cur (m ((c.tc : Thread nD τ).loc main_arg0))) (cur (m ((c.tc : Thread nD τ).loc main_arg1))) (cur (m ((c.tc : Thread nD τ).loc main_arg2))) (cur (m ((c.tc : Thread nD τ).loc main_arg3)))
          (cur (m ((c.tc : Thread nD τ).loc main_arg4))) (cur (m ((c.tc : Thread nD τ).loc main_arg5))) (cur (m ((c.tc : Thread nD τ).loc main_arg6))) (cur (m ((c.tc : Thread nD τ).loc main_arg7)))
          (cur (m ((c.tc : Thread nD τ).loc main_arg8))) (cur (m ((c.tc : Thread nD τ).loc main_arg9))) (cur (m ((c.tc : Thread nD τ).loc main_arg10))) (cur (m ((c.tc : Thread nD τ).loc main_arg11)))
          (cur (m ((c.tc : Thread nD τ).loc main_arg12))) r k := by
  -- the first region found the launch memory
  have a0 : V0 m ρ c main_arg0 = m ((c.tc : Thread nD τ).loc main_arg0) := rfl
  have a3 : V0 m ρ c main_arg3 = m ((c.tc : Thread nD τ).loc main_arg3) := rfl
  have a4 : V0 m ρ c main_arg4 = m ((c.tc : Thread nD τ).loc main_arg4) := rfl
  have a5 : V0 m ρ c main_arg5 = m ((c.tc : Thread nD τ).loc main_arg5) := rfl
  -- what the second region found
  have b1 : V1 m ρ c main_arg1 = m ((c.tc : Thread nD τ).loc main_arg1) := W1_of_ne m ρ c main_arg1 (by decide)
  have b2 : V1 m ρ c main_arg2 = m ((c.tc : Thread nD τ).loc main_arg2) := W1_of_ne m ρ c main_arg2 (by decide)
  have bxa : cur (V1 m ρ c main_call0_v0_0) = mm (cur (m ((c.tc : Thread nD τ).loc main_arg0))) (cur (m ((c.tc : Thread nD τ).loc main_arg3))) := by
    funext r d
    exact (congrFun (W1_arr m ρ c 4) (ix2 r d)).trans ((h0.xa (V0 m ρ) c r d).trans (by rw [a0, a3]))
  have bxa2 : cur (V1 m ρ c main_call0_v0_1) = mm (cur (m ((c.tc : Thread nD τ).loc main_arg0))) (cur (m ((c.tc : Thread nD τ).loc main_arg4))) := by
    funext r d
    exact (congrFun (W1_arr m ρ c 5) (ix2 r d)).trans ((h0.xa2 (V0 m ρ) c r d).trans (by rw [a0, a4]))
  have bxm : cur (W1 m ρ c (Proc.devRef .tc main_call0_v0_2)) = outM (cur (m ((c.tc : Thread nD τ).loc main_arg0))) (cur (m ((c.tc : Thread nD τ).loc main_arg5))) := by
    funext r d
    exact (congrFun (W1_arr m ρ c 6) (ix2 r d)).trans ((h0.xm (V0 m ρ) c r d).trans (by rw [a0, a5]))
  have bcolm : cur (W1 m ρ c (Proc.devRef .tc main_call0_v0_3)) = fun _ d => colsum (outM (cur (m ((c.tc : Thread nD τ).loc main_arg0))) (cur (m ((c.tc : Thread nD τ).loc main_arg5)))) d :=
    cur_row _ _ fun d => (congrFun (W1_arr m ρ c 7) (ix2 (0 : Fin 1) d)).trans ((h0.colm (V0 m ρ) c d).trans (by rw [a0, a5]))
  -- what the third region found
  have coa : cur (V2 m ρ c main_call0_v1_0) = outA (cur (m ((c.tc : Thread nD τ).loc main_arg0))) (cur (m ((c.tc : Thread nD τ).loc main_arg1))) (cur (m ((c.tc : Thread nD τ).loc main_arg3))) := by
    funext r d
    exact (congrFun (W2_arr m ρ c 4) (ix2 r d)).trans ((h1.oa (V1 m ρ) c r d).trans (by rw [b1, bxa]; rfl))
  have coa2 : cur (V2 m ρ c main_call0_v1_1) = outA (cur (m ((c.tc : Thread nD τ).loc main_arg0))) (cur (m ((c.tc : Thread nD τ).loc main_arg2))) (cur (m ((c.tc : Thread nD τ).loc main_arg4))) := by
    funext r d
    exact (congrFun (W2_arr m ρ c 5) (ix2 r d)).trans ((h1.oa2 (V1 m ρ) c r d).trans (by rw [b2, bxa2]; rfl))
  have ccola : cur (V2 m ρ c main_call0_v1_2) = fun _ d => colsum (outA (cur (m ((c.tc : Thread nD τ).loc main_arg0))) (cur (m ((c.tc : Thread nD τ).loc main_arg1))) (cur (m ((c.tc : Thread nD τ).loc main_arg3)))) d :=
    cur_row _ _ fun d => (congrFun (W2_arr m ρ c 6) (ix2 (0 : Fin 1) d)).trans ((h1.cola (V1 m ρ) c d).trans (by rw [b1, bxa]; rfl))
  have ccola2 : cur (V2 m ρ c main_call0_v1_3) = fun _ d => colsum (outA (cur (m ((c.tc : Thread nD τ).loc main_arg0))) (cur (m ((c.tc : Thread nD τ).loc main_arg2))) (cur (m ((c.tc : Thread nD τ).loc main_arg4)))) d :=
    cur_row _ _ fun d => (congrFun (W2_arr m ρ c 7) (ix2 (0 : Fin 1) d)).trans ((h1.cola2 (V1 m ρ) c d).trans (by rw [b2, bxa2]; rfl))
  have cxm : cur (V2 m ρ c main_call0_v0_2) = outM (cur (m ((c.tc : Thread nD τ).loc main_arg0))) (cur (m ((c.tc : Thread nD τ).loc main_arg5))) :=
    (congrArg cur (W2_of_ne m ρ c main_call0_v0_2 (by decide))).trans bxm
  have ccolm : cur (V2 m ρ c main_call0_v0_3) = fun _ d => colsum (outM (cur (m ((c.tc : Thread nD τ).loc main_arg0))) (cur (m ((c.tc : Thread nD τ).loc main_arg5)))) d :=
    (congrArg cur (W2_of_ne m ρ c main_call0_v0_3 (by decide))).trans bcolm
  have c6 : V2 m ρ c main_arg6 = m ((c.tc : Thread nD τ).loc main_arg6) :=
    (W2_of_ne m ρ c main_arg6 (by decide)).trans (W1_of_ne m ρ c main_arg6 (by decide))
  have c7 : V2 m ρ c main_arg7 = m ((c.tc : Thread nD τ).loc main_arg7) :=
    (W2_of_ne m ρ c main_arg7 (by decide)).trans (W1_of_ne m ρ c main_arg7 (by decide))
  have c8 : V2 m ρ c main_arg8 = m ((c.tc : Thread nD τ).loc main_arg8) :=
    (W2_of_ne m ρ c main_arg8 (by decide)).trans (W1_of_ne m ρ c main_arg8 (by decide))
  have c9 : V2 m ρ c main_arg9 = m ((c.tc : Thread nD τ).loc main_arg9) :=
    (W2_of_ne m ρ c main_arg9 (by decide)).trans (W1_of_ne m ρ c main_arg9 (by decide))
  have c10 : V2 m ρ c main_arg10 = m ((c.tc : Thread nD τ).loc main_arg10) :=
    (W2_of_ne m ρ c main_arg10 (by decide)).trans (W1_of_ne m ρ c main_arg10 (by decide))
  have c11 : V2 m ρ c main_arg11 = m ((c.tc : Thread nD τ).loc main_arg11) :=
    (W2_of_ne m ρ c main_arg11 (by decide)).trans (W1_of_ne m ρ c main_arg11 (by decide))
  have c12 : V2 m ρ c main_arg12 = m ((c.tc : Thread nD τ).loc main_arg12) :=
    (W2_of_ne m ρ c main_arg12 (by decide)).trans (W1_of_ne m ρ c main_arg12 (by decide))
  refine (congrFun (W3_arr m ρ c 13) (ix2 r k)).trans ((h2 (V2 m ρ) c r k).trans ?_)
  rw [coa, coa2, cxm, ccola, ccola2, ccolm, c6, c7, c8, c9, c10, c11, c12]
  rfl

end Cert.KernelIdeal.KValue

end
-- ==== Proof.Algebra.lean ====
/- The algebra behind the two spellings of the attention logit. When every entry of the arrays is a real number, the
   extended-real sums and products are the coercions of the corresponding real ones, and in the reals the two logits
   agree by distributivity and by exchanging finite sums. At an infinity these laws fail, so every statement here
   carries the hypothesis that the arrays are real. -/
import proofs.«148014_g67783173865566_cont_9to1c4b_46_2_alg».proof.Proof.Spec

noncomputable section

namespace Cert.GraphAtt

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion commutes with the positive part. -/
theorem coe_max_zero (y : ℝ) : max (y : EReal) 0 = ((max y 0 : ℝ) : EReal) := by
  rcases le_total y 0 with h | h
  · rw [max_eq_right h, max_eq_right (by exact_mod_cast h), EReal.coe_zero]
  · rw [max_eq_left h, max_eq_left (by exact_mod_cast h)]

/-- A real matrix read as an extended-real one. -/
def cm {a b : ℕ} (A : Fin a → Fin b → ℝ) : Mat a b := fun r c => (A r c : EReal)

theorem cm_apply {a b : ℕ} (A : Fin a → Fin b → ℝ) (r : Fin a) (c : Fin b) : cm A r c = (A r c : EReal) := rfl

/-- A matrix is real exactly when it is the coercion of a real matrix. -/
theorem isReal_iff {a b : ℕ} (A : Mat a b) : IsReal A ↔ ∃ A' : Fin a → Fin b → ℝ, A = cm A' := by
  constructor
  · intro h
    choose A' hA' using h
    exact ⟨A', funext fun r => funext fun c => hA' r c⟩
  · rintro ⟨A', rfl⟩ r c
    exact ⟨A' r c, rfl⟩

theorem cm_isReal {a b : ℕ} (A : Fin a → Fin b → ℝ) : IsReal (cm A) := fun r c => ⟨A r c, rfl⟩

/-- The product of two real matrices is the coercion of the real product. -/
theorem mm_cm {a k b : ℕ} (A : Fin a → Fin k → ℝ) (B : Fin k → Fin b → ℝ) :
    mm (cm A) (cm B) = cm (fun r c => ∑ l : Fin k, A r l * B l c) := by
  funext r c
  rw [cm_apply, coe_sum]
  refine Finset.sum_congr rfl (fun l _ => ?_)
  rw [cm_apply, cm_apply, EReal.coe_mul]

/-- The positive part of a real matrix is the coercion of the real positive part. -/
theorem relu_cm {a b : ℕ} (A : Fin a → Fin b → ℝ) : relu (cm A) = cm (fun r c => max (A r c) 0) := by
  funext r c
  exact coe_max_zero (A r c)

theorem mm_isReal {a k b : ℕ} (A : Mat a k) (B : Mat k b) (hA : IsReal A) (hB : IsReal B) : IsReal (mm A B) := by
  obtain ⟨A', rfl⟩ := (isReal_iff A).1 hA
  obtain ⟨B', rfl⟩ := (isReal_iff B).1 hB
  rw [mm_cm]
  exact cm_isReal _

theorem relu_isReal {a b : ℕ} (A : Mat a b) (hA : IsReal A) : IsReal (relu A) := by
  obtain ⟨A', rfl⟩ := (isReal_iff A).1 hA
  rw [relu_cm]
  exact cm_isReal _

/-- In the reals: scaling the column sums of o by c and multiplying into w gives c times the column sums of o · w. -/
theorem real_colmean {n m p : ℕ} (o : Fin n → Fin m → ℝ) (w : Fin m → Fin p → ℝ) (c : ℝ) (h : Fin p) :
    ∑ d : Fin m, ((∑ r' : Fin n, o r' d) * c) * w d h = (∑ r' : Fin n, ∑ d : Fin m, o r' d * w d h) * c := by
  rw [Finset.sum_comm, Finset.sum_mul]
  refine Finset.sum_congr rfl (fun d _ => ?_)
  rw [← Finset.sum_mul]
  ring

/-- In the reals the two spellings of the logit agree. -/
theorem real_logit {n m p : ℕ} (o : Fin n → Fin m → ℝ) (w : Fin m → Fin p → ℝ) (t : Fin m → Fin p → ℝ) (c : ℝ)
    (r : Fin n) :
    ∑ j : Fin m, o r j * ∑ h : Fin p, (∑ d : Fin m, ((∑ r' : Fin n, o r' d) * c) * w d h) * t j h
      = ∑ h : Fin p, (∑ j : Fin m, o r j * t j h) * ((∑ r' : Fin n, ∑ d : Fin m, o r' d * w d h) * c) := by
  have e : ∀ j : Fin m, o r j * ∑ h : Fin p, (∑ d : Fin m, ((∑ r' : Fin n, o r' d) * c) * w d h) * t j h
      = ∑ h : Fin p, (o r j * t j h) * ((∑ r' : Fin n, ∑ d : Fin m, o r' d * w d h) * c) := by
    intro j
    rw [Finset.mul_sum]
    refine Finset.sum_congr rfl (fun h _ => ?_)
    rw [real_colmean]
    ring
  rw [Finset.sum_congr rfl (fun j _ => e j), Finset.sum_comm]
  refine Finset.sum_congr rfl (fun h _ => ?_)
  exact (Finset.sum_mul _ _ _).symm

/-- Over the extended reals, on real matrices, the logit from the scaled column sums is the coercion of its real
    counterpart. -/
theorem logitK_coe {n m p : ℕ} (o : Fin n → Fin m → ℝ) (w t : Fin m → Fin p → ℝ) (c : ℝ) (r : Fin n) :
    ∑ j : Fin m, cm o r j *
        ∑ h : Fin p, (∑ d : Fin m, ((∑ r' : Fin n, cm o r' d) * (c : EReal)) * cm w d h) * cm t j h
      = ((∑ j : Fin m, o r j * ∑ h : Fin p,
            (∑ d : Fin m, ((∑ r' : Fin n, o r' d) * c) * w d h) * t j h : ℝ) : EReal) := by
  simp only [cm_apply, ← coe_sum, ← EReal.coe_mul]

/-- Over the extended reals, on real matrices, the logit against the column mean of o · w is the coercion of its real
    counterpart; the division by a nonzero real y is the product with 1 / y. -/
theorem logit_coe {n m p : ℕ} (o : Fin n → Fin m → ℝ) (w t : Fin m → Fin p → ℝ) (y : ℝ) (hy : y ≠ 0) (r : Fin n) :
    ∑ h : Fin p, mm (cm o) (cm t) r h * Ideal.div (∑ r' : Fin n, mm (cm o) (cm w) r' h) ((y : ℝ) : EReal)
      = ((∑ h : Fin p, (∑ j : Fin m, o r j * t j h) *
            ((∑ r' : Fin n, ∑ d : Fin m, o r' d * w d h) * (1 / y : ℝ)) : ℝ) : EReal) := by
  rw [mm_cm, mm_cm]
  simp only [Ideal.div_coe hy, cm_apply, ← coe_sum, ← EReal.coe_mul]

/-- The two spellings of the logit agree on real matrices of any size. -/
theorem logitK_eq_logit_gen {n m p : ℕ} (o : Fin n → Fin m → ℝ) (w t : Fin m → Fin p → ℝ) (y : ℝ) (hy : y ≠ 0)
    (r : Fin n) :
    ∑ j : Fin m, cm o r j *
        ∑ h : Fin p, (∑ d : Fin m, ((∑ r' : Fin n, cm o r' d) * ((1 / y : ℝ) : EReal)) * cm w d h) * cm t j h
      = ∑ h : Fin p, mm (cm o) (cm t) r h * Ideal.div (∑ r' : Fin n, mm (cm o) (cm w) r' h) ((y : ℝ) : EReal) := by
  rw [logitK_coe, logit_coe o w t y hy, real_logit]

theorem logitK_eq_logit (o : Mat 10000 128) (Wk att : Mat 128 128) (ho : IsReal o) (hW : IsReal Wk) (ha : IsReal att)
    (r : Fin 10000) : logitK o Wk att r = logit o Wk att r := by
  obtain ⟨o', rfl⟩ := (isReal_iff o).1 ho
  obtain ⟨w', rfl⟩ := (isReal_iff Wk).1 hW
  obtain ⟨t', rfl⟩ := (isReal_iff att).1 ha
  unfold logitK logitC colsum logit
  exact logitK_eq_logit_gen o' w' t' (10000 : ℝ) (by norm_num) r

theorem Gker_eq_Gref (x : Mat 10000 128) (adjA adjA2 : Mat 10000 10000) (WA WA2 Wm Wk0 Wk1 Wk2 attA attA2 attM : Mat 128 128)
    (av : Mat 3 3) (hx : IsReal x) (hadjA : IsReal adjA) (hadjA2 : IsReal adjA2) (hWA : IsReal WA) (hWA2 : IsReal WA2)
    (hWm : IsReal Wm) (hWk0 : IsReal Wk0) (hWk1 : IsReal Wk1) (hWk2 : IsReal Wk2) (hattA : IsReal attA)
    (hattA2 : IsReal attA2) (hattM : IsReal attM) :
    Gker x adjA adjA2 WA WA2 Wm Wk0 Wk1 Wk2 attA attA2 attM av = Gref x adjA adjA2 WA WA2 Wm Wk0 Wk1 Wk2 attA attA2 attM av := by
  have hoA : IsReal (outA x adjA WA) := relu_isReal _ (mm_isReal _ _ hadjA (mm_isReal _ _ hx hWA))
  have hoA2 : IsReal (outA x adjA2 WA2) := relu_isReal _ (mm_isReal _ _ hadjA2 (mm_isReal _ _ hx hWA2))
  have hoM : IsReal (outM x Wm) := relu_isReal _ (mm_isReal _ _ hx hWm)
  have h0 : logitK (outA x adjA WA) Wk0 attA = logit (outA x adjA WA) Wk0 attA :=
    funext fun r => logitK_eq_logit _ _ _ hoA hWk0 hattA r
  have h1 : logitK (outA x adjA2 WA2) Wk1 attA2 = logit (outA x adjA2 WA2) Wk1 attA2 :=
    funext fun r => logitK_eq_logit _ _ _ hoA2 hWk1 hattA2 r
  have h2 : logitK (outM x Wm) Wk2 attM = logit (outM x Wm) Wk2 attM :=
    funext fun r => logitK_eq_logit _ _ _ hoM hWk2 hattM r
  unfold Gker Gref
  rw [h0, h1, h2]

end Cert.GraphAtt

end
-- ==== Proof.Bridge.lean ====
/- The two idealized programs end with equal results. The kernel's run leaves the result buffer at `Gker` of its
   argument arrays (the composition of its three regions' values), the reference's run leaves its result at `Gref` of
   its argument arrays (its operations read one at a time), the two memories agree on the arguments, and under the
   precondition every argument entry is a real number, where the kernel's spelling of the attention logits (column
   sums scaled by 1/10000, then the two small products) and the reference's (the column mean of the product) are one
   function. The parts enter as hypotheses so that this module depends on none of their proofs. -/
import proofs.«148014_g67783173865566_cont_9to1c4b_46_2_alg».proof.Defs
import proofs.«148014_g67783173865566_cont_9to1c4b_46_2_alg».proof.Proof.Gen.KernelIdeal.Frame
import proofs.«148014_g67783173865566_cont_9to1c4b_46_2_alg».proof.Proof.Gen.ReferenceIdeal.Run
import proofs.«148014_g67783173865566_cont_9to1c4b_46_2_alg».proof.Proof.Gen.ReferenceIdeal.Read
import proofs.«148014_g67783173865566_cont_9to1c4b_46_2_alg».proof.Proof.Gen.Pre_finite_inputs
import proofs.«148014_g67783173865566_cont_9to1c4b_46_2_alg».proof.Proof.KernelRun
import proofs.«148014_g67783173865566_cont_9to1c4b_46_2_alg».proof.Proof.KernelValue
import proofs.«148014_g67783173865566_cont_9to1c4b_46_2_alg».proof.Proof.Algebra
import Idealize.ShloMosaic.Lib.ValueIdx

noncomputable section

namespace Cert.Bridge

open Cert.GraphAtt Idealize.ShloMosaic Idealize.ShloMosaic.TcCoe Idealize.ShloMosaic.ValueIdx Idealize.SL.Sem

/-- The reference's last operation, read at row r and column k, is `Gref` of its thirteen arguments. -/
def RefValue : Prop :=
  ∀ (x0 : Arr 10000 128) (x1 x2 : Arr 10000 10000) (x3 x4 x5 x6 x7 x8 x9 x10 x11 : Arr 128 128) (x12 : Arr 3 3)
    (r : Fin 10000) (k : Fin 128),
    Cert.ReferenceIdeal.Read.val_main_v71 (F := Ideal) x0 x1 x2 x3 x4 x5 x6 x7 x8 x9 x10 x11 x12 (ix2 r k)
      = Gref (cur x0) (cur x1) (cur x2) (cur x3) (cur x4) (cur x5) (cur x6) (cur x7) (cur x8) (cur x9) (cur x10) (cur x11) (cur x12) r k

/-- Under the precondition every entry of the first twelve argument arrays is a real number. -/
def FiniteArgs : Prop :=
  ∀ (m : (ℓ : Loc Cert.KernelIdeal.nD Cert.KernelIdeal.τ Cert.KernelIdeal.sig) → Buf (Elt Ideal) ℓ), Cert.Pre_KernelIdeal m →
    ∀ c : Dev Cert.KernelIdeal.nD,
      IsReal (cur (m ((c.tc : Thread Cert.KernelIdeal.nD Cert.KernelIdeal.τ).loc Cert.KernelIdeal.main_arg0)))
      ∧ IsReal (cur (m ((c.tc : Thread Cert.KernelIdeal.nD Cert.KernelIdeal.τ).loc Cert.KernelIdeal.main_arg1)))
      ∧ IsReal (cur (m ((c.tc : Thread Cert.KernelIdeal.nD Cert.KernelIdeal.τ).loc Cert.KernelIdeal.main_arg2)))
      ∧ IsReal (cur (m ((c.tc : Thread Cert.KernelIdeal.nD Cert.KernelIdeal.τ).loc Cert.KernelIdeal.main_arg3)))
      ∧ IsReal (cur (m ((c.tc : Thread Cert.KernelIdeal.nD Cert.KernelIdeal.τ).loc Cert.KernelIdeal.main_arg4)))
      ∧ IsReal (cur (m ((c.tc : Thread Cert.KernelIdeal.nD Cert.KernelIdeal.τ).loc Cert.KernelIdeal.main_arg5)))
      ∧ IsReal (cur (m ((c.tc : Thread Cert.KernelIdeal.nD Cert.KernelIdeal.τ).loc Cert.KernelIdeal.main_arg6)))
      ∧ IsReal (cur (m ((c.tc : Thread Cert.KernelIdeal.nD Cert.KernelIdeal.τ).loc Cert.KernelIdeal.main_arg7)))
      ∧ IsReal (cur (m ((c.tc : Thread Cert.KernelIdeal.nD Cert.KernelIdeal.τ).loc Cert.KernelIdeal.main_arg8)))
      ∧ IsReal (cur (m ((c.tc : Thread Cert.KernelIdeal.nD Cert.KernelIdeal.τ).loc Cert.KernelIdeal.main_arg9)))
      ∧ IsReal (cur (m ((c.tc : Thread Cert.KernelIdeal.nD Cert.KernelIdeal.τ).loc Cert.KernelIdeal.main_arg10)))
      ∧ IsReal (cur (m ((c.tc : Thread Cert.KernelIdeal.nD Cert.KernelIdeal.τ).loc Cert.KernelIdeal.main_arg11)))

theorem algebraic (h0 : Cert.KernelIdeal.KValue.Region0Values) (h1 : Cert.KernelIdeal.KValue.Region1Values)
    (h2 : Cert.KernelIdeal.KValue.Region2Value) (href : RefValue) (hfin : FiniteArgs) :
    Cert.algebraic_KernelIdeal_ReferenceIdeal := by
  intro m ρ m' ρ' hpre hagree
  refine ⟨fun c => Cert.KernelIdeal.Gen.W3 m ρ c (Proc.devRef .tc Cert.KernelIdeal.main_v0), Cert.KernelIdeal.GenP.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  obtain ⟨e0, e1, e2, e3, e4, e5, e6, e7, e8, e9, e10, e11, e12⟩ := hagree c
  rw [e0, e1, e2, e3, e4, e5, e6, e7, e8, e9, e10, e11, e12]
  obtain ⟨f0, f1, f2, f3, f4, f5, f6, f7, f8, f9, f10, f11⟩ := hfin m hpre c
  funext i
  rw [eq_ix2 i]
  refine (href _ _ _ _ _ _ _ _ _ _ _ _ _ (i 0) (i 1)).trans ?_
  rw [← Gker_eq_Gref _ _ _ _ _ _ _ _ _ _ _ _ _ f0 f1 f2 f3 f4 f5 f6 f7 f8 f9 f10 f11]
  exact (Cert.KernelIdeal.KValue.result_eq m ρ h0 h1 h2 c (i 0) (i 1)).symm

end Cert.Bridge

end
-- ==== Proof.Consts.lean ====
/- The float words the two programs spell, as the extended reals they denote. -/
import Idealize.ShloMosaic.PureOps.Ideal

noncomputable section

namespace Cert.GraphAtt.Consts

open Idealize.ShloMosaic

/-- `+0.0` denotes 0. -/
theorem ofBits_zero : Ideal.ofBits .f32 0x00000000#32 = 0 := by
  simp [Ideal.ofBits, Ideal.ieee]

/-- `1.0` denotes 1. -/
theorem ofBits_one : Ideal.ofBits .f32 0x3F800000#32 = 1 := by
  simp [Ideal.ofBits, Ideal.ieee, -EReal.coe_mul]; norm_num

/-- `3.0` denotes the real 3. -/
theorem ofBits_three : Ideal.ofBits .f32 0x40400000#32 = ((3 : ℝ) : EReal) := by
  simp [Ideal.ofBits, Ideal.ieee, -EReal.coe_mul]; norm_num

/-- `10000.0` denotes the real 10000. -/
theorem ofBits_10000 : Ideal.ofBits .f32 0x461C4000#32 = ((10000 : ℝ) : EReal) := by
  simp [Ideal.ofBits, Ideal.ieee, -EReal.coe_mul]; norm_num

/-- The word of minus infinity denotes the bottom of the extended reals. -/
theorem ofBits_neg_inf : Ideal.ofBits .f32 0xFF800000#32 = ⊥ := by
  simp [Ideal.ofBits, Ideal.ieee]

end Cert.GraphAtt.Consts

end
-- ==== Proof.Region0.lean ====
/- The first stage of the layer, read index by index over the extended reals. It has no grid: its one point
   sees every operand whole. From the node features x (10000 × 128) and three 128 × 128 weight matrices it
   leaves four arrays: the products x · W_A and x · W_A2 (a change of float format is the identity on exact
   values, so the narrower storage format does not show), the positive part of x · W_mlp, and the column sums
   of that positive part, kept as one row. Each is proved equal to the specification's `mm`, `outM` and
   `colsum` at every row and column, for arbitrary contents `V` of the buffers when the stage is entered. -/
import proofs.«148014_g67783173865566_cont_9to1c4b_46_2_alg».proof.Proof.Gen.KernelIdeal.Frame
import proofs.«148014_g67783173865566_cont_9to1c4b_46_2_alg».proof.Proof.Spec
import proofs.«148014_g67783173865566_cont_9to1c4b_46_2_alg».proof.Proof.Consts
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.R0
open Cert.KernelIdeal Cert.KernelIdeal.Gen Cert.GraphAtt Idealize.ShloMosaic Idealize.ShloMosaic.TcCoe Idealize.ShloMosaic.ValueIdx Idealize.SL.Sem

/-! ## The body's arithmetic at an index -/

/-- The dimension record of the three products: axis 1 of the left operand is contracted with axis 0 of the
    right one; the left operand's rows and the right operand's columns remain. -/
abbrev D0 : DotDims S10000x128 S128x128 S10000x128 := dot_S10000x128_S128x128_S10000x128_1_0_0_1_n_n

/-- The left operand is read at the output's row … -/
theorem lhs0 (i : S10000x128.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
/-- … and at the contraction coordinate; -/
theorem lhs1 (i : S10000x128.Idx) (q : D0.contr.Idx) : (D0.lhsIdx i q 1).val = (q ⟨0, by decide⟩).val :=
  D0.lhsIdx_val_of_single rfl i q
/-- the right operand at the contraction coordinate … -/
theorem rhs0 (i : S10000x128.Idx) (q : D0.contr.Idx) : (D0.rhsIdx i q 0).val = (q ⟨0, by decide⟩).val :=
  D0.rhsIdx_val_of_single rfl i q
/-- … and at the output's column. -/
theorem rhs1 (i : S10000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- A product accumulated into zero, at row r and column d: the sum over the shared axis of
    x0[r, l] · x1[l, d]. The sum over the one-axis contraction index is re-indexed by that axis's coordinate. -/
theorem dot_apply (x0 : FVec Ideal S10000x128 .f32) (x1 : FVec Ideal S128x128 .f32) (r : Fin 10000) (d : Fin 128) :
    matmul (F := Ideal) D0 none x0 x1 (constant (F := Ideal) S10000x128 .f32 0x00000000#32) (ix2 r d)
      = ∑ l : Fin 128, x0 (ix2 r l) * x1 (ix2 l d) := by
  refine (Ideal.matmul_constant_zero_apply D0 none x0 x1 (ix2 r d)).trans ?_
  rw [← Equiv.sum_comp (contrEquiv1 D0 128 rfl rfl).symm]
  refine Finset.sum_congr rfl fun k _ => ?_
  have hk := contrEquiv1_symm_val D0 128 rfl rfl k
  have el : D0.lhsIdx (ix2 r d) ((contrEquiv1 D0 128 rfl rfl).symm k) = ix2 r k := funext fun a => Fin.ext (by
    match a with
    | ⟨0, _⟩ => exact lhs0 _ _
    | ⟨1, _⟩ => exact (lhs1 _ _).trans hk)
  have er : D0.rhsIdx (ix2 r d) ((contrEquiv1 D0 128 rfl rfl).symm k) = ix2 k d := funext fun a => Fin.ext (by
    match a with
    | ⟨0, _⟩ => exact (rhs0 _ _).trans hk
    | ⟨1, _⟩ => exact rhs1 _ _)
  rw [el, er]

/-- The first stored value: the product, narrowed to the storage format, which on exact values changes nothing. -/
theorem pay1_apply (x0 : Vec Ideal S10000x128 .f32) (x1 : Vec Ideal S128x128 .f32) (r : Fin 10000) (d : Fin 128) :
    k0_pay1 x0 x1 (ix2 r d) = ∑ l : Fin 128, x0 (ix2 r l) * x1 (ix2 l d) :=
  dot_apply x0 x1 r d

/-- The second stored value: the same with the second weight matrix. -/
theorem pay2_apply (x0 : Vec Ideal S10000x128 .f32) (x1 : Vec Ideal S128x128 .f32) (r : Fin 10000) (d : Fin 128) :
    k0_pay2 x0 x1 (ix2 r d) = ∑ l : Fin 128, x0 (ix2 r l) * x1 (ix2 l d) :=
  dot_apply x0 x1 r d

/-- The third stored value: the larger of the product and zero (the float word of +0.0 denotes 0). -/
theorem pay3_apply (x0 : Vec Ideal S10000x128 .f32) (x1 : Vec Ideal S128x128 .f32) (r : Fin 10000) (d : Fin 128) :
    k0_pay3 x0 x1 (ix2 r d) = max (∑ l : Fin 128, x0 (ix2 r l) * x1 (ix2 l d)) 0 := by
  show max (matmul (F := Ideal) D0 none x0 x1 (constant (F := Ideal) S10000x128 .f32 0x00000000#32) (ix2 r d)) (Ideal.ofBits .f32 0x00000000#32) = _
  rw [dot_apply, Ideal.ofBits_zero_f32]

/-- The fourth stored value: the third summed over the row axis (a sum started from zero over the 10000 rows,
    the reduced index (d) completed by the row to (r, d)), recast from 128 entries to one row of 128. -/
theorem pay4_apply (x0 : Vec Ideal S10000x128 .f32) (x1 : Vec Ideal S128x128 .f32) (d : Fin 128) :
    k0_pay4 x0 x1 (ix2 (0 : Fin 1) d) = ∑ r : Fin 10000, max (∑ l : Fin 128, x0 (ix2 r l) * x1 (ix2 l d)) 0 := by
  unfold k0_pay4
  refine (shapeCast_a_1a_apply _ Facts₀.shapeCasts_S128_S1x128 (0 : Fin 1) d).trans ?_
  refine (Ideal.multiReduction_add_single (k0_pay3 x0 x1) 0x00000000#32 Facts₀.reduces_S10000x128_S128 (.inl rfl) rfl (ix1 d)).trans ?_
  refine Finset.sum_congr rfl fun r _ => ?_
  have e : Facts₀.reduces_S10000x128_S128.lift (ix1 d) r = ix2 r d := funext fun a => Fin.ext (by
    match a with
    | ⟨0, _⟩ => rfl
    | ⟨1, _⟩ => rfl)
  rw [e]
  exact pay3_apply x0 x1 r d

/-! ## From the one point's buffers to the arrays

Every window of this stage is its whole array at block index 0, so a block's coordinate in the array is
0 × (the array's extent) + the coordinate itself: reading an input block reads the array, and the one
write-back of an output block writes the whole array. -/

variable (V : (c : Dev nD) → (b : Ref sig .tc) → Buf (Elt Ideal) ((c : Thread nD τ).loc b))

theorem hz : (![0, 0] : Fin 2 → Nat) = fun _ => 0 := funext fun a => by fin_cases a <;> rfl

/-- What the body leaves in each output buffer: one store covering the buffer, of the stored value computed from
    the loaded buffers, each loaded whole. -/
theorem out4_eq (x0 : Vec Ideal S10000x128 .f32) (x1 x2 x3 : Vec Ideal S128x128 .f32) :
    out0_4 x0 x1 x2 x3 = k0_pay1 x0 x1 := by
  unfold out0_4
  rw [View.canon_unit_zero hz]
  simp only [View.ld_unit_zero (S := S10000x128) hz, View.ld_unit_zero (S := S128x128) hz]

theorem out5_eq (x0 : Vec Ideal S10000x128 .f32) (x1 x2 x3 : Vec Ideal S128x128 .f32) :
    out0_5 x0 x1 x2 x3 = k0_pay2 x0 x2 := by
  unfold out0_5
  rw [View.canon_unit_zero hz]
  simp only [View.ld_unit_zero (S := S10000x128) hz, View.ld_unit_zero (S := S128x128) hz]

theorem out6_eq (x0 : Vec Ideal S10000x128 .f32) (x1 x2 x3 : Vec Ideal S128x128 .f32) :
    out0_6 x0 x1 x2 x3 = k0_pay3 x0 x3 := by
  unfold out0_6
  rw [View.canon_unit_zero hz]
  simp only [View.ld_unit_zero (S := S10000x128) hz, View.ld_unit_zero (S := S128x128) hz]

theorem out7_eq (x0 : Vec Ideal S10000x128 .f32) (x1 x2 x3 : Vec Ideal S128x128 .f32) :
    out0_7 x0 x1 x2 x3 = k0_pay4 x0 x3 := by
  unfold out0_7
  rw [View.canon_unit_zero hz]
  simp only [View.ld_unit_zero (S := S10000x128) hz, View.ld_unit_zero (S := S128x128) hz]

/-- Each input window's block is its array: x, W_A, W_A2, W_mlp. -/
theorem iblk_0 (c : Dev nD) (t : Fin cfg0.N) : iblk0 V c 0 t = V c main_arg0 := by
  unfold iblk0
  exact Memref.read_access_unit_zero (Elt Ideal) main_arg0 (off := fun a => win0_0.index t a * main_arg0.ty.shape.size a)
    (funext fun a => Nat.zero_mul _) _ (V c main_arg0)

theorem iblk_1 (c : Dev nD) (t : Fin cfg0.N) : iblk0 V c 1 t = V c main_arg3 := by
  unfold iblk0
  exact Memref.read_access_unit_zero (Elt Ideal) main_arg3 (off := fun a => win0_1.index t a * main_arg3.ty.shape.size a)
    (funext fun a => Nat.zero_mul _) _ (V c main_arg3)

theorem iblk_2 (c : Dev nD) (t : Fin cfg0.N) : iblk0 V c 2 t = V c main_arg4 := by
  unfold iblk0
  exact Memref.read_access_unit_zero (Elt Ideal) main_arg4 (off := fun a => win0_2.index t a * main_arg4.ty.shape.size a)
    (funext fun a => Nat.zero_mul _) _ (V c main_arg4)

theorem iblk_3 (c : Dev nD) (t : Fin cfg0.N) : iblk0 V c 3 t = V c main_arg5 := by
  unfold iblk0
  exact Memref.read_access_unit_zero (Elt Ideal) main_arg5 (off := fun a => win0_3.index t a * main_arg5.ty.shape.size a)
    (funext fun a => Nat.zero_mul _) _ (V c main_arg5)

/-- The four output arrays after the stage, as whole-array functions of the entry contents. -/
abbrev G4 (c : Dev nD) : Buf (Elt Ideal) ((c : Thread nD τ).loc main_call0_v0_0) := k0_pay1 (V c main_arg0) (V c main_arg3)
abbrev G5 (c : Dev nD) : Buf (Elt Ideal) ((c : Thread nD τ).loc main_call0_v0_1) := k0_pay2 (V c main_arg0) (V c main_arg4)
abbrev G6 (c : Dev nD) : Buf (Elt Ideal) ((c : Thread nD τ).loc main_call0_v0_2) := k0_pay3 (V c main_arg0) (V c main_arg5)
abbrev G7 (c : Dev nD) : Buf (Elt Ideal) ((c : Thread nD τ).loc main_call0_v0_3) := k0_pay4 (V c main_arg0) (V c main_arg5)

/-- What the point writes back for each output is the whole of that function (its block at index 0). -/
theorem flushed4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, out4_eq, iblk_0, iblk_1]
  exact (Memref.read_access_unit_zero (Elt Ideal) main_call0_v0_0 (off := fun a => win0_4.index t a * main_call0_v0_0.ty.shape.size a)
    (funext fun a => Nat.zero_mul _) _ (G4 V c)).symm

theorem flushed5 (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5, out5_eq, iblk_0, iblk_2]
  exact (Memref.read_access_unit_zero (Elt Ideal) main_call0_v0_1 (off := fun a => win0_5.index t a * main_call0_v0_1.ty.shape.size a)
    (funext fun a => Nat.zero_mul _) _ (G5 V c)).symm

theorem flushed6 (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6, out6_eq, iblk_0, iblk_3]
  exact (Memref.read_access_unit_zero (Elt Ideal) main_call0_v0_2 (off := fun a => win0_6.index t a * main_call0_v0_2.ty.shape.size a)
    (funext fun a => Nat.zero_mul _) _ (G6 V c)).symm

theorem flushed7 (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7, out7_eq, iblk_0, iblk_3]
  exact (Memref.read_access_unit_zero (Elt Ideal) main_call0_v0_3 (off := fun a => win0_7.index t a * main_call0_v0_3.ty.shape.size a)
    (funext fun a => Nat.zero_mul _) _ (G7 V c)).symm

/-- The one point's block covers every index of the array, so each array ends holding its function. -/
theorem final4 (c : Dev nD) : (dat0 V c).arrAt 4 cfg0.N = G4 V c :=
  (dat0 V c).arrAt_eq_of_cover 4 (G4 V c) (fun t _ => flushed4 V c t) fun i =>
    ⟨t0_0, flush0_4 t0_0, by
      show i ∈ ((View.whole main_call0_v0_0).slice (win0_4.rect t0_0)).set
      rw [View.set_slice_whole]
      exact View.mem_set_unit_zero (funext fun a => Nat.zero_mul _) _ i⟩

theorem final5 (c : Dev nD) : (dat0 V c).arrAt 5 cfg0.N = G5 V c :=
  (dat0 V c).arrAt_eq_of_cover 5 (G5 V c) (fun t _ => flushed5 V c t) fun i =>
    ⟨t0_0, flush0_5 t0_0, by
      show i ∈ ((View.whole main_call0_v0_1).slice (win0_5.rect t0_0)).set
      rw [View.set_slice_whole]
      exact View.mem_set_unit_zero (funext fun a => Nat.zero_mul _) _ i⟩

theorem final6 (c : Dev nD) : (dat0 V c).arrAt 6 cfg0.N = G6 V c :=
  (dat0 V c).arrAt_eq_of_cover 6 (G6 V c) (fun t _ => flushed6 V c t) fun i =>
    ⟨t0_0, flush0_6 t0_0, by
      show i ∈ ((View.whole main_call0_v0_2).slice (win0_6.rect t0_0)).set
      rw [View.set_slice_whole]
      exact View.mem_set_unit_zero (funext fun a => Nat.zero_mul _) _ i⟩

theorem final7 (c : Dev nD) : (dat0 V c).arrAt 7 cfg0.N = G7 V c :=
  (dat0 V c).arrAt_eq_of_cover 7 (G7 V c) (fun t _ => flushed7 V c t) fun i =>
    ⟨t0_0, flush0_7 t0_0, by
      show i ∈ ((View.whole main_call0_v0_3).slice (win0_7.rect t0_0)).set
      rw [View.set_slice_whole]
      exact View.mem_set_unit_zero (funext fun a => Nat.zero_mul _) _ i⟩

/-! ## The four arrays against the specification -/

/-- XA = x · W_A. -/
theorem xa (c : Dev nD) (r : Fin 10000) (d : Fin 128) :
    (dat0 (F := Ideal) V c).arrAt 4 cfg0.N (ix2 r d) = mm (cur (V c main_arg0)) (cur (V c main_arg3)) r d := by
  rw [final4 V c]
  exact pay1_apply _ _ r d

/-- XA2 = x · W_A2. -/
theorem xa2 (c : Dev nD) (r : Fin 10000) (d : Fin 128) :
    (dat0 (F := Ideal) V c).arrAt 5 cfg0.N (ix2 r d) = mm (cur (V c main_arg0)) (cur (V c main_arg4)) r d := by
  rw [final5 V c]
  exact pay2_apply _ _ r d

/-- Xm = the positive part of x · W_mlp. -/
theorem xm (c : Dev nD) (r : Fin 10000) (d : Fin 128) :
    (dat0 (F := Ideal) V c).arrAt 6 cfg0.N (ix2 r d) = outM (cur (V c main_arg0)) (cur (V c main_arg5)) r d := by
  rw [final6 V c]
  exact pay3_apply _ _ r d

/-- colm = the column sums of Xm, as one row. -/
theorem colm (c : Dev nD) (d : Fin 128) :
    (dat0 (F := Ideal) V c).arrAt 7 cfg0.N (ix2 (0 : Fin 1) d) = colsum (outM (cur (V c main_arg0)) (cur (V c main_arg5))) d := by
  rw [final7 V c]
  exact pay4_apply _ _ d

end Cert.KernelIdeal.R0
end
-- ==== Proof.Region1Blocks.lean ====
/- Region 1 of the kernel — the neighbourhood aggregation, 50 grid points of 200 rows each — and its two blocked
   outputs. At every point the body multiplies the point's 200 × 10000 block of an adjacency array into the whole
   10000 × 128 feature array and takes the positive part; the 200 × 128 result is written back as rows
   200 t … 200 t + 199 of the output. Both control cases of the body (the first point, which also zeroes the two
   column-sum accumulators, and the later points) store the same function of the input blocks into these two outputs,
   so each output array ends holding relu (A · B) index by index, with no induction over the points:

     oa  : output 4 = relu (adj_A  · XA)       oa2 : output 5 = relu (adj_A2 · XA2)

   The steps: each found piece is the body's payload of the input blocks (any float instance); the payload at an
   index is max (∑ₖ l p k · r k q) 0 over the extended reals (a change of float format and a cast to the same shape
   are the identity, the matrix unit's product into a zero accumulator is the plain sum); a window's block at point t
   is its array read at block index × block size + the coordinate inside the block; row r of the array lies in the
   block of point r / 200. -/
import proofs.«148014_g67783173865566_cont_9to1c4b_46_2_alg».proof.Proof.Gen.KernelIdeal.Frame
import proofs.«148014_g67783173865566_cont_9to1c4b_46_2_alg».proof.Proof.Spec
import proofs.«148014_g67783173865566_cont_9to1c4b_46_2_alg».proof.Proof.Consts
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.R1.Blocks
open Cert.KernelIdeal Cert.KernelIdeal.Gen Cert.GraphAtt Idealize.ShloMosaic Idealize.ShloMosaic.TcCoe Idealize.ShloMosaic.ValueIdx Idealize.SL.Sem

theorem hz : (![0, 0] : Fin 2 → Nat) = fun _ => 0 := funext fun a => by fin_cases a <;> rfl

/-! ## What each control case leaves in the two blocked outputs: the payload of the point's input blocks -/

section Pieces
variable {F : FTy → Type} [FloatOps F] [Named F]

/-- First point, output 4: one covering store of relu (x0 · x2), its loads reading the whole input buffers. -/
theorem blockA_first (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .bf16) (harg4 : arg4.IsWhole) (arg5 : Memref sig .tc .vmem S200x128 .f32) (harg5 : arg5.IsWhole) (arg6 : Memref sig .tc .vmem S200x128 .f32) (harg6 : arg6.IsWhole) (arg7 : Memref sig .tc .vmem S1x128 .f32) (harg7 : arg7.IsWhole) (arg8 : Memref sig .tc .vmem S1x128 .f32) (harg8 : arg8.IsWhole) (hc0 : cond1_0 i)
    (x0 : Vec F S200x10000 .f32) (x1 : Vec F S200x10000 .f32) (x2 : Vec F S10000x128 .bf16) (x3 : Vec F S10000x128 .bf16) :
    out1_A_4 c i arg1 harg1 arg2 harg2 arg3 harg3 arg4 harg4 arg5 harg5 arg6 harg6 arg7 harg7 arg8 harg8 hc0 x0 x1 x2 x3 = k1_pay4 x0 x2 := by
  unfold out1_A_4
  rw [View.read_writes_eq_canon _ _ _ (cover1_A_4 c i arg1 harg1 arg2 harg2 arg3 harg3 arg4 harg4 arg5 harg5 arg6 harg6 arg7 harg7 arg8 harg8 hc0 x0 x1 x2 x3)]
  unfold kernelRun1_A
  dsimp only
  sl_unfold_words
  rw [View.canon_unit_zero hz]
  simp only [View.readAt_eq_ld, harg1.read_unread, harg3.read_unread, View.ld_unit_zero (S := S200x10000) hz,
    View.ld_unit_zero (S := S10000x128) hz]

/-- A later point, output 4: the same store, whatever the accumulators hold. -/
theorem blockA_later (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .bf16) (harg4 : arg4.IsWhole) (arg5 : Memref sig .tc .vmem S200x128 .f32) (harg5 : arg5.IsWhole) (arg6 : Memref sig .tc .vmem S200x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i)
    (x0 : Vec F S200x10000 .f32) (x1 : Vec F S200x10000 .f32) (x2 : Vec F S10000x128 .bf16) (x3 : Vec F S10000x128 .bf16) (xo6 xo7 : Vec F S1x128 .f32) :
    out1_B_4 c i arg1 harg1 arg2 harg2 arg3 harg3 arg4 harg4 arg5 harg5 arg6 harg6 arg7 harg7 arg8 harg8 hc0 x0 x1 x2 x3 xo6 xo7 = k1_pay4 x0 x2 := by
  unfold out1_B_4
  rw [View.read_writes_eq_canon _ _ _ (cover1_B_4 c i arg1 harg1 arg2 harg2 arg3 harg3 arg4 harg4 arg5 harg5 arg6 harg6 arg7 harg7 arg8 harg8 hc0 x0 x1 x2 x3 xo6 xo7)]
  unfold kernelRun1_B
  dsimp only
  sl_unfold_words
  rw [View.canon_unit_zero hz]
  simp only [View.readAt_eq_ld, harg1.read_unread, harg3.read_unread, View.ld_unit_zero (S := S200x10000) hz,
    View.ld_unit_zero (S := S10000x128) hz]

/-- First point, output 5: one covering store of relu (x1 · x3). -/
theorem blockA2_first (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .bf16) (harg4 : arg4.IsWhole) (arg5 : Memref sig .tc .vmem S200x128 .f32) (harg5 : arg5.IsWhole) (arg6 : Memref sig .tc .vmem S200x128 .f32) (harg6 : arg6.IsWhole) (arg7 : Memref sig .tc .vmem S1x128 .f32) (harg7 : arg7.IsWhole) (arg8 : Memref sig .tc .vmem S1x128 .f32) (harg8 : arg8.IsWhole) (hc0 : cond1_0 i)
    (x0 : Vec F S200x10000 .f32) (x1 : Vec F S200x10000 .f32) (x2 : Vec F S10000x128 .bf16) (x3 : Vec F S10000x128 .bf16) :
    out1_A_5 c i arg1 harg1 arg2 harg2 arg3 harg3 arg4 harg4 arg5 harg5 arg6 harg6 arg7 harg7 arg8 harg8 hc0 x0 x1 x2 x3 = k1_pay6 x1 x3 := by
  unfold out1_A_5
  rw [View.read_writes_eq_canon _ _ _ (cover1_A_5 c i arg1 harg1 arg2 harg2 arg3 harg3 arg4 harg4 arg5 harg5 arg6 harg6 arg7 harg7 arg8 harg8 hc0 x0 x1 x2 x3)]
  unfold kernelRun1_A
  dsimp only
  sl_unfold_words
  rw [View.canon_unit_zero hz]
  simp only [View.readAt_eq_ld, harg2.read_unread, harg4.read_unread, View.ld_unit_zero (S := S200x10000) hz,
    View.ld_unit_zero (S := S10000x128) hz]

/-- A later point, output 5: the same store. -/
theorem blockA2_later (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .bf16) (harg4 : arg4.IsWhole) (arg5 : Memref sig .tc .vmem S200x128 .f32) (harg5 : arg5.IsWhole) (arg6 : Memref sig .tc .vmem S200x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i)
    (x0 : Vec F S200x10000 .f32) (x1 : Vec F S200x10000 .f32) (x2 : Vec F S10000x128 .bf16) (x3 : Vec F S10000x128 .bf16) (xo6 xo7 : Vec F S1x128 .f32) :
    out1_B_5 c i arg1 harg1 arg2 harg2 arg3 harg3 arg4 harg4 arg5 harg5 arg6 harg6 arg7 harg7 arg8 harg8 hc0 x0 x1 x2 x3 xo6 xo7 = k1_pay6 x1 x3 := by
  unfold out1_B_5
  rw [View.read_writes_eq_canon _ _ _ (cover1_B_5 c i arg1 harg1 arg2 harg2 arg3 harg3 arg4 harg4 arg5 harg5 arg6 harg6 arg7 harg7 arg8 harg8 hc0 x0 x1 x2 x3 xo6 xo7)]
  unfold kernelRun1_B
  dsimp only
  sl_unfold_words
  rw [View.canon_unit_zero hz]
  simp only [View.readAt_eq_ld, harg2.read_unread, harg4.read_unread, View.ld_unit_zero (S := S200x10000) hz,
    View.ld_unit_zero (S := S10000x128) hz]

end Pieces

/-! ## The payload at an index, over the extended reals -/

/-- The product's left operand index at (j, q): row j₀, the contracted coordinate on axis 1. -/
theorem lhs0 (j : S200x128.Idx) (q : dot_S200x10000_S10000x128_S200x128_1_0_0_1_n_n.contr.Idx) :
    (dot_S200x10000_S10000x128_S200x128_1_0_0_1_n_n.lhsIdx j q 0).val = (j 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem lhs1 (j : S200x128.Idx) (q : dot_S200x10000_S10000x128_S200x128_1_0_0_1_n_n.contr.Idx) :
    (dot_S200x10000_S10000x128_S200x128_1_0_0_1_n_n.lhsIdx j q 1).val = (q ⟨0, by decide⟩).val :=
  dot_S200x10000_S10000x128_S200x128_1_0_0_1_n_n.lhsIdx_val_of_single rfl j q
/-- The right operand's: the contracted coordinate on axis 0, column j₁. -/
theorem rhs0 (j : S200x128.Idx) (q : dot_S200x10000_S10000x128_S200x128_1_0_0_1_n_n.contr.Idx) :
    (dot_S200x10000_S10000x128_S200x128_1_0_0_1_n_n.rhsIdx j q 0).val = (q ⟨0, by decide⟩).val :=
  dot_S200x10000_S10000x128_S200x128_1_0_0_1_n_n.rhsIdx_val_of_single rfl j q
theorem rhs1 (j : S200x128.Idx) (q : dot_S200x10000_S10000x128_S200x128_1_0_0_1_n_n.contr.Idx) :
    (dot_S200x10000_S10000x128_S200x128_1_0_0_1_n_n.rhsIdx j q 1).val = (j 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- One entry of a block's product into the zero accumulator: row p of the left block against column q of the right
    array, a plain sum over the 10000 contracted coordinates. -/
theorem blockmm_apply (l : FVec Ideal S200x10000 .bf16) (r : FVec Ideal S10000x128 .bf16) (p : Fin 200) (q : Fin 128) :
    FloatOps.matmul dot_S200x10000_S10000x128_S200x128_1_0_0_1_n_n none l r (constant S200x128 .f32 0x00000000#32) (ix2 p q)
      = ∑ k : Fin 10000, l (ix2 p k) * r (ix2 k q) := by
  rw [Ideal.matmul_constant_zero_apply,
    ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q)
      ((contrEquiv1 dot_S200x10000_S10000x128_S200x128_1_0_0_1_n_n 10000 rfl rfl).symm k) = ix2 p k :=
    funext fun a => Fin.ext (by
      match a with
      | ⟨0, _⟩ => exact lhs0 _ _
      | ⟨1, _⟩ => exact (lhs1 _ _).trans hk)
  have er : dot_S200x10000_S10000x128_S200x128_1_0_0_1_n_n.rhsIdx (ix2 p q)
      ((contrEquiv1 dot_S200x10000_S10000x128_S200x128_1_0_0_1_n_n 10000 rfl rfl).symm k) = ix2 k q :=
    funext fun a => Fin.ext (by
      match a with
      | ⟨0, _⟩ => exact (rhs0 _ _).trans hk
      | ⟨1, _⟩ => exact rhs1 _ _)
  rw [el, er]

/-- Output 4's payload at (p, q): the positive part of row p of the adjacency block against column q of the
    features. The narrowing of the left operand and the same-shape cast of the right are the identity; the splat the
    maximum is taken against is the word of +0.0. -/
theorem pay4_apply (v3 : Vec Ideal S200x10000 .f32) (v5 : Vec Ideal S10000x128 .bf16) (p : Fin 200) (q : Fin 128) :
    k1_pay4 (F := Ideal) v3 v5 (ix2 p q) = max (∑ k : Fin 10000, v3 (ix2 p k) * v5 (ix2 k q)) 0 := by
  unfold k1_pay4
  refine (congrArg₂ max (blockmm_apply _ _ p q) Consts.ofBits_zero).trans ?_
  rw [shapeCast_self]
  rfl

/-- Output 5's payload at (p, q): the same term of the second pair of blocks. -/
theorem pay6_apply (v17 : Vec Ideal S200x10000 .f32) (v19 : Vec Ideal S10000x128 .bf16) (p : Fin 200) (q : Fin 128) :
    k1_pay6 (F := Ideal) v17 v19 (ix2 p q) = max (∑ k : Fin 10000, v17 (ix2 p k) * v19 (ix2 k q)) 0 := by
  unfold k1_pay6
  refine (congrArg₂ max (blockmm_apply _ _ p q) Consts.ofBits_zero).trans ?_
  rw [shapeCast_self]
  rfl

/-! ## The whole-array function: relu (A · B), index by index -/

/-- The aggregation a branch computes, as an array. -/
def aggArr (A : Arr 10000 10000) (B : Arr 10000 128) : Arr 10000 128 :=
  fun i => relu (mm (cur A) (cur B)) (i 0) (i 1)

theorem aggArr_apply (A : Arr 10000 10000) (B : Arr 10000 128) (r : Fin 10000) (d : Fin 128) :
    aggArr A B (ix2 r d) = relu (mm (cur A) (cur B)) r d := rfl

/-- Row p of block n is row 200 n + p of the array. -/
def rowOf (n : ℕ) (hn : n < 50) (p : Fin 200) : Fin 10000 := ⟨200 * n + p.val, by have := p.isLt; omega⟩

/-- If the left block is rows 200 n … 200 n + 199 of A and the right block is all of B, output 4's payload at y is the
    aggregation at the array index i that y names: row 200 n + y₀, column y₁. -/
theorem pay4_block (A : Arr 10000 10000) (B : Arr 10000 128) (x0 : Vec Ideal S200x10000 .f32) (x2 : Vec Ideal S10000x128 .bf16)
    (n : ℕ) (hn : n < 50)
    (h0 : ∀ (p : Fin 200) (k : Fin 10000), x0 (ix2 p k) = A (ix2 (rowOf n hn p) k))
    (h2 : ∀ (k : Fin 10000) (q : Fin 128), x2 (ix2 k q) = B (ix2 k q))
    (y : S200x128.Idx) (i : S10000x128.Idx) (hi0 : (i 0).val = 200 * n + (y 0).val) (hi1 : (i 1).val = (y 1).val) :
    k1_pay4 (F := Ideal) x0 x2 y = aggArr A B i := by
  obtain ⟨p, q, rfl⟩ : ∃ (p : Fin 200) (q : Fin 128), y = ix2 p q := ⟨y 0, y 1, eq_ix2 y⟩
  obtain ⟨r, d, rfl⟩ : ∃ (r : Fin 10000) (d : Fin 128), i = ix2 r d := ⟨i 0, i 1, eq_ix2 i⟩
  obtain rfl : r = rowOf n hn p := Fin.ext hi0
  obtain rfl : d = q := Fin.ext hi1
  rw [pay4_apply, aggArr_apply]
  show _ = max (∑ l : Fin 10000, A (ix2 (rowOf n hn p) l) * B (ix2 l d)) 0
  simp only [h0, h2]

/-- The same for output 5. -/
theorem pay6_block (A : Arr 10000 10000) (B : Arr 10000 128) (x1 : Vec Ideal S200x10000 .f32) (x3 : Vec Ideal S10000x128 .bf16)
    (n : ℕ) (hn : n < 50)
    (h1 : ∀ (p : Fin 200) (k : Fin 10000), x1 (ix2 p k) = A (ix2 (rowOf n hn p) k))
    (h3 : ∀ (k : Fin 10000) (q : Fin 128), x3 (ix2 k q) = B (ix2 k q))
    (y : S200x128.Idx) (i : S10000x128.Idx) (hi0 : (i 0).val = 200 * n + (y 0).val) (hi1 : (i 1).val = (y 1).val) :
    k1_pay6 (F := Ideal) x1 x3 y = aggArr A B i := by
  obtain ⟨p, q, rfl⟩ : ∃ (p : Fin 200) (q : Fin 128), y = ix2 p q := ⟨y 0, y 1, eq_ix2 y⟩
  obtain ⟨r, d, rfl⟩ : ∃ (r : Fin 10000) (d : Fin 128), i = ix2 r d := ⟨i 0, i 1, eq_ix2 i⟩
  obtain rfl : r = rowOf n hn p := Fin.ext hi0
  obtain rfl : d = q := Fin.ext hi1
  rw [pay6_apply, aggArr_apply]
  show _ = max (∑ l : Fin 10000, A (ix2 (rowOf n hn p) l) * B (ix2 l d)) 0
  simp only [h1, h3]

/-! ## The blocks of region 1 at a point -/

variable (V : (c : Dev nD) → (b : Ref sig .tc) → Buf (Elt Ideal) ((c : Thread nD τ).loc b))

theorem tlt (t : Fin cfg1.N) : t.val < 50 := by have hN : cfg1.N = 50 := N_1; have := t.isLt; omega

/-- The printed index maps over the grid: the adjacency and output windows move with the point along the rows,
    the two feature windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The first adjacency window's block at point t is rows 200 t … 200 t + 199 of its array. -/
theorem adjblk (c : Dev nD) (t : Fin cfg1.N) (p : Fin 200) (k : Fin 10000) :
    (iblk1 V c 0 t : Vec Ideal S200x10000 .f32) (ix2 p k) = (V c main_arg1 : Arr 10000 10000) (ix2 (rowOf t.val (tlt t) p) k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 200 + 1 * p.val = 200 * t.val + p.val; rw [e0]; omega
  | ⟨1, _⟩ => show win1_0.index t (1 : Fin 2) * 10000 + 1 * k.val = k.val; rw [e1]; omega

/-- The second adjacency window's likewise. -/
theorem adj2blk (c : Dev nD) (t : Fin cfg1.N) (p : Fin 200) (k : Fin 10000) :
    (iblk1 V c 1 t : Vec Ideal S200x10000 .f32) (ix2 p k) = (V c main_arg2 : Arr 10000 10000) (ix2 (rowOf t.val (tlt t) p) k) := by
  obtain ⟨-, -, e0, e1, -⟩ := idx_facts t
  unfold iblk1
  rw [View.read_apply]
  show V c main_arg2 _ = V c main_arg2 _
  congr 1
  funext a
  apply Fin.ext
  match a with
  | ⟨0, _⟩ => show win1_1.index t (0 : Fin 2) * 200 + 1 * p.val = 200 * t.val + p.val; rw [e0]; omega
  | ⟨1, _⟩ => show win1_1.index t (1 : Fin 2) * 10000 + 1 * k.val = k.val; rw [e1]; omega

/-- The first feature window's block at every point is its whole array. -/
theorem xablk (c : Dev nD) (t : Fin cfg1.N) (k : Fin 10000) (q : Fin 128) :
    (iblk1 V c 2 t : Vec Ideal S10000x128 .bf16) (ix2 k q) = (V c main_call0_v0_0 : Arr 10000 128) (ix2 k q) := by
  obtain ⟨-, -, -, -, e0, e1, -⟩ := idx_facts t
  unfold iblk1
  rw [View.read_apply]
  show V c main_call0_v0_0 _ = V c main_call0_v0_0 _
  congr 1
  funext a
  apply Fin.ext
  match a with
  | ⟨0, _⟩ => show win1_2.index t (0 : Fin 2) * 10000 + 1 * k.val = k.val; rw [e0]; omega
  | ⟨1, _⟩ => show win1_2.index t (1 : Fin 2) * 128 + 1 * q.val = q.val; rw [e1]; omega

/-- The second feature window's likewise. -/
theorem xa2blk (c : Dev nD) (t : Fin cfg1.N) (k : Fin 10000) (q : Fin 128) :
    (iblk1 V c 3 t : Vec Ideal S10000x128 .bf16) (ix2 k q) = (V c main_call0_v0_1 : Arr 10000 128) (ix2 k q) := by
  obtain ⟨-, -, -, -, -, -, e0, e1, -⟩ := idx_facts t
  unfold iblk1
  rw [View.read_apply]
  show V c main_call0_v0_1 _ = V c main_call0_v0_1 _
  congr 1
  funext a
  apply Fin.ext
  match a with
  | ⟨0, _⟩ => show win1_3.index t (0 : Fin 2) * 10000 + 1 * k.val = k.val; rw [e0]; omega
  | ⟨1, _⟩ => show win1_3.index t (1 : Fin 2) * 128 + 1 * q.val = q.val; rw [e1]; omega

/-- What output 4's buffer holds after point t: in both control cases the same function of the point's input
    blocks. -/
theorem outs_oa (c : Dev nD) (t : Fin cfg1.N) :
    (outsAt1 V c t.val t.isLt).1 = k1_pay4 (iblk1 V c 0 t) (iblk1 V c 2 t) := by
  by_cases h0 : t.val % 50 = 0
  · rw [outsAt1_A V c t h0]
    dsimp only
    exact blockA_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t)
  · rw [outsAt1_B V c t h0]
    dsimp only
    exact blockA_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2

/-- What output 5's buffer holds after point t. -/
theorem outs_oa2 (c : Dev nD) (t : Fin cfg1.N) :
    (outsAt1 V c t.val t.isLt).2.1 = k1_pay6 (iblk1 V c 1 t) (iblk1 V c 3 t) := by
  by_cases h0 : t.val % 50 = 0
  · rw [outsAt1_A V c t h0]
    dsimp only
    exact blockA2_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t)
  · rw [outsAt1_B V c t h0]
    dsimp only
    exact blockA2_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2

/-! ## From blocks to the arrays -/

/-- What point t writes back to output 4 is block t of the aggregation of the first adjacency array with the first
    feature array: element y of the block sits at row 200 t + y₀, column y₁. -/
theorem flushed_oa (c : Dev nD) (t : Fin cfg1.N) :
    (dat1 (F := Ideal) V c).flushed 4 t
      = ((cfg1.win 4).blk t).view.read (Elt Ideal) (aggArr (V c main_arg1) (V c main_call0_v0_0)) := by
  obtain ⟨-, -, -, -, -, -, -, -, e0, e1, -⟩ := idx_facts t
  show (cfg1.win 4).cut (grid1.coords t) ((dat1 V c).after 4 t) = _
  rw [after1_4, outs_oa V c t]
  funext j
  rw [View.read_apply]
  refine pay4_block (V c main_arg1) (V c main_call0_v0_0) (iblk1 V c 0 t) (iblk1 V c 2 t) t.val (tlt t)
    (adjblk V c t) (xablk V c t) _ _ ?_ ?_
  · show win1_4.index t (0 : Fin 2) * 200 + 1 * (j 0).val = 200 * t.val + (j 0).val; rw [e0]; omega
  · show win1_4.index t (1 : Fin 2) * 128 + 1 * (j 1).val = (j 1).val; rw [e1]; omega

/-- What point t writes back to output 5 is block t of the aggregation of the second pair. -/
theorem flushed_oa2 (c : Dev nD) (t : Fin cfg1.N) :
    (dat1 (F := Ideal) V c).flushed 5 t
      = ((cfg1.win 5).blk t).view.read (Elt Ideal) (aggArr (V c main_arg2) (V c main_call0_v0_1)) := by
  obtain ⟨-, -, -, -, -, -, -, -, -, -, e0, e1⟩ := idx_facts t
  show (cfg1.win 5).cut (grid1.coords t) ((dat1 V c).after 5 t) = _
  rw [after1_5, outs_oa2 V c t]
  funext j
  rw [View.read_apply]
  refine pay6_block (V c main_arg2) (V c main_call0_v0_1) (iblk1 V c 1 t) (iblk1 V c 3 t) t.val (tlt t)
    (adj2blk V c t) (xa2blk V c t) _ _ ?_ ?_
  · show win1_5.index t (0 : Fin 2) * 200 + 1 * (j 0).val = 200 * t.val + (j 0).val; rw [e0]; omega
  · show win1_5.index t (1 : Fin 2) * 128 + 1 * (j 1).val = (j 1).val; rw [e1]; omega

/-- An index of output 4's array is in point t's block iff each coordinate is in the block's range on its axis. -/
theorem mem_blk4 (t : Fin cfg1.N) (i : S10000x128.Idx) :
    i ∈ ((cfg1.win 4).blk t).view.set ↔ ∀ a : Fin 2, win1_4.index t a * S200x128.size a ≤ (i a).val ∧ (i a).val < win1_4.index t a * S200x128.size a + S200x128.size a := by
  show i ∈ ((View.whole main_call0_v1_0).slice (win1_4.rect t)).set ↔ _
  rw [View.set_slice_whole, Rect.mem_set_unit]
  exact Iff.rfl

/-- The same for output 5's array. -/
theorem mem_blk5 (t : Fin cfg1.N) (i : S10000x128.Idx) :
    i ∈ ((cfg1.win 5).blk t).view.set ↔ ∀ a : Fin 2, win1_5.index t a * S200x128.size a ≤ (i a).val ∧ (i a).val < win1_5.index t a * S200x128.size a + S200x128.size a := by
  show i ∈ ((View.whole main_call0_v1_1).slice (win1_5.rect t)).set ↔ _
  rw [View.set_slice_whole, Rect.mem_set_unit]
  exact Iff.rfl

/-- The 50 blocks cover output 4's array: row r is in the block of point r / 200. -/
theorem cover4 (i : S10000x128.Idx) : ∃ t : Fin cfg1.N, (cfg1.win 4).flush t = true ∧ i ∈ ((cfg1.win 4).blk t).view.set := by
  have hN : cfg1.N = 50 := N_1
  have hi0 : (i 0).val < 10000 := idx2_lt0 i
  have hi1 : (i 1).val < 128 := idx2_lt1 i
  obtain ⟨t, ht⟩ : ∃ t : Fin cfg1.N, t.val = (i 0).val / 200 := ⟨⟨(i 0).val / 200, by rw [hN]; omega⟩, rfl⟩
  obtain ⟨-, -, -, -, -, -, -, -, e0, e1, -⟩ := idx_facts t
  refine ⟨t, flush1_4 t, ?_⟩
  rw [mem_blk4]
  intro a
  match a with
  | ⟨0, _⟩ => show win1_4.index t (0 : Fin 2) * 200 ≤ (i 0).val ∧ (i 0).val < win1_4.index t (0 : Fin 2) * 200 + 200; rw [e0, ht]; omega
  | ⟨1, _⟩ => show win1_4.index t (1 : Fin 2) * 128 ≤ (i 1).val ∧ (i 1).val < win1_4.index t (1 : Fin 2) * 128 + 128; rw [e1]; omega

/-- They cover output 5's array the same way. -/
theorem cover5 (i : S10000x128.Idx) : ∃ t : Fin cfg1.N, (cfg1.win 5).flush t = true ∧ i ∈ ((cfg1.win 5).blk t).view.set := by
  have hN : cfg1.N = 50 := N_1
  have hi0 : (i 0).val < 10000 := idx2_lt0 i
  have hi1 : (i 1).val < 128 := idx2_lt1 i
  obtain ⟨t, ht⟩ : ∃ t : Fin cfg1.N, t.val = (i 0).val / 200 := ⟨⟨(i 0).val / 200, by rw [hN]; omega⟩, rfl⟩
  obtain ⟨-, -, -, -, -, -, -, -, -, -, e0, e1⟩ := idx_facts t
  refine ⟨t, flush1_5 t, ?_⟩
  rw [mem_blk5]
  intro a
  match a with
  | ⟨0, _⟩ => show win1_5.index t (0 : Fin 2) * 200 ≤ (i 0).val ∧ (i 0).val < win1_5.index t (0 : Fin 2) * 200 + 200; rw [e0, ht]; omega
  | ⟨1, _⟩ => show win1_5.index t (1 : Fin 2) * 128 ≤ (i 1).val ∧ (i 1).val < win1_5.index t (1 : Fin 2) * 128 + 128; rw [e1]; omega

/-- Output 4's array ends holding the aggregation of the first adjacency array with the first feature array. -/
theorem final_oa (c : Dev nD) :
    (dat1 (F := Ideal) V c).arrAt 4 cfg1.N = aggArr (V c main_arg1) (V c main_call0_v0_0) :=
  (dat1 (F := Ideal) V c).arrAt_eq_of_cover 4 (aggArr (V c main_arg1) (V c main_call0_v0_0))
    (fun t _ => flushed_oa V c t) cover4

/-- Output 5's array ends holding the aggregation of the second pair. -/
theorem final_oa2 (c : Dev nD) :
    (dat1 (F := Ideal) V c).arrAt 5 cfg1.N = aggArr (V c main_arg2) (V c main_call0_v0_1) :=
  (dat1 (F := Ideal) V c).arrAt_eq_of_cover 5 (aggArr (V c main_arg2) (V c main_call0_v0_1))
    (fun t _ => flushed_oa2 V c t) cover5

end Cert.KernelIdeal.R1.Blocks

namespace Cert.KernelIdeal.R1
open Cert.KernelIdeal Cert.KernelIdeal.Gen Cert.GraphAtt Idealize.ShloMosaic Idealize.ShloMosaic.TcCoe Idealize.ShloMosaic.ValueIdx Idealize.SL.Sem

variable (V : (c : Dev nD) → (b : Ref sig .tc) → Buf (Elt Ideal) ((c : Thread nD τ).loc b))

/-- After region 1 the first blocked output holds relu (adj_A · XA), entry by entry. -/
theorem oa (c : Dev nD) (r : Fin 10000) (d : Fin 128) : (dat1 (F := Ideal) V c).arrAt 4 cfg1.N (ix2 r d) = relu (mm (cur (V c main_arg1)) (cur (V c main_call0_v0_0))) r d :=
  (congrFun (Blocks.final_oa V c) (ix2 r d)).trans (Blocks.aggArr_apply _ _ r d)

/-- After region 1 the second blocked output holds relu (adj_A2 · XA2), entry by entry. -/
theorem oa2 (c : Dev nD) (r : Fin 10000) (d : Fin 128) : (dat1 (F := Ideal) V c).arrAt 5 cfg1.N (ix2 r d) = relu (mm (cur (V c main_arg2)) (cur (V c main_call0_v0_1))) r d :=
  (congrFun (Blocks.final_oa2 V c) (ix2 r d)).trans (Blocks.aggArr_apply _ _ r d)

end Cert.KernelIdeal.R1
end
-- ==== Proof.Region1Sums.lean ====
/- Stage 2's two accumulated outputs. The grid has 50 points; point t multiplies a block of 200 rows of each adjacency
   matrix into the whole feature array, takes the positive part, and adds the block's 128 column sums into a [1, 128]
   row that stays in place across the grid (set to zero at point 0, written back once, after point 49). This module
   shows that the two rows end at the column sums of relu (adj · X) over all 10000 rows: what each point leaves in a
   row as a term of what it held and of the point's blocks; that term read at a column as "old + the block's column
   sum"; the blocks as rows 200·t … 200·t + 199 of the arrays; the running sum over the points by induction; fifty
   blocks of 200 rows regrouped into one sum over 10000 rows; and the one write-back, whose block is the whole row. -/
import proofs.«148014_g67783173865566_cont_9to1c4b_46_2_alg».proof.Proof.Gen.KernelIdeal.Frame
import proofs.«148014_g67783173865566_cont_9to1c4b_46_2_alg».proof.Proof.Spec
import proofs.«148014_g67783173865566_cont_9to1c4b_46_2_alg».proof.Proof.Consts
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.R1s
open Cert.KernelIdeal Cert.KernelIdeal.Gen Cert.GraphAtt Idealize.ShloMosaic Idealize.ShloMosaic.TcCoe Idealize.ShloMosaic.ValueIdx Idealize.SL.Sem

section Pieces
variable {F : FTy → Type} [FloatOps F] [Named F]

theorem hz : (![0, 0] : Fin 2 → Nat) = fun _ => 0 := funext fun a => by fin_cases a <;> rfl

/-- At a later point the first accumulator, holding `xo6`, is left at the payload of the first adjacency block, the
    first feature array and `xo6`. -/
theorem out_B_6 (c : Dev nD) (i : grid1.Coords) (a1 : Memref sig .tc .vmem S200x10000 .f32) (h1 : a1.IsWhole) (a2 : Memref sig .tc .vmem S200x10000 .f32) (h2 : a2.IsWhole) (a3 : Memref sig .tc .vmem S10000x128 .bf16) (h3 : a3.IsWhole) (a4 : Memref sig .tc .vmem S10000x128 .bf16) (h4 : a4.IsWhole) (a5 : Memref sig .tc .vmem S200x128 .f32) (h5 : a5.IsWhole) (a6 : Memref sig .tc .vmem S200x128 .f32) (h6 : a6.IsWhole) (a7 : Memref sig .tc .vmem S1x128 .f32) (h7 : a7.IsWhole) (a8 : Memref sig .tc .vmem S1x128 .f32) (h8 : a8.IsWhole) (hc : ¬cond1_0 i)
    (x0 x1 : Vec F S200x10000 .f32) (x2 x3 : Vec F S10000x128 .bf16) (xo6 xo7 : Vec F S1x128 .f32) :
    out1_B_6 c i a1 h1 a2 h2 a3 h3 a4 h4 a5 h5 a6 h6 a7 h7 a8 h8 hc x0 x1 x2 x3 xo6 xo7 = k1_pay5 x0 x2 xo6 := by
  unfold out1_B_6
  rw [View.read_writes_eq_canon _ _ _ (cover1_B_6 c i a1 h1 a2 h2 a3 h3 a4 h4 a5 h5 a6 h6 a7 h7 a8 h8 hc x0 x1 x2 x3 xo6 xo7)]
  unfold kernelRun1_B
  dsimp only
  rw [View.canon_unit_zero hz]
  simp only [View.readAt_eq_ld, h1.read_unread, h3.read_unread, h7.read_unread, View.ld_unit_zero (S := S200x10000) hz,
    View.ld_unit_zero (S := S10000x128) hz, View.ld_unit_zero (S := S1x128) hz]

/-- The same for the second accumulator, holding `xo7`, over the second adjacency block and feature array. -/
theorem out_B_7 (c : Dev nD) (i : grid1.Coords) (a1 : Memref sig .tc .vmem S200x10000 .f32) (h1 : a1.IsWhole) (a2 : Memref sig .tc .vmem S200x10000 .f32) (h2 : a2.IsWhole) (a3 : Memref sig .tc .vmem S10000x128 .bf16) (h3 : a3.IsWhole) (a4 : Memref sig .tc .vmem S10000x128 .bf16) (h4 : a4.IsWhole) (a5 : Memref sig .tc .vmem S200x128 .f32) (h5 : a5.IsWhole) (a6 : Memref sig .tc .vmem S200x128 .f32) (h6 : a6.IsWhole) (a7 : Memref sig .tc .vmem S1x128 .f32) (h7 : a7.IsWhole) (a8 : Memref sig .tc .vmem S1x128 .f32) (h8 : a8.IsWhole) (hc : ¬cond1_0 i)
    (x0 x1 : Vec F S200x10000 .f32) (x2 x3 : Vec F S10000x128 .bf16) (xo6 xo7 : Vec F S1x128 .f32) :
    out1_B_7 c i a1 h1 a2 h2 a3 h3 a4 h4 a5 h5 a6 h6 a7 h7 a8 h8 hc x0 x1 x2 x3 xo6 xo7 = k1_pay1 (k1_pay7 xo7) (k1_pay8 x1 x3) := by
  unfold out1_B_7
  rw [View.read_writes_eq_canon _ _ _ (cover1_B_7 c i a1 h1 a2 h2 a3 h3 a4 h4 a5 h5 a6 h6 a7 h7 a8 h8 hc x0 x1 x2 x3 xo6 xo7)]
  unfold kernelRun1_B
  dsimp only
  sl_unfold_words
  rw [View.canon_unit_zero hz]
  simp only [View.readAt_eq_ld, h2.read_unread, h4.read_unread, h8.read_unread, View.ld_unit_zero (S := S200x10000) hz,
    View.ld_unit_zero (S := S10000x128) hz, View.ld_unit_zero (S := S1x128) hz]

/-- At the first point the first accumulator is zeroed and then left at the same payload over the zero row. -/
theorem out_A_6 (c : Dev nD) (i : grid1.Coords) (a1 : Memref sig .tc .vmem S200x10000 .f32) (h1 : a1.IsWhole) (a2 : Memref sig .tc .vmem S200x10000 .f32) (h2 : a2.IsWhole) (a3 : Memref sig .tc .vmem S10000x128 .bf16) (h3 : a3.IsWhole) (a4 : Memref sig .tc .vmem S10000x128 .bf16) (h4 : a4.IsWhole) (a5 : Memref sig .tc .vmem S200x128 .f32) (h5 : a5.IsWhole) (a6 : Memref sig .tc .vmem S200x128 .f32) (h6 : a6.IsWhole) (a7 : Memref sig .tc .vmem S1x128 .f32) (h7 : a7.IsWhole) (a8 : Memref sig .tc .vmem S1x128 .f32) (h8 : a8.IsWhole) (hc : cond1_0 i)
    (x0 x1 : Vec F S200x10000 .f32) (x2 x3 : Vec F S10000x128 .bf16) :
    out1_A_6 c i a1 h1 a2 h2 a3 h3 a4 h4 a5 h5 a6 h6 a7 h7 a8 h8 hc x0 x1 x2 x3 = k1_pay5 x0 x2 k1_pay2 := by
  unfold out1_A_6
  rw [View.read_writes_eq_canon _ _ _ (cover1_A_6 c i a1 h1 a2 h2 a3 h3 a4 h4 a5 h5 a6 h6 a7 h7 a8 h8 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h3.read_unread, View.ld_unit_zero (S := S200x10000) hz,
    View.ld_unit_zero (S := S10000x128) hz]

/-- The same for the second accumulator. -/
theorem out_A_7 (c : Dev nD) (i : grid1.Coords) (a1 : Memref sig .tc .vmem S200x10000 .f32) (h1 : a1.IsWhole) (a2 : Memref sig .tc .vmem S200x10000 .f32) (h2 : a2.IsWhole) (a3 : Memref sig .tc .vmem S10000x128 .bf16) (h3 : a3.IsWhole) (a4 : Memref sig .tc .vmem S10000x128 .bf16) (h4 : a4.IsWhole) (a5 : Memref sig .tc .vmem S200x128 .f32) (h5 : a5.IsWhole) (a6 : Memref sig .tc .vmem S200x128 .f32) (h6 : a6.IsWhole) (a7 : Memref sig .tc .vmem S1x128 .f32) (h7 : a7.IsWhole) (a8 : Memref sig .tc .vmem S1x128 .f32) (h8 : a8.IsWhole) (hc : cond1_0 i)
    (x0 x1 : Vec F S200x10000 .f32) (x2 x3 : Vec F S10000x128 .bf16) :
    out1_A_7 c i a1 h1 a2 h2 a3 h3 a4 h4 a5 h5 a6 h6 a7 h7 a8 h8 hc x0 x1 x2 x3 = k1_pay1 (k1_pay7 k1_pay3) (k1_pay8 x1 x3) := by
  unfold out1_A_7
  rw [View.read_writes_eq_canon _ _ _ (cover1_A_7 c i a1 h1 a2 h2 a3 h3 a4 h4 a5 h5 a6 h6 a7 h7 a8 h8 hc x0 x1 x2 x3)]
  unfold kernelRun1_A
  dsimp only
  sl_unfold_words
  rw [View.canon_cons_unit_zero (S := S1x128) hz, View.readCov_unit_zero (S := S1x128) _ hz]
  simp only [View.readAt_eq_ld, h2.read_unread, h4.read_unread, View.ld_unit_zero (S := S200x10000) hz,
    View.ld_unit_zero (S := S10000x128) hz]
end Pieces

section Payloads

/-- The zero row the first point stores reads 0 everywhere. -/
theorem zero6_apply (j : S1x128.Idx) : k1_pay2 (F := Ideal) j = 0 := Consts.ofBits_zero
theorem zero7_apply (j : S1x128.Idx) : k1_pay3 (F := Ideal) j = 0 := Consts.ofBits_zero

/-- Column `q` of the row reduction with row `p` put back is the entry `(p, q)`. -/
theorem lift_eq (h : S200x128.Reduces [0] S128) (q : Fin 128) (p : Fin 200) : h.lift (ix1 q) p = ix2 p q :=
  funext fun a => Fin.ext (by match a with | ⟨0, _⟩ => rfl | ⟨1, _⟩ => rfl)

/-- The column sums of a 200 × 128 block, as a row: at `(0, q)` the sum over the rows of column `q`. -/
theorem rowsum_apply (src : FVec Ideal S200x128 .f32) (h : S200x128.Reduces [0] S128) (hφ : FKind.Formats .f32)
    (hacc : (0x00000000#32 : BitVec 32) = 0x00000000#32) (hc : S128.ShapeCasts S1x128) (q : Fin 128) :
    shapeCast S1x128 (multiReduction .add [0] S128 src 0x00000000#32 h hφ hacc) hc (ix2 (0 : Fin 1) q)
      = ∑ p : Fin 200, src (ix2 p q) := by
  refine (shapeCast_a_1a_apply _ hc 0 q).trans ?_
  refine (Ideal.multiReduction_add_single src 0x00000000#32 h hφ hacc (ix1 q)).trans ?_
  exact Finset.sum_congr rfl fun p _ => congrArg src (lift_eq h q p)

/-- The dimension numbers of the block product: [200, 10000] × [10000, 128], contracting the 10000. -/
abbrev DD : DotDims S200x10000 S10000x128 S200x128 := dot_S200x10000_S10000x128_S200x128_1_0_0_1_n_n

theorem lhs_0 (i : S200x128.Idx) (q : DD.contr.Idx) : (DD.lhsIdx i q 0).val = (i 0).val := by
  unfold DotDims.lhsIdx
  rw [dif_neg (show ¬(0 : Fin S200x10000.rank) ∈ DD.lhsBatch by decide), dif_pos (show (0 : Fin S200x10000.rank) ∈ DD.lhsNonContracting by decide)]
  rfl
theorem lhs_1 (i : S200x128.Idx) (q : DD.contr.Idx) : (DD.lhsIdx i q 1).val = (q ⟨0, by decide⟩).val :=
  DD.lhsIdx_val_of_single rfl i q
theorem rhs_0 (i : S200x128.Idx) (q : DD.contr.Idx) : (DD.rhsIdx i q 0).val = (q ⟨0, by decide⟩).val :=
  DD.rhsIdx_val_of_single rfl i q
theorem rhs_1 (i : S200x128.Idx) (q : DD.contr.Idx) : (DD.rhsIdx i q 1).val = (i 1).val := by
  unfold DotDims.rhsIdx
  rw [dif_neg (show ¬(1 : Fin S10000x128.rank) ∈ DD.rhsBatch by decide), dif_pos (show (1 : Fin S10000x128.rank) ∈ DD.rhsNonContracting by decide)]
  rfl

/-- The block product into the zero accumulator, at `(p, q)`: the sum over the contracted coordinate. -/
theorem matmul_at (l : FVec Ideal S200x10000 .bf16) (r : FVec Ideal S10000x128 .bf16) (p : Fin 200) (q : Fin 128) :
    matmul DD none l r (constant S200x128 .f32 0x00000000#32) (ix2 p q) = ∑ k : Fin 10000, l (ix2 p k) * r (ix2 k q) := by
  refine (Ideal.matmul_constant_zero_apply DD none l r (ix2 p q)).trans ?_
  rw [← Equiv.sum_comp (contrEquiv1 DD 10000 rfl rfl).symm]
  refine Finset.sum_congr rfl fun k _ => ?_
  have hk := contrEquiv1_symm_val DD 10000 rfl rfl k
  have el : DD.lhsIdx (ix2 p q) ((contrEquiv1 DD 10000 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 10000 rfl rfl).symm k) = ix2 k q := funext fun a => Fin.ext (by
    match a with
    | ⟨0, _⟩ => exact (rhs_0 _ _).trans hk
    | ⟨1, _⟩ => exact rhs_1 _ _)
  rw [el, er]

/-- The first branch's block: the positive part of the block product, at `(p, q)`. -/
theorem pay4_apply (v3 : Vec Ideal S200x10000 .f32) (v5 : Vec Ideal S10000x128 .bf16) (p : Fin 200) (q : Fin 128) :
    k1_pay4 (F := Ideal) v3 v5 (ix2 p q) = max (∑ k : Fin 10000, v3 (ix2 p k) * v5 (ix2 k q)) 0 := by
  unfold k1_pay4
  refine (maximumf_apply _ _ _).trans ?_
  refine congrArg₂ max ?_ Consts.ofBits_zero
  refine (congrArg (fun r => matmul DD none _ r _ (ix2 p q)) (shapeCast_self v5 _)).trans ?_
  exact matmul_at _ v5 p q

/-- The second branch's block, likewise. -/
theorem pay6_apply (v17 : Vec Ideal S200x10000 .f32) (v19 : Vec Ideal S10000x128 .bf16) (p : Fin 200) (q : Fin 128) :
    k1_pay6 (F := Ideal) v17 v19 (ix2 p q) = max (∑ k : Fin 10000, v17 (ix2 p k) * v19 (ix2 k q)) 0 := by
  unfold k1_pay6
  refine (maximumf_apply _ _ _).trans ?_
  refine congrArg₂ max ?_ Consts.ofBits_zero
  refine (congrArg (fun r => matmul DD none _ r _ (ix2 p q)) (shapeCast_self v19 _)).trans ?_
  exact matmul_at _ v19 p q

/-- What a point leaves in the first accumulator, at column `q`: what it held plus the block's column sum. -/
theorem pay5_apply (v3 : Vec Ideal S200x10000 .f32) (v5 : Vec Ideal S10000x128 .bf16) (v11 : Vec Ideal S1x128 .f32) (q : Fin 128) :
    k1_pay5 (F := Ideal) v3 v5 v11 (ix2 (0 : Fin 1) q)
      = v11 (ix2 (0 : Fin 1) q) + ∑ p : Fin 200, max (∑ k : Fin 10000, v3 (ix2 p k) * v5 (ix2 k q)) 0 := by
  unfold k1_pay5
  refine (addf_apply _ _ _).trans ?_
  refine congrArg₂ (· + ·) (congrFun (shapeCast_self v11 _) _) ?_
  refine (rowsum_apply (k1_pay4 v3 v5) _ _ _ _ q).trans ?_
  exact Finset.sum_congr rfl fun p _ => pay4_apply v3 v5 p q

/-- The same for the second accumulator. -/
theorem pay1_apply (v17 : Vec Ideal S200x10000 .f32) (v19 : Vec Ideal S10000x128 .bf16) (v25 : Vec Ideal S1x128 .f32) (q : Fin 128) :
    k1_pay1 (F := Ideal) (k1_pay7 v25) (k1_pay8 v17 v19) (ix2 (0 : Fin 1) q)
      = v25 (ix2 (0 : Fin 1) q) + ∑ p : Fin 200, max (∑ k : Fin 10000, v17 (ix2 p k) * v19 (ix2 k q)) 0 := by
  unfold k1_pay1 k1_pay7 k1_pay8
  refine (addf_apply _ _ _).trans ?_
  refine congrArg₂ (· + ·) (congrFun (shapeCast_self v25 _) _) ?_
  refine (rowsum_apply (k1_pay6 v17 v19) _ _ _ _ q).trans ?_
  exact Finset.sum_congr rfl fun p _ => pay6_apply v17 v19 p q

end Payloads

section Blocks
variable (V : (c : Dev nD) → (b : Ref sig .tc) → Buf (Elt Ideal) ((c : Thread nD τ).loc b))

theorem hN : cfg1.N = 50 := N_1

/-- The four input blocks of point `t`, as vectors of their literal shapes. -/
abbrev blkA (c : Dev nD) (t : Fin cfg1.N) : Vec Ideal S200x10000 .f32 := iblk1 V c 0 t
abbrev blkA2 (c : Dev nD) (t : Fin cfg1.N) : Vec Ideal S200x10000 .f32 := iblk1 V c 1 t
abbrev blkX (c : Dev nD) (t : Fin cfg1.N) : Vec Ideal S10000x128 .bf16 := iblk1 V c 2 t
abbrev blkX2 (c : Dev nD) (t : Fin cfg1.N) : Vec Ideal S10000x128 .bf16 := iblk1 V c 3 t

/-- The first adjacency's block at point `t` is rows `200·t … 200·t + 199` of the array. -/
theorem iblk_adj (c : Dev nD) (t : Fin cfg1.N) (p : Fin 200) (k : Fin 10000) (r : Fin 10000) (hr : r.val = 200 * t.val + p.val) :
    blkA V c t (ix2 p k) = cur (V c main_arg1) r k := by
  have hi : win1_0.index t 0 = t.val ∧ win1_0.index t 1 = 0 :=
    (by decide +kernel : ∀ t : Fin grid1.N, win1_0.index t 0 = t.val ∧ win1_0.index t 1 = 0) t
  unfold blkA iblk1
  rw [View.read_apply]
  show V c main_arg1 _ = V c main_arg1 _
  congr 1
  funext a
  apply Fin.ext
  match a with
  | ⟨0, _⟩ => show win1_0.index t 0 * 200 + 1 * p.val = r.val; rw [hi.1, hr]; omega
  | ⟨1, _⟩ => show win1_0.index t 1 * 10000 + 1 * k.val = k.val; rw [hi.2]; omega

/-- The second adjacency's block, likewise. -/
theorem iblk_adj2 (c : Dev nD) (t : Fin cfg1.N) (p : Fin 200) (k : Fin 10000) (r : Fin 10000) (hr : r.val = 200 * t.val + p.val) :
    blkA2 V c t (ix2 p k) = cur (V c main_arg2) r k := by
  have hi : win1_1.index t 0 = t.val ∧ win1_1.index t 1 = 0 :=
    (by decide +kernel : ∀ t : Fin grid1.N, win1_1.index t 0 = t.val ∧ win1_1.index t 1 = 0) t
  unfold blkA2 iblk1
  rw [View.read_apply]
  show V c main_arg2 _ = V c main_arg2 _
  congr 1
  funext a
  apply Fin.ext
  match a with
  | ⟨0, _⟩ => show win1_1.index t 0 * 200 + 1 * p.val = r.val; rw [hi.1, hr]; omega
  | ⟨1, _⟩ => show win1_1.index t 1 * 10000 + 1 * k.val = k.val; rw [hi.2]; omega

/-- The first feature array's block at every point is the whole array. -/
theorem iblk_xa (c : Dev nD) (t : Fin cfg1.N) (k : Fin 10000) (q : Fin 128) :
    blkX V c t (ix2 k q) = cur (V c main_call0_v0_0) k q := by
  have hi : win1_2.index t 0 = 0 ∧ win1_2.index t 1 = 0 :=
    (by decide +kernel : ∀ t : Fin grid1.N, win1_2.index t 0 = 0 ∧ win1_2.index t 1 = 0) t
  unfold blkX iblk1
  rw [View.read_apply]
  show V c main_call0_v0_0 _ = V c main_call0_v0_0 _
  congr 1
  funext a
  apply Fin.ext
  match a with
  | ⟨0, _⟩ => show win1_2.index t 0 * 10000 + 1 * k.val = k.val; rw [hi.1]; omega
  | ⟨1, _⟩ => show win1_2.index t 1 * 128 + 1 * q.val = q.val; rw [hi.2]; omega

/-- The second feature array's, likewise. -/
theorem iblk_xa2 (c : Dev nD) (t : Fin cfg1.N) (k : Fin 10000) (q : Fin 128) :
    blkX2 V c t (ix2 k q) = cur (V c main_call0_v0_1) k q := by
  have hi : win1_3.index t 0 = 0 ∧ win1_3.index t 1 = 0 :=
    (by decide +kernel : ∀ t : Fin grid1.N, win1_3.index t 0 = 0 ∧ win1_3.index t 1 = 0) t
  unfold blkX2 iblk1
  rw [View.read_apply]
  show V c main_call0_v0_1 _ = V c main_call0_v0_1 _
  congr 1
  funext a
  apply Fin.ext
  match a with
  | ⟨0, _⟩ => show win1_3.index t 0 * 10000 + 1 * k.val = k.val; rw [hi.1]; omega
  | ⟨1, _⟩ => show win1_3.index t 1 * 128 + 1 * q.val = q.val; rw [hi.2]; omega

/-- The sum of column `d` over the 200 rows of row block `s` of a 10000 × 128 matrix (0 past the matrix). -/
def bsum (o : Mat 10000 128) (s : ℕ) (d : Fin 128) : EReal :=
  ∑ p : Fin 200, if h : 200 * s + p.val < 10000 then o ⟨200 * s + p.val, h⟩ d else 0

/-- The column sum of the first branch's block at point `t`, as the rows `200·t …` of the whole branch output. -/
theorem blocksum_a (c : Dev nD) (t : Fin cfg1.N) (d : Fin 128) :
    (∑ p : Fin 200, max (∑ k : Fin 10000, blkA V c t (ix2 p k) * blkX V c t (ix2 k d)) 0)
      = bsum (relu (mm (cur (V c main_arg1)) (cur (V c main_call0_v0_0)))) t.val d := by
  have ht : t.val < 50 := lt_of_lt_of_eq t.isLt hN
  refine Finset.sum_congr rfl fun p _ => ?_
  have hp : 200 * t.val + p.val < 10000 := by have := p.isLt; omega
  rw [dif_pos hp]
  show _ = max (∑ l : Fin 10000, cur (V c main_arg1) ⟨200 * t.val + p.val, hp⟩ l * cur (V c main_call0_v0_0) l d) 0
  refine congrArg (fun x => max x 0) (Finset.sum_congr rfl fun k _ => ?_)
  rw [iblk_adj V c t p k ⟨200 * t.val + p.val, hp⟩ rfl, iblk_xa V c t k d]

theorem blocksum_a2 (c : Dev nD) (t : Fin cfg1.N) (d : Fin 128) :
    (∑ p : Fin 200, max (∑ k : Fin 10000, blkA2 V c t (ix2 p k) * blkX2 V c t (ix2 k d)) 0)
      = bsum (relu (mm (cur (V c main_arg2)) (cur (V c main_call0_v0_1)))) t.val d := by
  have ht : t.val < 50 := lt_of_lt_of_eq t.isLt hN
  refine Finset.sum_congr rfl fun p _ => ?_
  have hp : 200 * t.val + p.val < 10000 := by have := p.isLt; omega
  rw [dif_pos hp]
  show _ = max (∑ l : Fin 10000, cur (V c main_arg2) ⟨200 * t.val + p.val, hp⟩ l * cur (V c main_call0_v0_1) l d) 0
  refine congrArg (fun x => max x 0) (Finset.sum_congr rfl fun k _ => ?_)
  rw [iblk_adj2 V c t p k ⟨200 * t.val + p.val, hp⟩ rfl, iblk_xa2 V c t k d]

end Blocks

section Fold
variable (V : (c : Dev nD) → (b : Ref sig .tc) → Buf (Elt Ideal) ((c : Thread nD τ).loc b))

/-- At the first point each accumulator is left at its block's column sums. -/
theorem step_A (c : Dev nD) (t : Fin cfg1.N) (h0 : t.val % 50 = 0) (d : Fin 128) :
    (outsAt1 V c t.val t.isLt).2.2.1 (ix2 (0 : Fin 1) d)
        = bsum (relu (mm (cur (V c main_arg1)) (cur (V c main_call0_v0_0)))) t.val d
    ∧ (outsAt1 V c t.val t.isLt).2.2.2 (ix2 (0 : Fin 1) d)
        = bsum (relu (mm (cur (V c main_arg2)) (cur (V c main_call0_v0_1)))) t.val d := by
  rw [outsAt1_A V c t h0]
  dsimp only
  constructor
  · refine (congrFun (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blkA V c t) (blkA2 V c t) (blkX V c t) (blkX2 V c t)) (ix2 (0 : Fin 1) d)).trans ?_
    refine (pay5_apply (blkA V c t) (blkX V c t) (k1_pay2 (F := Ideal)) d).trans ?_
    rw [zero6_apply, zero_add]
    exact blocksum_a V c t d
  · refine (congrFun (out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blkA V c t) (blkA2 V c t) (blkX V c t) (blkX2 V c t)) (ix2 (0 : Fin 1) d)).trans ?_
    refine (pay1_apply (blkA2 V c t) (blkX2 V c t) (k1_pay3 (F := Ideal)) d).trans ?_
    rw [zero7_apply, zero_add]
    exact blocksum_a2 V c t d

/-- At a later point each accumulator is left at what the point before left plus its block's column sums. -/
theorem step_B (c : Dev nD) (t : Fin cfg1.N) (h0 : ¬t.val % 50 = 0) (d : Fin 128) :
    (outsAt1 V c t.val t.isLt).2.2.1 (ix2 (0 : Fin 1) d)
        = (outsAt1 V c (t.val - 1) (Nat.lt_of_le_of_lt (Nat.sub_le _ _) t.isLt)).2.2.1 (ix2 (0 : Fin 1) d)
          + bsum (relu (mm (cur (V c main_arg1)) (cur (V c main_call0_v0_0)))) t.val d
    ∧ (outsAt1 V c t.val t.isLt).2.2.2 (ix2 (0 : Fin 1) d)
        = (outsAt1 V c (t.val - 1) (Nat.lt_of_le_of_lt (Nat.sub_le _ _) t.isLt)).2.2.2 (ix2 (0 : Fin 1) d)
          + bsum (relu (mm (cur (V c main_arg2)) (cur (V c main_call0_v0_1)))) t.val d := by
  rw [outsAt1_B V c t h0]
  dsimp only
  constructor
  · refine (congrFun (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blkA V c t) (blkA2 V c t) (blkX V c t) (blkX2 V c t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 (0 : Fin 1) d)).trans ?_
    refine (pay5_apply (blkA V c t) (blkX V c t) (outsAt1 V c (t.val - 1) (Nat.lt_of_le_of_lt (Nat.sub_le _ _) t.isLt)).2.2.1 d).trans ?_
    exact congrArg (_ + ·) (blocksum_a V c t d)
  · refine (congrFun (out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blkA V c t) (blkA2 V c t) (blkX V c t) (blkX2 V c t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 (0 : Fin 1) d)).trans ?_
    refine (pay1_apply (blkA2 V c t) (blkX2 V c t) (outsAt1 V c (t.val - 1) (Nat.lt_of_le_of_lt (Nat.sub_le _ _) t.isLt)).2.2.2 d).trans ?_
    exact congrArg (_ + ·) (blocksum_a2 V c t d)

end Fold

section Sums
variable (V : (c : Dev nD) → (b : Ref sig .tc) → Buf (Elt Ideal) ((c : Thread nD τ).loc b))

/-- The column sums of the first `n + 1` row blocks. -/
def part (o : Mat 10000 128) (n : ℕ) (d : Fin 128) : EReal := ∑ s ∈ Finset.range (n + 1), bsum o s d

/-- After point `n` each accumulator holds the column sums of the row blocks `0 … n` of its branch's output. -/
theorem acc_eq (c : Dev nD) : ∀ (n : ℕ) (h : n < cfg1.N) (d : Fin 128),
    (outsAt1 V c n h).2.2.1 (ix2 (0 : Fin 1) d) = part (relu (mm (cur (V c main_arg1)) (cur (V c main_call0_v0_0)))) n d
    ∧ (outsAt1 V c n h).2.2.2 (ix2 (0 : Fin 1) d) = part (relu (mm (cur (V c main_arg2)) (cur (V c main_call0_v0_1)))) n d
  | 0, h, d => by
    obtain ⟨e6, e7⟩ := step_A V c ⟨0, h⟩ rfl d
    exact ⟨e6.trans (Finset.sum_range_one fun s => bsum (relu (mm (cur (V c main_arg1)) (cur (V c main_call0_v0_0)))) s d).symm,
      e7.trans (Finset.sum_range_one fun s => bsum (relu (mm (cur (V c main_arg2)) (cur (V c main_call0_v0_1)))) s d).symm⟩
  | n + 1, h, d => by
    have hB : ¬(⟨n + 1, h⟩ : Fin cfg1.N).val % 50 = 0 := by have := lt_of_lt_of_eq h hN; dsimp only; omega
    obtain ⟨e6, e7⟩ := step_B V c ⟨n + 1, h⟩ hB d
    obtain ⟨i6, i7⟩ := acc_eq c n (Nat.lt_of_succ_lt h) d
    refine ⟨e6.trans ?_, e7.trans ?_⟩
    · show (outsAt1 V c n _).2.2.1 (ix2 (0 : Fin 1) d) + _ = _
      rw [i6]; exact (Finset.sum_range_succ (fun s => bsum (relu (mm (cur (V c main_arg1)) (cur (V c main_call0_v0_0)))) s d) (n + 1)).symm
    · show (outsAt1 V c n _).2.2.2 (ix2 (0 : Fin 1) d) + _ = _
      rw [i7]; exact (Finset.sum_range_succ (fun s => bsum (relu (mm (cur (V c main_arg2)) (cur (V c main_call0_v0_1)))) s d) (n + 1)).symm

/-- Fifty blocks of 200 rows are the 10000 rows. -/
theorem sum_blocks {M : Type*} [AddCommMonoid M] (g : Fin 10000 → M) :
    ∑ t : Fin 50, ∑ p : Fin 200, g ⟨200 * t.val + p.val, by have := t.isLt; have := p.isLt; omega⟩ = ∑ r : Fin 10000, g r := by
  rw [← Fintype.sum_prod_type']
  exact Fintype.sum_equiv (finProdFinEquiv (m := 50) (n := 200)) _ _ fun x => congrArg g (Fin.ext (by
    show 200 * x.1.val + x.2.val = x.2.val + 200 * x.1.val; omega))

/-- So the column sums of all fifty row blocks are the column sums of the matrix. -/
theorem part_last (o : Mat 10000 128) (d : Fin 128) : part o 49 d = colsum o d := by
  unfold part colsum
  rw [Finset.sum_range, ← sum_blocks fun r => o r d]
  refine Finset.sum_congr rfl fun t _ => Finset.sum_congr rfl fun p _ => ?_
  exact dif_pos (by have := t.isLt; have := p.isLt; omega)

end Sums

/- From here on the point-indexed contents are only compared as whole terms, never opened. -/
attribute [local irreducible] Cert.KernelIdeal.Gen.outsAt1

section Final
variable (V : (c : Dev nD) → (b : Ref sig .tc) → Buf (Elt Ideal) ((c : Thread nD τ).loc b))

/-- The last grid point, the only one after which the two accumulators are written back. -/
abbrev tl : Fin cfg1.N := ⟨49, by rw [hN]; decide⟩

theorem last_of_flush6 (t : Fin cfg1.N) (hf : (cfg1.win 6).flush t = true) : t = tl :=
  Fin.ext (by have := (flush1_6 t).mp hf; have := lt_of_lt_of_eq t.isLt hN; show t.val = 49; omega)
theorem last_of_flush7 (t : Fin cfg1.N) (hf : (cfg1.win 7).flush t = true) : t = tl :=
  Fin.ext (by have := (flush1_7 t).mp hf; have := lt_of_lt_of_eq t.isLt hN; show t.val = 49; omega)

/-- What the accumulators hold after the last point: the column sums of the two branch outputs. -/
theorem last6_apply (c : Dev nD) (d : Fin 128) :
    (outsAt1 V c tl.val tl.isLt).2.2.1 (ix2 (0 : Fin 1) d) = colsum (relu (mm (cur (V c main_arg1)) (cur (V c main_call0_v0_0)))) d :=
  ((acc_eq V c tl.val tl.isLt d).1).trans (part_last _ d)
theorem last7_apply (c : Dev nD) (d : Fin 128) :
    (outsAt1 V c tl.val tl.isLt).2.2.2 (ix2 (0 : Fin 1) d) = colsum (relu (mm (cur (V c main_arg2)) (cur (V c main_call0_v0_1)))) d :=
  ((acc_eq V c tl.val tl.isLt d).2).trans (part_last _ d)

/-- The last point's block of an accumulator's window, at offsets zero, is the whole [1, 128] array: cutting any
    contents `R` of the staging buffer to the block and reading the block of the array `R` are the same. -/
theorem cut_eq_read6 (c : Dev nD) (R : Buf (Elt Ideal) ((c : Thread nD τ).loc main_call0_v1_2)) :
    (cfg1.win 6).cut (grid1.coords tl) R = ((cfg1.win 6).blk tl).view.read (Elt Ideal) R := by
  have hz' : (fun a => win1_6.index tl a * main_call0_v1_2.ty.shape.size a) = fun _ => 0 := funext fun a => by fin_cases a <;> decide
  exact (Memref.read_access_unit_zero (Elt Ideal) main_call0_v1_2 hz' (fun a => by rw [congrFun hz' a]; simp) R).symm
theorem cut_eq_read7 (c : Dev nD) (R : Buf (Elt Ideal) ((c : Thread nD τ).loc main_call0_v1_3)) :
    (cfg1.win 7).cut (grid1.coords tl) R = ((cfg1.win 7).blk tl).view.read (Elt Ideal) R := by
  have hz' : (fun a => win1_7.index tl a * main_call0_v1_3.ty.shape.size a) = fun _ => 0 := funext fun a => by fin_cases a <;> decide
  exact (Memref.read_access_unit_zero (Elt Ideal) main_call0_v1_3 hz' (fun a => by rw [congrFun hz' a]; simp) R).symm

/-- The one write-back of each accumulator writes what the last point left. -/
theorem flushed6 (c : Dev nD) (t : Fin cfg1.N) (hf : (cfg1.win 6).flush t = true) :
    (dat1 V c).flushed 6 t = ((cfg1.win 6).blk t).view.read (Elt Ideal) (outsAt1 V c tl.val tl.isLt).2.2.1 := by
  obtain rfl := last_of_flush6 t hf
  show (cfg1.win 6).cut (grid1.coords tl) ((dat1 V c).after 6 tl) = _
  rw [after1_6]
  exact cut_eq_read6 c _
theorem flushed7 (c : Dev nD) (t : Fin cfg1.N) (hf : (cfg1.win 7).flush t = true) :
    (dat1 V c).flushed 7 t = ((cfg1.win 7).blk t).view.read (Elt Ideal) (outsAt1 V c tl.val tl.isLt).2.2.2 := by
  obtain rfl := last_of_flush7 t hf
  show (cfg1.win 7).cut (grid1.coords tl) ((dat1 V c).after 7 tl) = _
  rw [after1_7]
  exact cut_eq_read7 c _

/-- Every index of a [1, 128] array lies in the last point's block. -/
theorem cover6 (i : S1x128.Idx) : i ∈ ((View.whole main_call0_v1_2).slice (win1_6.rect tl)).set := by
  rw [View.set_slice_whole, Rect.mem_set_unit]
  intro a
  have e : win1_6.index tl a * win1_6.size a = 0 ∧ win1_6.xsize (grid1.coords tl) a = S1x128.size a := by
    fin_cases a <;> decide +kernel
  show win1_6.index tl a * win1_6.size a ≤ (i a : Nat) ∧ (i a : Nat) < win1_6.index tl a * win1_6.size a + win1_6.xsize (grid1.coords tl) a
  rw [e.1, e.2]
  exact ⟨Nat.zero_le _, by rw [Nat.zero_add]; exact (i a).isLt⟩
theorem cover7 (i : S1x128.Idx) : i ∈ ((View.whole main_call0_v1_3).slice (win1_7.rect tl)).set := by
  rw [View.set_slice_whole, Rect.mem_set_unit]
  intro a
  have e : win1_7.index tl a * win1_7.size a = 0 ∧ win1_7.xsize (grid1.coords tl) a = S1x128.size a := by
    fin_cases a <;> decide +kernel
  show win1_7.index tl a * win1_7.size a ≤ (i a : Nat) ∧ (i a : Nat) < win1_7.index tl a * win1_7.size a + win1_7.xsize (grid1.coords tl) a
  rw [e.1, e.2]
  exact ⟨Nat.zero_le _, by rw [Nat.zero_add]; exact (i a).isLt⟩

/-- So each accumulator's array ends holding what the last point left. -/
theorem final6 (c : Dev nD) : (dat1 V c).arrAt 6 cfg1.N = (outsAt1 V c tl.val tl.isLt).2.2.1 :=
  (dat1 V c).arrAt_eq_of_cover 6 (outsAt1 V c tl.val tl.isLt).2.2.1 (flushed6 V c) fun i => ⟨tl, (flush1_6 tl).mpr rfl, cover6 i⟩
theorem final7 (c : Dev nD) : (dat1 V c).arrAt 7 cfg1.N = (outsAt1 V c tl.val tl.isLt).2.2.2 :=
  (dat1 V c).arrAt_eq_of_cover 7 (outsAt1 V c tl.val tl.isLt).2.2.2 (flushed7 V c) fun i => ⟨tl, (flush1_7 tl).mpr rfl, cover7 i⟩

/-- The first accumulator's array ends at the column sums of relu (adj_A · XA). -/
theorem cola (c : Dev nD) (d : Fin 128) : (dat1 (F := Ideal) V c).arrAt 6 cfg1.N (ix2 (0 : Fin 1) d) = colsum (relu (mm (cur (V c main_arg1)) (cur (V c main_call0_v0_0)))) d :=
  (congrFun (final6 V c) (ix2 (0 : Fin 1) d)).trans (last6_apply V c d)

/-- The second accumulator's array ends at the column sums of relu (adj_A2 · XA2). -/
theorem cola2 (c : Dev nD) (d : Fin 128) : (dat1 (F := Ideal) V c).arrAt 7 cfg1.N (ix2 (0 : Fin 1) d) = colsum (relu (mm (cur (V c main_arg2)) (cur (V c main_call0_v0_1)))) d :=
  (congrFun (final7 V c) (ix2 (0 : Fin 1) d)).trans (last7_apply V c d)

end Final
end Cert.KernelIdeal.R1s
end
-- ==== Proof.LibBroadcastColumn.lean ====
/-
  A column broadcast along its rows, read at an index: an `[a, 1]` array broadcast to `[a, b]` holds, at `(p, c)`, the
  column's entry of row `p` — the companion of the row form `[1, b] → [a, b]`, which holds the row's entry of column `c`.
  This is how a per-row quantity kept with a trailing unit axis (a row sum, a row norm, a row maximum) meets a matrix.
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. On axis 0 the
    operand's coordinate is the result's (or `0` when `a = 1`, where `p` is `0` anyway); on axis 1 it is `0`, the axis
    having extent one. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibColumnCast.lean ====
/-
  A vector kept as a column, read at an index: an `[a]` array cast to `[a, 1]` holds, at `(i, 0)`, the vector's entry `i`.
  The cast keeps the row-major position, and the position of `(i, u)` in `[a, 1]` is `i · 1 + u = i`. This is how a
  per-row quantity computed as a vector (a count, a row sum) becomes the column that is then broadcast along the rows
  of a matrix.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.Region2.lean ====
/- Region 2 of the program, read as a value: the third stage of the graph-attention layer, which turns the three
   branch outputs (two neighbourhood aggregations and one plain transform, each 10000 × 128) and their column sums into
   the attention-weighted result.

   For each branch the stage forms a direction v = ((col · 1/10000) · W_k) contracted with the second axis of the branch's
   attention matrix, so that v j = ∑ h, (∑ d, col d / 10000 · W_k d h) · att j h; a row's logit is its inner product
   with v; the three logits go through a sigmoid, a 3 × 3 mixing, a scaling by 1/3 and a softmax over the three
   branches; the result row is three times the sum of the branch rows weighted by the softmax weights.

   The module reads the stored block index by index (the two row-times-matrix products as sums over the contracted
   coordinate, the lane sums and the lane maximum as a sum and a fold over the lane, the keepdims columns and the
   broadcasts as reads of one entry), then passes from blocks to the array: grid point t of ten reads and writes rows
   1000·t … 1000·t + 999, every other operand is read whole, so each point writes back its row block of ONE function of
   the arrays and the ten blocks cover the result. -/
import proofs.«148014_g67783173865566_cont_9to1c4b_46_2_alg».proof.Proof.Gen.KernelIdeal.Frame
import proofs.«148014_g67783173865566_cont_9to1c4b_46_2_alg».proof.Proof.Spec
import proofs.«148014_g67783173865566_cont_9to1c4b_46_2_alg».proof.Proof.Consts
import proofs.«148014_g67783173865566_cont_9to1c4b_46_2_alg».proof.Proof.LibBroadcastColumn
import proofs.«148014_g67783173865566_cont_9to1c4b_46_2_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R2
open Cert.KernelIdeal Cert.KernelIdeal.Gen Cert.GraphAtt Idealize.ShloMosaic Idealize.ShloMosaic.TcCoe Idealize.ShloMosaic.ValueIdx Idealize.SL.Sem Cert.Lib

/-! ## The two named constants -/

/-- The named reciprocal of the row count denotes the rational 1/10000. -/
theorem inv_10000 : Named.named (F := Ideal) κ "inv_10000" (φ := .f32) 0x38D1B717#32 = ((1 / 10000 : ℝ) : EReal) :=
  IdealRules.named_const.ideal_named_scalar _ _ _ _ rfl

/-- The named reciprocal of the branch count denotes the rational 1/3. -/
theorem inv_3 : Named.named (F := Ideal) κ "inv_3" (φ := .f32) 0x3EAAAAAB#32 = ((1 / 3 : ℝ) : EReal) :=
  IdealRules.named_const.ideal_named_scalar _ _ _ _ rfl

/-! ## The two products of a row with a square matrix

The first contracts the row with the matrix's first axis (row · M), the second with its second axis
(row · Mᵀ). Into the zero accumulator each is the plain sum over the contracted coordinate. -/

theorem d10_lhs0 (i : S1x128.Idx) (q : dot_S1x128_S128x128_S1x128_1_0_0_1_n_n.contr.Idx) : (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem d10_lhs1 (i : S1x128.Idx) (q : dot_S1x128_S128x128_S1x128_1_0_0_1_n_n.contr.Idx) : (dot_S1x128_S128x128_S1x128_1_0_0_1_n_n.lhsIdx i q 1).val = (q ⟨0, by decide⟩).val :=
  dot_S1x128_S128x128_S1x128_1_0_0_1_n_n.lhsIdx_val_of_single rfl i q
theorem d10_rhsC (i : S1x128.Idx) (q : dot_S1x128_S128x128_S1x128_1_0_0_1_n_n.contr.Idx) : (dot_S1x128_S128x128_S1x128_1_0_0_1_n_n.rhsIdx i q 0).val = (q ⟨0, by decide⟩).val :=
  dot_S1x128_S128x128_S1x128_1_0_0_1_n_n.rhsIdx_val_of_single rfl i q
theorem d10_rhsN (i : S1x128.Idx) (q : dot_S1x128_S128x128_S1x128_1_0_0_1_n_n.contr.Idx) : (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

theorem d11_lhs0 (i : S1x128.Idx) (q : dot_S1x128_S128x128_S1x128_1_1_0_0_n_n.contr.Idx) : (dot_S1x128_S128x128_S1x128_1_1_0_0_n_n.lhsIdx i q 0).val = (i 0).val := by
  unfold DotDims.lhsIdx
  rw [dif_neg (show ¬(0 : Fin S1x128.rank) ∈ dot_S1x128_S128x128_S1x128_1_1_0_0_n_n.lhsBatch by decide), dif_pos (show (0 : Fin S1x128.rank) ∈ dot_S1x128_S128x128_S1x128_1_1_0_0_n_n.lhsNonContracting by decide)]
  rfl
theorem d11_lhs1 (i : S1x128.Idx) (q : dot_S1x128_S128x128_S1x128_1_1_0_0_n_n.contr.Idx) : (dot_S1x128_S128x128_S1x128_1_1_0_0_n_n.lhsIdx i q 1).val = (q ⟨0, by decide⟩).val :=
  dot_S1x128_S128x128_S1x128_1_1_0_0_n_n.lhsIdx_val_of_single rfl i q
theorem d11_rhsC (i : S1x128.Idx) (q : dot_S1x128_S128x128_S1x128_1_1_0_0_n_n.contr.Idx) : (dot_S1x128_S128x128_S1x128_1_1_0_0_n_n.rhsIdx i q 1).val = (q ⟨0, by decide⟩).val :=
  dot_S1x128_S128x128_S1x128_1_1_0_0_n_n.rhsIdx_val_of_single rfl i q
theorem d11_rhsN (i : S1x128.Idx) (q : dot_S1x128_S128x128_S1x128_1_1_0_0_n_n.contr.Idx) : (dot_S1x128_S128x128_S1x128_1_1_0_0_n_n.rhsIdx i q 0).val = (i 1).val := by
  unfold DotDims.rhsIdx
  rw [dif_neg (show ¬(0 : Fin S128x128.rank) ∈ dot_S1x128_S128x128_S1x128_1_1_0_0_n_n.rhsBatch by decide), dif_pos (show (0 : Fin S128x128.rank) ∈ dot_S1x128_S128x128_S1x128_1_1_0_0_n_n.rhsNonContracting by decide)]
  rfl

theorem mm10_apply (l : FVec Ideal S1x128 .f32) (r : FVec Ideal S128x128 .f32) (u : Fin 1) (h : Fin 128) :
    matmul dot_S1x128_S128x128_S1x128_1_0_0_1_n_n none l r (constant S1x128 .f32 0x00000000#32) (ix2 u h)
      = ∑ d : Fin 128, l (ix2 u d) * r (ix2 d h) := by
  simp only [matmul]
  rw [Ideal.matmul_constant_zero_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 u h) ((contrEquiv1 dot_S1x128_S128x128_S1x128_1_0_0_1_n_n 128 rfl rfl).symm k) = ix2 u k := funext fun a => Fin.ext (by
    match a with
    | ⟨0, _⟩ => exact d10_lhs0 _ _
    | ⟨1, _⟩ => exact (d10_lhs1 _ _).trans hk)
  have er : dot_S1x128_S128x128_S1x128_1_0_0_1_n_n.rhsIdx (ix2 u h) ((contrEquiv1 dot_S1x128_S128x128_S1x128_1_0_0_1_n_n 128 rfl rfl).symm k) = ix2 k h := funext fun a => Fin.ext (by
    match a with
    | ⟨0, _⟩ => exact (d10_rhsC _ _).trans hk
    | ⟨1, _⟩ => exact d10_rhsN _ _)
  rw [el, er]

theorem mm11_apply (l : FVec Ideal S1x128 .f32) (r : FVec Ideal S128x128 .f32) (u : Fin 1) (j : Fin 128) :
    matmul dot_S1x128_S128x128_S1x128_1_1_0_0_n_n none l r (constant S1x128 .f32 0x00000000#32) (ix2 u j)
      = ∑ h : Fin 128, l (ix2 u h) * r (ix2 j h) := by
  simp only [matmul]
  rw [Ideal.matmul_constant_zero_apply, ← Equiv.sum_comp (contrEquiv1 dot_S1x128_S128x128_S1x128_1_1_0_0_n_n 128 rfl rfl).symm]
  refine Finset.sum_congr rfl fun k _ => ?_
  have hk := contrEquiv1_symm_val dot_S1x128_S128x128_S1x128_1_1_0_0_n_n 128 rfl rfl k
  have el : dot_S1x128_S128x128_S1x128_1_1_0_0_n_n.lhsIdx (ix2 u j) ((contrEquiv1 dot_S1x128_S128x128_S1x128_1_1_0_0_n_n 128 rfl rfl).symm k) = ix2 u k := funext fun a => Fin.ext (by
    match a with
    | ⟨0, _⟩ => exact d11_lhs0 _ _
    | ⟨1, _⟩ => exact (d11_lhs1 _ _).trans hk)
  have er : dot_S1x128_S128x128_S1x128_1_1_0_0_n_n.rhsIdx (ix2 u j) ((contrEquiv1 dot_S1x128_S128x128_S1x128_1_1_0_0_n_n 128 rfl rfl).symm k) = ix2 j k := funext fun a => Fin.ext (by
    match a with
    | ⟨0, _⟩ => exact d11_rhsN _ _
    | ⟨1, _⟩ => exact (d11_rhsC _ _).trans hk)
  rw [el, er]

/-! ## The three attention directions

The scaled column sums times the key matrix, contracted with the second axis of the attention matrix. -/

/-- The direction of one branch as a function of the attention row index. -/
def dirv (col : Vec Ideal S1x128 .f32) (Wk att : Vec Ideal S128x128 .f32) (j : Fin 128) : EReal :=
  ∑ h : Fin 128, (∑ d : Fin 128, (col (ix2 (0 : Fin 1) d) * ((1 / 10000 : ℝ) : EReal)) * Wk (ix2 d h)) * att (ix2 j h)

theorem pay2_apply (v0 : Vec Ideal S1x128 .f32) (v4 v6 : Vec Ideal S128x128 .f32) (j : Fin 128) :
    k2_pay2 (F := Ideal) v0 v4 v6 (ix2 (0 : Fin 1) j) = dirv v0 v4 v6 j := by
  unfold k2_pay2 dirv
  refine (mm11_apply _ _ _ _).trans ?_
  refine Finset.sum_congr rfl fun h _ => ?_
  refine congrArg (· * v6 (ix2 j h)) ?_
  refine (mm10_apply _ _ _ _).trans ?_
  refine Finset.sum_congr rfl fun d _ => ?_
  refine congrArg (· * v4 (ix2 d h)) ?_
  rw [mulf_apply, shapeCast_self, broadcast_apply, inv_10000]

theorem pay3_apply (v0 : Vec Ideal S1x128 .f32) (v4 v6 : Vec Ideal S128x128 .f32) (j : Fin 128) :
    k2_pay3 (F := Ideal) v0 v4 v6 (ix2 (0 : Fin 1) j) = dirv v0 v4 v6 j := pay2_apply v0 v4 v6 j

theorem pay4_apply (v0 : Vec Ideal S1x128 .f32) (v4 v6 : Vec Ideal S128x128 .f32) (j : Fin 128) :
    k2_pay4 (F := Ideal) v0 v4 v6 (ix2 (0 : Fin 1) j) = dirv v0 v4 v6 j := pay2_apply v0 v4 v6 j

/-! ## One row of the attention weights

A row's logit against a direction is a lane sum; the three sigmoids are mixed by the 3 × 3 matrix, scaled by
1/3 and pushed through a softmax over the three branches. -/

/-- A lane sum over the 128 columns of a block, read at a row. -/
theorem rowsum128 (src : FVec Ideal S1000x128 .f32) (hφ : FKind.Formats .f32)
    (hacc : (0x00000000#32 : BitVec 32) = FKind.add.neutral .f32 hφ) (p : Fin 1000) :
    multiReduction .add [1] S1000 src 0x00000000#32 reduces_S1000x128_S1000 hφ hacc (ix1 p)
      = ∑ k : Fin 128, src (ix2 p k) := by
  refine (Ideal.multiReduction_add_single src _ reduces_S1000x128_S1000 hφ hacc (ix1 p)).trans ?_
  refine Finset.sum_congr rfl fun k _ => congrArg src ?_
  funext a
  match a with
  | ⟨0, _⟩ => rfl
  | ⟨1, _⟩ => rfl

/-- A lane sum over the 3 columns of a block, read at a row. -/
theorem rowsum3 (src : FVec Ideal S1000x3 .f32) (hφ : FKind.Formats .f32)
    (hacc : (0x00000000#32 : BitVec 32) = FKind.add.neutral .f32 hφ) (p : Fin 1000) :
    multiReduction .add [1] S1000 src 0x00000000#32 reduces_S1000x3_S1000 hφ hacc (ix1 p)
      = ∑ k : Fin 3, src (ix2 p k) := by
  refine (Ideal.multiReduction_add_single src _ reduces_S1000x3_S1000 hφ hacc (ix1 p)).trans ?_
  refine Finset.sum_congr rfl fun k _ => congrArg src ?_
  funext a
  match a with
  | ⟨0, _⟩ => rfl
  | ⟨1, _⟩ => rfl

/-- A lane maximum over the 3 columns of a block, read at a row: the fold of max from the bottom element. -/
theorem rowmax3 (src : FVec Ideal S1000x3 .f32) (hφ : FKind.Formats .f32)
    (hacc : (0xFF800000#32 : BitVec 32) = FKind.maximumf.neutral .f32 hφ) (p : Fin 1000) :
    multiReduction .maximumf [1] S1000 src 0xFF800000#32 reduces_S1000x3_S1000 hφ hacc (ix1 p)
      = rowmax (fun c => src (ix2 p c)) := by
  refine (Ideal.multiReduction_maximumf_single src _ reduces_S1000x3_S1000 hφ hacc (ix1 p)).trans ?_
  unfold rowmax
  have e0 : (FloatOps.ofBits (F := Ideal) .f32 0xFF800000#32 : EReal) = ⊥ := Consts.ofBits_neg_inf
  have e1 : (src ∘ reduces_S1000x3_S1000.lift (ix1 p)) = fun c : Fin 3 => src (ix2 p c) := by
    funext c
    refine congrArg src ?_
    funext a
    match a with
    | ⟨0, _⟩ => rfl
    | ⟨1, _⟩ => rfl
  rw [e0, e1]
  rfl

/-- The sigmoid of a row's logit against a direction, as the kernel computes it. -/
theorem sig_apply (x : FVec Ideal S1000x128 .f32) (v : FVec Ideal S1x128 .f32) (hφ : FKind.Formats .f32)
    (hacc : (0x00000000#32 : BitVec 32) = FKind.add.neutral .f32 hφ) (p : Fin 1000) (u : Fin 1) :
    logistic (shapeCast S1000x1 (multiReduction .add [1] S1000 (mulf x (broadcastTo S1000x128 v broadcasts_S1x128_S1000x128))
        0x00000000#32 reduces_S1000x128_S1000 hφ hacc) shapeCasts_S1000_S1000x1) (ix2 p u)
      = Ideal.logistic (∑ j : Fin 128, x (ix2 p j) * v (ix2 (0 : Fin 1) j)) := by
  show Ideal.logistic _ = _
  refine congrArg Ideal.logistic ?_
  refine (shapeCast_a_a1_apply _ _ p u).trans ?_
  refine (rowsum128 _ hφ hacc p).trans ?_
  refine Finset.sum_congr rfl fun j _ => ?_
  rw [mulf_apply, broadcastTo_1b_ab_apply]

/-- The mixed and scaled scores of a row, from the three sigmoid columns. -/
theorem mix_apply (s0 s1 s2 : FVec Ideal S1000x1 .f32) (v45 : Vec Ideal S3x3 .f32) (p : Fin 1000) (c : Fin 3)
    (σ : Fin 3 → EReal) (h0 : s0 (ix2 p (0 : Fin 1)) = σ 0) (h1 : s1 (ix2 p (0 : Fin 1)) = σ 1)
    (h2 : s2 (ix2 p (0 : Fin 1)) = σ 2) :
    mulf (addf (addf
        (mulf (broadcastTo S1000x3 s0 broadcasts_S1000x1_S1000x3)
          (broadcastTo S1000x3 (extractStridedSlice S1x3 ![0, 0] v45 slices_S3x3_o0_0_S1x3) broadcasts_S1x3_S1000x3))
        (mulf (broadcastTo S1000x3 s1 broadcasts_S1000x1_S1000x3)
          (broadcastTo S1000x3 (extractStridedSlice S1x3 ![1, 0] v45 slices_S3x3_o1_0_S1x3) broadcasts_S1x3_S1000x3)))
        (mulf (broadcastTo S1000x3 s2 broadcasts_S1000x1_S1000x3)
          (broadcastTo S1000x3 (extractStridedSlice S1x3 ![2, 0] v45 slices_S3x3_o2_0_S1x3) broadcasts_S1x3_S1000x3)))
      (broadcast S1000x3 (Named.named (F := Ideal) κ "inv_3" (φ := .f32) 0x3EAAAAAB#32)) (ix2 p c)
      = zrow σ (cur v45) c := by
  unfold zrow
  rw [Fin.sum_univ_three, mulf_apply, addf_apply, addf_apply, mulf_apply, mulf_apply, mulf_apply, broadcast_apply, inv_3,
    broadcastTo_a1_ab_apply, broadcastTo_a1_ab_apply, broadcastTo_a1_ab_apply,
    broadcastTo_1b_ab_apply, broadcastTo_1b_ab_apply, broadcastTo_1b_ab_apply,
    slice2_axis0_apply 0 v45 slices_S3x3_o0_0_S1x3 (0 : Fin 1) c (0 : Fin 3) rfl,
    slice2_axis0_apply 1 v45 slices_S3x3_o1_0_S1x3 (0 : Fin 1) c (1 : Fin 3) rfl,
    slice2_axis0_apply 2 v45 slices_S3x3_o2_0_S1x3 (0 : Fin 1) c (2 : Fin 3) rfl,
    h0, h1, h2]
  rfl

/-- The softmax over the three branches of a row of scores. -/
theorem softmax_apply (z : FVec Ideal S1000x3 .f32) (hφ : FKind.Formats .f32)
    (hm : (0xFF800000#32 : BitVec 32) = FKind.maximumf.neutral .f32 hφ)
    (ha : (0x00000000#32 : BitVec 32) = FKind.add.neutral .f32 hφ) (p : Fin 1000) (c : Fin 3)
    (zr : Fin 3 → EReal) (hz : ∀ c', z (ix2 p c') = zr c') :
    divf (exp (subf z (broadcastTo S1000x3 (shapeCast S1000x1 (multiReduction .maximumf [1] S1000 z 0xFF800000#32
          reduces_S1000x3_S1000 hφ hm) shapeCasts_S1000_S1000x1) broadcasts_S1000x1_S1000x3)))
      (broadcastTo S1000x3 (shapeCast S1000x1 (multiReduction .add [1] S1000
          (exp (subf z (broadcastTo S1000x3 (shapeCast S1000x1 (multiReduction .maximumf [1] S1000 z 0xFF800000#32
            reduces_S1000x3_S1000 hφ hm) shapeCasts_S1000_S1000x1) broadcasts_S1000x1_S1000x3)))
          0x00000000#32 reduces_S1000x3_S1000 hφ ha) shapeCasts_S1000_S1000x1) broadcasts_S1000x1_S1000x3) (ix2 p c)
      = Ideal.div (Ideal.exp (zr c - rowmax zr)) (∑ c' : Fin 3, Ideal.exp (zr c' - rowmax zr)) := by
  have hmax : ∀ c' : Fin 3, broadcastTo S1000x3 (shapeCast S1000x1 (multiReduction .maximumf [1] S1000 z 0xFF800000#32
      reduces_S1000x3_S1000 hφ hm) shapeCasts_S1000_S1000x1) broadcasts_S1000x1_S1000x3 (ix2 p c') = rowmax zr := fun c' =>
    (broadcastTo_a1_ab_apply _ _ p c').trans ((shapeCast_a_a1_apply _ _ p 0).trans
      ((rowmax3 z hφ hm p).trans (congrArg rowmax (funext hz))))
  have he : ∀ c' : Fin 3, exp (subf z (broadcastTo S1000x3 (shapeCast S1000x1 (multiReduction .maximumf [1] S1000 z 0xFF800000#32
      reduces_S1000x3_S1000 hφ hm) shapeCasts_S1000_S1000x1) broadcasts_S1000x1_S1000x3)) (ix2 p c')
        = Ideal.exp (zr c' - rowmax zr) := fun c' => by
    show Ideal.exp (z (ix2 p c') - _) = _
    rw [hz, hmax]
  show Ideal.div _ _ = _
  rw [he c]
  refine congrArg (Ideal.div _) ?_
  refine (broadcastTo_a1_ab_apply _ _ p c).trans ((shapeCast_a_a1_apply _ _ p 0).trans ((rowsum3 _ hφ ha p).trans ?_))
  exact Finset.sum_congr rfl fun c' _ => he c'

/-- THE ATTENTION WEIGHTS OF ROW p: the softmax weight of branch c, from the three branches' rows and directions. -/
theorem pay8_apply (v7 v15 v23 : FVec Ideal S1x128 .f32) (v25 v27 : FVec Ideal S1000x128 .f32)
    (v28 : Vec Ideal S1000x128 .f32) (v45 : Vec Ideal S3x3 .f32) (p : Fin 1000) (c : Fin 3) :
    k2_pay8 (F := Ideal) v7 v15 v23 v25 v27 v28 v45 (ix2 p c)
      = attw (fun i => Ideal.logistic (sel3 (∑ j : Fin 128, v25 (ix2 p j) * v7 (ix2 (0 : Fin 1) j))
          (∑ j : Fin 128, v27 (ix2 p j) * v15 (ix2 (0 : Fin 1) j))
          (∑ j : Fin 128, v28 (ix2 p j) * v23 (ix2 (0 : Fin 1) j)) i)) (cur v45) c := by
  have e7 : k2_pay7 (F := Ideal) v28 = v28 := shapeCast_self _ _
  unfold k2_pay8 attw
  rw [e7]
  refine softmax_apply _ _ _ _ p c _ (fun c' => ?_)
  refine mix_apply _ _ _ v45 p c' _ ?_ ?_ ?_
  · exact sig_apply v25 v7 _ _ p 0
  · exact sig_apply v27 v15 _ _ p 0
  · exact sig_apply v28 v23 _ _ p 0

/-! ## The stored block at an index -/

/-- The branch logit of row p of a block against a direction. -/
def lgt (x : Vec Ideal S1000x128 .f32) (v : Fin 128 → EReal) (p : Fin 1000) : EReal := ∑ j : Fin 128, x (ix2 p j) * v j

/-- The weighted sum the kernel stores: three times the sum of the branch rows weighted by the weights. -/
theorem pay1_apply (v29 : FVec Ideal S1000x128 .f32) (v70 : FVec Ideal S1000x3 .f32) (v77 : FVec Ideal S1000x128 .f32)
    (p : Fin 1000) (q : Fin 128) :
    k2_pay1 (F := Ideal) v29 v70 v77 (ix2 p q)
      = Ideal.ofBits .f32 0x40400000#32 * (v77 (ix2 p q) + v70 (ix2 p (2 : Fin 3)) * v29 (ix2 p q)) := by
  unfold k2_pay1
  rw [mulf_apply, broadcast_apply, addf_apply, mulf_apply, broadcastTo_a1_ab_apply,
    slice2_axis1_apply 2 v70 slices_S1000x3_o0_2_S1000x1 p (0 : Fin 1) (2 : Fin 3) rfl]
  rfl

theorem pay9_apply (v7 v15 v23 : FVec Ideal S1x128 .f32) (v25 v27 : FVec Ideal S1000x128 .f32)
    (v28 : Vec Ideal S1000x128 .f32) (v45 : Vec Ideal S3x3 .f32) (p : Fin 1000) (q : Fin 128) :
    k2_pay9 (F := Ideal) v7 v15 v23 v25 v27 v28 v45 (ix2 p q)
      = k2_pay8 (F := Ideal) v7 v15 v23 v25 v27 v28 v45 (ix2 p (0 : Fin 3)) * v25 (ix2 p q)
        + k2_pay8 (F := Ideal) v7 v15 v23 v25 v27 v28 v45 (ix2 p (1 : Fin 3)) * v27 (ix2 p q) := by
  unfold k2_pay9
  rw [addf_apply, mulf_apply, mulf_apply, broadcastTo_a1_ab_apply, broadcastTo_a1_ab_apply,
    slice2_axis1_apply 0 _ slices_S1000x3_o0_0_S1000x1 p (0 : Fin 1) (0 : Fin 3) rfl,
    slice2_axis1_apply 1 _ slices_S1000x3_o0_1_S1000x1 p (0 : Fin 1) (1 : Fin 3) rfl]

theorem hz : (![0, 0] : Fin 2 → Nat) = fun _ => 0 := funext fun a => by fin_cases a <;> rfl

/-- The result of one row block, from the thirteen input blocks, index by index. -/
def blockRes (x0 x1 x2 : Vec Ideal S1000x128 .f32) (x3 x4 x5 : Vec Ideal S1x128 .f32)
    (x6 x7 x8 x9 x10 x11 : Vec Ideal S128x128 .f32) (x12 : Vec Ideal S3x3 .f32) (p : Fin 1000) (q : Fin 128) : EReal :=
  Ideal.ofBits .f32 0x40400000#32 *
    ((attw (fun i => Ideal.logistic (sel3 (lgt x0 (dirv x3 x6 x9) p) (lgt x1 (dirv x4 x7 x10) p) (lgt x2 (dirv x5 x8 x11) p) i)) (cur x12) 0 * x0 (ix2 p q)
      + attw (fun i => Ideal.logistic (sel3 (lgt x0 (dirv x3 x6 x9) p) (lgt x1 (dirv x4 x7 x10) p) (lgt x2 (dirv x5 x8 x11) p) i)) (cur x12) 1 * x1 (ix2 p q))
      + attw (fun i => Ideal.logistic (sel3 (lgt x0 (dirv x3 x6 x9) p) (lgt x1 (dirv x4 x7 x10) p) (lgt x2 (dirv x5 x8 x11) p) i)) (cur x12) 2 * x2 (ix2 p q))

theorem out_apply (x0 x1 x2 : Vec Ideal S1000x128 .f32) (x3 x4 x5 : Vec Ideal S1x128 .f32)
    (x6 x7 x8 x9 x10 x11 : Vec Ideal S128x128 .f32) (x12 : Vec Ideal S3x3 .f32) (p : Fin 1000) (q : Fin 128) :
    out2_13 (F := Ideal) x0 x1 x2 x3 x4 x5 x6 x7 x8 x9 x10 x11 x12 (ix2 p q)
      = blockRes x0 x1 x2 x3 x4 x5 x6 x7 x8 x9 x10 x11 x12 p q := by
  have e5 : k2_pay5 (F := Ideal) x0 = x0 := shapeCast_self _ _
  have e6 : k2_pay6 (F := Ideal) x1 = x1 := shapeCast_self _ _
  have e7 : k2_pay7 (F := Ideal) x2 = x2 := shapeCast_self _ _
  unfold out2_13 blockRes
  rw [View.canon_unit_zero hz]
  simp only [View.ld_unit_zero (S := S1000x128) hz, View.ld_unit_zero (S := S1x128) hz, View.ld_unit_zero (S := S128x128) hz,
    View.ld_unit_zero (S := S3x3) hz]
  rw [e5, e6, e7, pay1_apply, pay9_apply, pay8_apply, pay8_apply, pay8_apply]
  have d2 : (fun j : Fin 128 => k2_pay2 (F := Ideal) x3 x6 x9 (ix2 (0 : Fin 1) j)) = dirv x3 x6 x9 := funext (pay2_apply x3 x6 x9)
  have d3 : (fun j : Fin 128 => k2_pay3 (F := Ideal) x4 x7 x10 (ix2 (0 : Fin 1) j)) = dirv x4 x7 x10 := funext (pay3_apply x4 x7 x10)
  have d4 : (fun j : Fin 128 => k2_pay4 (F := Ideal) x5 x8 x11 (ix2 (0 : Fin 1) j)) = dirv x5 x8 x11 := funext (pay4_apply x5 x8 x11)
  simp only [pay2_apply, pay3_apply, pay4_apply]
  rfl

/-! ## From blocks to the array

Point t of the ten reads rows 1000·t … 1000·t + 999 of the three branch arrays and writes the same rows of the
result; every other operand is read whole at every point. So what a point writes back is its row block of one
function of the arrays, and the ten blocks cover the result. -/

section Arr
variable (V : (c : Dev nD) → (b : Ref sig .tc) → Buf (Elt Ideal) ((c : Thread nD τ).loc b))

/-- The printed index maps, decided over the ten points. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_13.index t (0 : Fin 2) = t.val
    ∧ win2_13.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0 :=
  (by decide +kernel : ∀ t : Fin grid2.N, _)

theorem t_lt (t : Fin cfg2.N) : t.val < 10 := by
  have h := t.isLt
  have hN : cfg2.N = 10 := N_2
  omega

/-- Branch window 0's block at point t is rows 1000·t … of its array. -/
theorem iblk_rows0 (c : Dev nD) (t : Fin cfg2.N) (p : Fin 1000) (q : Fin 128) (R : Fin 10000) (hR : R.val = 1000 * t.val + p.val) :
    (iblk2 V c 0 t : Vec Ideal S1000x128 .f32) (ix2 p q) = (V c main_call0_v1_0 : S10000x128.Idx → EReal) (ix2 R q) := by
  unfold iblk2
  rw [View.read_apply]
  show V c main_call0_v1_0 _ = V c main_call0_v1_0 _
  refine congrArg _ ?_
  funext a
  apply Fin.ext
  match a with
  | ⟨0, _⟩ => show win2_0.index t (0 : Fin 2) * 1000 + 1 * p.val = R.val; rw [(idx_facts t).1, hR]; omega
  | ⟨1, _⟩ => show win2_0.index t (1 : Fin 2) * 128 + 1 * q.val = q.val; rw [(idx_facts t).2.1]; omega

/-- Branch window 1's block at point t is rows 1000·t … of its array. -/
theorem iblk_rows1 (c : Dev nD) (t : Fin cfg2.N) (p : Fin 1000) (q : Fin 128) (R : Fin 10000) (hR : R.val = 1000 * t.val + p.val) :
    (iblk2 V c 1 t : Vec Ideal S1000x128 .f32) (ix2 p q) = (V c main_call0_v1_1 : S10000x128.Idx → EReal) (ix2 R q) := by
  unfold iblk2
  rw [View.read_apply]
  show V c main_call0_v1_1 _ = V c main_call0_v1_1 _
  refine congrArg _ ?_
  funext a
  apply Fin.ext
  match a with
  | ⟨0, _⟩ => show win2_1.index t (0 : Fin 2) * 1000 + 1 * p.val = R.val; rw [(idx_facts t).2.2.1, hR]; omega
  | ⟨1, _⟩ => show win2_1.index t (1 : Fin 2) * 128 + 1 * q.val = q.val; rw [(idx_facts t).2.2.2.1]; omega

/-- Branch window 2's block at point t is rows 1000·t … of its array. -/
theorem iblk_rows2 (c : Dev nD) (t : Fin cfg2.N) (p : Fin 1000) (q : Fin 128) (R : Fin 10000) (hR : R.val = 1000 * t.val + p.val) :
    (iblk2 V c 2 t : Vec Ideal S1000x128 .f32) (ix2 p q) = (V c main_call0_v0_2 : S10000x128.Idx → EReal) (ix2 R q) := by
  unfold iblk2
  rw [View.read_apply]
  show V c main_call0_v0_2 _ = V c main_call0_v0_2 _
  refine congrArg _ ?_
  funext a
  apply Fin.ext
  match a with
  | ⟨0, _⟩ => show win2_2.index t (0 : Fin 2) * 1000 + 1 * p.val = R.val; rw [(idx_facts t).2.2.2.2.1, hR]; omega
  | ⟨1, _⟩ => show win2_2.index t (1 : Fin 2) * 128 + 1 * q.val = q.val; rw [(idx_facts t).2.2.2.2.2.1]; omega

/-- Window 3's block at every point is its whole array. -/
theorem iblk_whole3 (c : Dev nD) (t : Fin cfg2.N) :
    (iblk2 V c 3 t : Vec Ideal S1x128 .f32) = (V c main_call0_v1_2 : S1x128.Idx → EReal) := by
  funext i
  unfold iblk2
  rw [View.read_apply]
  show V c main_call0_v1_2 _ = V c main_call0_v1_2 _
  refine congrArg _ ?_
  funext a
  apply Fin.ext
  match a with
  | ⟨0, _⟩ => show win2_3.index t (0 : Fin 2) * 1 + 1 * (i 0).val = (i 0).val; rw [(idx_facts t).2.2.2.2.2.2.2.2.1]; omega
  | ⟨1, _⟩ => show win2_3.index t (1 : Fin 2) * 128 + 1 * (i 1).val = (i 1).val; rw [(idx_facts t).2.2.2.2.2.2.2.2.2.1]; omega

/-- Window 4's block at every point is its whole array. -/
theorem iblk_whole4 (c : Dev nD) (t : Fin cfg2.N) :
    (iblk2 V c 4 t : Vec Ideal S1x128 .f32) = (V c main_call0_v1_3 : S1x128.Idx → EReal) := by
  funext i
  unfold iblk2
  rw [View.read_apply]
  show V c main_call0_v1_3 _ = V c main_call0_v1_3 _
  refine congrArg _ ?_
  funext a
  apply Fin.ext
  match a with
  | ⟨0, _⟩ => show win2_4.index t (0 : Fin 2) * 1 + 1 * (i 0).val = (i 0).val; rw [(idx_facts t).2.2.2.2.2.2.2.2.2.2.1]; omega
  | ⟨1, _⟩ => show win2_4.index t (1 : Fin 2) * 128 + 1 * (i 1).val = (i 1).val; rw [(idx_facts t).2.2.2.2.2.2.2.2.2.2.2.1]; omega

/-- Window 5's block at every point is its whole array. -/
theorem iblk_whole5 (c : Dev nD) (t : Fin cfg2.N) :
    (iblk2 V c 5 t : Vec Ideal S1x128 .f32) = (V c main_call0_v0_3 : S1x128.Idx → EReal) := by
  funext i
  unfold iblk2
  rw [View.read_apply]
  show V c main_call0_v0_3 _ = V c main_call0_v0_3 _
  refine congrArg _ ?_
  funext a
  apply Fin.ext
  match a with
  | ⟨0, _⟩ => show win2_5.index t (0 : Fin 2) * 1 + 1 * (i 0).val = (i 0).val; rw [(idx_facts t).2.2.2.2.2.2.2.2.2.2.2.2.1]; omega
  | ⟨1, _⟩ => show win2_5.index t (1 : Fin 2) * 128 + 1 * (i 1).val = (i 1).val; rw [(idx_facts t).2.2.2.2.2.2.2.2.2.2.2.2.2.1]; omega

/-- Window 6's block at every point is its whole array. -/
theorem iblk_whole6 (c : Dev nD) (t : Fin cfg2.N) :
    (iblk2 V c 6 t : Vec Ideal S128x128 .f32) = (V c main_arg6 : S128x128.Idx → EReal) := by
  funext i
  unfold iblk2
  rw [View.read_apply]
  show V c main_arg6 _ = V c main_arg6 _
  refine congrArg _ ?_
  funext a
  apply Fin.ext
  match a with
  | ⟨0, _⟩ => show win2_6.index t (0 : Fin 2) * 128 + 1 * (i 0).val = (i 0).val; rw [(idx_facts t).2.2.2.2.2.2.2.2.2.2.2.2.2.2.1]; omega
  | ⟨1, _⟩ => show win2_6.index t (1 : Fin 2) * 128 + 1 * (i 1).val = (i 1).val; rw [(idx_facts t).2.2.2.2.2.2.2.2.2.2.2.2.2.2.2.1]; omega

/-- Window 7's block at every point is its whole array. -/
theorem iblk_whole7 (c : Dev nD) (t : Fin cfg2.N) :
    (iblk2 V c 7 t : Vec Ideal S128x128 .f32) = (V c main_arg7 : S128x128.Idx → EReal) := by
  funext i
  unfold iblk2
  rw [View.read_apply]
  show V c main_arg7 _ = V c main_arg7 _
  refine congrArg _ ?_
  funext a
  apply Fin.ext
  match a with
  | ⟨0, _⟩ => show win2_7.index t (0 : Fin 2) * 128 + 1 * (i 0).val = (i 0).val; rw [(idx_facts t).2.2.2.2.2.2.2.2.2.2.2.2.2.2.2.2.1]; omega
  | ⟨1, _⟩ => show win2_7.index t (1 : Fin 2) * 128 + 1 * (i 1).val = (i 1).val; rw [(idx_facts t).2.2.2.2.2.2.2.2.2.2.2.2.2.2.2.2.2.1]; omega

/-- Window 8's block at every point is its whole array. -/
theorem iblk_whole8 (c : Dev nD) (t : Fin cfg2.N) :
    (iblk2 V c 8 t : Vec Ideal S128x128 .f32) = (V c main_arg8 : S128x128.Idx → EReal) := by
  funext i
  unfold iblk2
  rw [View.read_apply]
  show V c main_arg8 _ = V c main_arg8 _
  refine congrArg _ ?_
  funext a
  apply Fin.ext
  match a with
  | ⟨0, _⟩ => show win2_8.index t (0 : Fin 2) * 128 + 1 * (i 0).val = (i 0).val; rw [(idx_facts t).2.2.2.2.2.2.2.2.2.2.2.2.2.2.2.2.2.2.1]; omega
  | ⟨1, _⟩ => show win2_8.index t (1 : Fin 2) * 128 + 1 * (i 1).val = (i 1).val; rw [(idx_facts t).2.2.2.2.2.2.2.2.2.2.2.2.2.2.2.2.2.2.2.1]; omega

/-- Window 9's block at every point is its whole array. -/
theorem iblk_whole9 (c : Dev nD) (t : Fin cfg2.N) :
    (iblk2 V c 9 t : Vec Ideal S128x128 .f32) = (V c main_arg9 : S128x128.Idx → EReal) := by
  funext i
  unfold iblk2
  rw [View.read_apply]
  show V c main_arg9 _ = V c main_arg9 _
  refine congrArg _ ?_
  funext a
  apply Fin.ext
  match a with
  | ⟨0, _⟩ => show win2_9.index t (0 : Fin 2) * 128 + 1 * (i 0).val = (i 0).val; rw [(idx_facts t).2.2.2.2.2.2.2.2.2.2.2.2.2.2.2.2.2.2.2.2.1]; omega
  | ⟨1, _⟩ => show win2_9.index t (1 : Fin 2) * 128 + 1 * (i 1).val = (i 1).val; rw [(idx_facts t).2.2.2.2.2.2.2.2.2.2.2.2.2.2.2.2.2.2.2.2.2.1]; omega

/-- Window 10's block at every point is its whole array. -/
theorem iblk_whole10 (c : Dev nD) (t : Fin cfg2.N) :
    (iblk2 V c 10 t : Vec Ideal S128x128 .f32) = (V c main_arg10 : S128x128.Idx → EReal) := by
  funext i
  unfold iblk2
  rw [View.read_apply]
  show V c main_arg10 _ = V c main_arg10 _
  refine congrArg _ ?_
  funext a
  apply Fin.ext
  match a with
  | ⟨0, _⟩ => show win2_10.index t (0 : Fin 2) * 128 + 1 * (i 0).val = (i 0).val; rw [(idx_facts t).2.2.2.2.2.2.2.2.2.2.2.2.2.2.2.2.2.2.2.2.2.2.1]; omega
  | ⟨1, _⟩ => show win2_10.index t (1 : Fin 2) * 128 + 1 * (i 1).val = (i 1).val; rw [(idx_facts t).2.2.2.2.2.2.2.2.2.2.2.2.2.2.2.2.2.2.2.2.2.2.2.1]; omega

/-- Window 11's block at every point is its whole array. -/
theorem iblk_whole11 (c : Dev nD) (t : Fin cfg2.N) :
    (iblk2 V c 11 t : Vec Ideal S128x128 .f32) = (V c main_arg11 : S128x128.Idx → EReal) := by
  funext i
  unfold iblk2
  rw [View.read_apply]
  show V c main_arg11 _ = V c main_arg11 _
  refine congrArg _ ?_
  funext a
  apply Fin.ext
  match a with
  | ⟨0, _⟩ => show win2_11.index t (0 : Fin 2) * 128 + 1 * (i 0).val = (i 0).val; rw [(idx_facts t).2.2.2.2.2.2.2.2.2.2.2.2.2.2.2.2.2.2.2.2.2.2.2.2.1]; omega
  | ⟨1, _⟩ => show win2_11.index t (1 : Fin 2) * 128 + 1 * (i 1).val = (i 1).val; rw [(idx_facts t).2.2.2.2.2.2.2.2.2.2.2.2.2.2.2.2.2.2.2.2.2.2.2.2.2.1]; omega

/-- Window 12's block at every point is its whole array. -/
theorem iblk_whole12 (c : Dev nD) (t : Fin cfg2.N) :
    (iblk2 V c 12 t : Vec Ideal S3x3 .f32) = (V c main_arg12 : S3x3.Idx → EReal) := by
  funext i
  unfold iblk2
  rw [View.read_apply]
  show V c main_arg12 _ = V c main_arg12 _
  refine congrArg _ ?_
  funext a
  apply Fin.ext
  match a with
  | ⟨0, _⟩ => show win2_12.index t (0 : Fin 2) * 3 + 1 * (i 0).val = (i 0).val; rw [(idx_facts t).2.2.2.2.2.2.2.2.2.2.2.2.2.2.2.2.2.2.2.2.2.2.2.2.2.2.1]; omega
  | ⟨1, _⟩ => show win2_12.index t (1 : Fin 2) * 3 + 1 * (i 1).val = (i 1).val; rw [(idx_facts t).2.2.2.2.2.2.2.2.2.2.2.2.2.2.2.2.2.2.2.2.2.2.2.2.2.2.2]; omega

/-- A result block's entry from the arrays: the block function is the specification read at the block's row. -/
theorem blockRes_eq (A0 A1 A2 : Arr 10000 128) (c0 c1 c2 : Arr 1 128) (W0 W1 W2 T0 T1 T2 : Arr 128 128) (av : Arr 3 3)
    (x0 x1 x2 : Vec Ideal S1000x128 .f32) (R : Fin 10000) (p : Fin 1000) (q : Fin 128)
    (h0 : ∀ j : Fin 128, x0 (ix2 p j) = A0 (ix2 R j)) (h1 : ∀ j : Fin 128, x1 (ix2 p j) = A1 (ix2 R j))
    (h2 : ∀ j : Fin 128, x2 (ix2 p j) = A2 (ix2 R j)) :
    blockRes x0 x1 x2 c0 c1 c2 W0 W1 W2 T0 T1 T2 av p q
      = out3 (logitC (cur A0) (cur c0) (cur W0) (cur T0)) (logitC (cur A1) (cur c1) (cur W1) (cur T1))
          (logitC (cur A2) (cur c2) (cur W2) (cur T2)) (cur A0) (cur A1) (cur A2) (cur av) R q := by
  unfold blockRes out3 lgt logitC dirv
  simp only [cur_apply, h0, h1, h2]

/-- The result array as one function of the arrays the region finds. -/
def resArr (c : Dev nD) : S10000x128.Idx → EReal := fun i =>
  out3 (logitC (cur (V c main_call0_v1_0)) (cur (V c main_call0_v1_2)) (cur (V c main_arg6)) (cur (V c main_arg9)))
       (logitC (cur (V c main_call0_v1_1)) (cur (V c main_call0_v1_3)) (cur (V c main_arg7)) (cur (V c main_arg10)))
       (logitC (cur (V c main_call0_v0_2)) (cur (V c main_call0_v0_3)) (cur (V c main_arg8)) (cur (V c main_arg11)))
       (cur (V c main_call0_v1_0)) (cur (V c main_call0_v1_1)) (cur (V c main_call0_v0_2)) (cur (V c main_arg12)) (i 0) (i 1)

/-- What point t writes back is its row block of the result function. -/
theorem flushed_eq (c : Dev nD) (t : Fin cfg2.N) :
    (dat2 (F := Ideal) V c).flushed 13 t = ((cfg2.win 13).blk t).view.read (Elt Ideal) (resArr V c) := by
  show (cfg2.win 13).cut (grid2.coords t) ((dat2 V c).after 13 t) = _
  rw [after2_13]
  have key : ∀ j : S1000x128.Idx,
      out2_13 (F := Ideal) (iblk2 V c 0 t) (iblk2 V c 1 t) (iblk2 V c 2 t) (iblk2 V c 3 t) (iblk2 V c 4 t) (iblk2 V c 5 t) (iblk2 V c 6 t)
        (iblk2 V c 7 t) (iblk2 V c 8 t) (iblk2 V c 9 t) (iblk2 V c 10 t) (iblk2 V c 11 t) (iblk2 V c 12 t) j
      = resArr V c (((cfg2.win 13).blk t).view.emb j) := by
    intro j
    obtain ⟨p, q, rfl⟩ : ∃ (p : Fin 1000) (q : Fin 128), j = ix2 p q := ⟨j 0, j 1, eq_ix2 j⟩
    have ht := t_lt t
    have e13 : ((cfg2.win 13).blk t).view.emb (ix2 p q) = ix2 (⟨1000 * t.val + p.val, by omega⟩ : Fin 10000) q := by
      funext a
      apply Fin.ext
      match a with
      | ⟨0, _⟩ => show win2_13.index t (0 : Fin 2) * 1000 + 1 * p.val = 1000 * t.val + p.val; rw [(idx_facts t).2.2.2.2.2.2.1]; omega
      | ⟨1, _⟩ => show win2_13.index t (1 : Fin 2) * 128 + 1 * q.val = q.val; rw [(idx_facts t).2.2.2.2.2.2.2.1]; omega
    rw [e13]
    refine (out_apply _ _ _ _ _ _ _ _ _ _ _ _ _ p q).trans ?_
    rw [iblk_whole3 V c t, iblk_whole4 V c t, iblk_whole5 V c t, iblk_whole6 V c t, iblk_whole7 V c t, iblk_whole8 V c t,
      iblk_whole9 V c t, iblk_whole10 V c t, iblk_whole11 V c t, iblk_whole12 V c t]
    exact blockRes_eq _ _ _ _ _ _ _ _ _ _ _ _ _ _ _ _ ⟨1000 * t.val + p.val, by omega⟩ p q
      (fun j => iblk_rows0 V c t p j _ rfl) (fun j => iblk_rows1 V c t p j _ rfl) (fun j => iblk_rows2 V c t p j _ rfl)
  funext j
  exact key j

/-- An index of the result is in point t's block iff its row is among the block's thousand rows. -/
theorem mem_blk (t : Fin cfg2.N) (i : S10000x128.Idx) :
    i ∈ ((cfg2.win 13).blk t).view.set ↔ ∀ a : Fin 2, win2_13.index t a * S1000x128.size a ≤ (i a).val
      ∧ (i a).val < win2_13.index t a * S1000x128.size a + S1000x128.size a := by
  show i ∈ ((View.whole main_v0).slice (win2_13.rect t)).set ↔ _
  rw [View.set_slice_whole, Rect.mem_set_unit]
  exact Iff.rfl

/-- Row r of the result lies in the block of point r / 1000. -/
theorem cover (i : S10000x128.Idx) :
    ∃ t : Fin cfg2.N, (cfg2.win 13).flush t = true ∧ i ∈ ((cfg2.win 13).blk t).view.set := by
  have hi0 : (i 0).val < 10000 := (i 0).isLt
  have hi1 : (i 1).val < 128 := (i 1).isLt
  have hN : cfg2.N = 10 := N_2
  obtain ⟨t, ht⟩ : ∃ t : Fin cfg2.N, t.val = (i 0).val / 1000 := ⟨⟨(i 0).val / 1000, by rw [hN]; omega⟩, rfl⟩
  refine ⟨t, flush2_13 t, ?_⟩
  rw [mem_blk]
  intro a
  match a with
  | ⟨0, _⟩ =>
    show win2_13.index t (0 : Fin 2) * 1000 ≤ (i 0).val ∧ (i 0).val < win2_13.index t (0 : Fin 2) * 1000 + 1000
    rw [(idx_facts t).2.2.2.2.2.2.1, ht]; omega
  | ⟨1, _⟩ =>
    show win2_13.index t (1 : Fin 2) * 128 ≤ (i 1).val ∧ (i 1).val < win2_13.index t (1 : Fin 2) * 128 + 128
    rw [(idx_facts t).2.2.2.2.2.2.2.1]; omega

/-- The result array after the ten points is the result function. -/
theorem final (c : Dev nD) : (dat2 (F := Ideal) V c).arrAt 13 cfg2.N = resArr V c :=
  (dat2 (F := Ideal) V c).arrAt_eq_of_cover 13 (resArr V c) (fun t _ => flushed_eq V c t) cover

/-- REGION 2's RESULT, entry by entry: the attention-weighted sum of the three branch rows, with the logits taken
    against the scaled column sums the region finds. -/
theorem res (c : Dev nD) (r : Fin 10000) (k : Fin 128) :
    (dat2 (F := Ideal) V c).arrAt 13 cfg2.N (ix2 r k) =
      out3 (logitC (cur (V c main_call0_v1_0)) (cur (V c main_call0_v1_2)) (cur (V c main_arg6)) (cur (V c main_arg9)))
           (logitC (cur (V c main_call0_v1_1)) (cur (V c main_call0_v1_3)) (cur (V c main_arg7)) (cur (V c main_arg10)))
           (logitC (cur (V c main_call0_v0_2)) (cur (V c main_call0_v0_3)) (cur (V c main_arg8)) (cur (V c main_arg11)))
           (cur (V c main_call0_v1_0)) (cur (V c main_call0_v1_1)) (cur (V c main_call0_v0_2)) (cur (V c main_arg12)) r k := by
  rw [final V c]
  rfl

end Arr

end Cert.KernelIdeal.R2
end
-- ==== Proof.RefIsG.lean ====
/- The reference program is the specification, entry by entry.
   The reference computes, on whole arrays: three branch outputs o₀ = relu (A · (x · W_A)), o₁ = relu (A2 · (x · W_A2)),
   o₂ = relu (x · W_mlp); for each branch the column mean k_b of o_b · Wk_b (a column sum from the zero word, divided by
   the word 10000) and the logit column (o_b · att_b) · k_bᵀ; the three columns side by side; the sigmoid 1 / (1 + exp (−l))
   of each logit; the product with the 3 × 3 mixing matrix, divided by the word 3; a softmax along each row (the row
   maximum from −∞, the exponentials of the differences, their row sum from the zero word, the quotient); the three
   columns of weights sliced out and broadcast along the 128 features; and 3 · (w₀ o₀ + w₁ o₁ + w₂ o₂).
   Read at one entry (r, k) over the extended reals, every stage is a finite sum, a maximum or one arithmetic operation
   of entries of the stages before it. This module follows the stages in order — the branch outputs, the logits, the
   weights, the result — and identifies each with the corresponding part of the specification: a relu is the maximum
   with 0, a sum from the zero word is the sum, the quotient by the real 3 is the product with 1/3, the maximum of −∞
   and a fold from −∞ is the fold, and 1 / (1 + exp (−l)) is the logistic function by definition. -/
import proofs.«148014_g67783173865566_cont_9to1c4b_46_2_alg».proof.Proof.Gen.ReferenceIdeal.Read
import proofs.«148014_g67783173865566_cont_9to1c4b_46_2_alg».proof.Proof.Spec
import proofs.«148014_g67783173865566_cont_9to1c4b_46_2_alg».proof.Proof.Consts
import Idealize.ShloMosaic.Lib.Pipeline.Value
import Idealize.ShloMosaic.Lib.ValueIdx
import Idealize.ShloMosaic.PureOps.Ideal.Laws

noncomputable section

namespace Cert.ReferenceIdeal.RefValue
open Cert.ReferenceIdeal Cert.GraphAtt Idealize.ShloMosaic Idealize.ShloMosaic.ValueIdx

/-! ## Index equations

Each stage of the reference reads its operands at an index computed from the result's index; at an index given by
its coordinates these are again indices given by coordinates. -/
theorem lidx_v0 (r : Fin 10000) (d : Fin 128) (k : Fin 128) : Read.lidx_main_v0 (ix2 r d) k = ix2 r k :=
  funext fun a => Fin.ext (by match a with | ⟨0, _⟩ => rfl | ⟨1, _⟩ => rfl)
theorem ridx_v0 (r : Fin 10000) (d : Fin 128) (k : Fin 128) : Read.ridx_main_v0 (ix2 r d) k = ix2 k d :=
  funext fun a => Fin.ext (by match a with | ⟨0, _⟩ => rfl | ⟨1, _⟩ => rfl)
theorem lidx_v3 (r : Fin 10000) (d : Fin 128) (k : Fin 128) : Read.lidx_main_v3 (ix2 r d) k = ix2 r k :=
  funext fun a => Fin.ext (by match a with | ⟨0, _⟩ => rfl | ⟨1, _⟩ => rfl)
theorem ridx_v3 (r : Fin 10000) (d : Fin 128) (k : Fin 128) : Read.ridx_main_v3 (ix2 r d) k = ix2 k d :=
  funext fun a => Fin.ext (by match a with | ⟨0, _⟩ => rfl | ⟨1, _⟩ => rfl)
theorem lidx_v6 (r : Fin 10000) (d : Fin 128) (k : Fin 128) : Read.lidx_main_v6 (ix2 r d) k = ix2 r k :=
  funext fun a => Fin.ext (by match a with | ⟨0, _⟩ => rfl | ⟨1, _⟩ => rfl)
theorem ridx_v6 (r : Fin 10000) (d : Fin 128) (k : Fin 128) : Read.ridx_main_v6 (ix2 r d) k = ix2 k d :=
  funext fun a => Fin.ext (by match a with | ⟨0, _⟩ => rfl | ⟨1, _⟩ => rfl)
theorem lidx_v8 (r : Fin 10000) (d : Fin 128) (k : Fin 128) : Read.lidx_main_v8 (ix2 r d) k = ix2 r k :=
  funext fun a => Fin.ext (by match a with | ⟨0, _⟩ => rfl | ⟨1, _⟩ => rfl)
theorem ridx_v8 (r : Fin 10000) (d : Fin 128) (k : Fin 128) : Read.ridx_main_v8 (ix2 r d) k = ix2 k d :=
  funext fun a => Fin.ext (by match a with | ⟨0, _⟩ => rfl | ⟨1, _⟩ => rfl)
theorem lidx_v13 (r : Fin 10000) (d : Fin 128) (k : Fin 128) : Read.lidx_main_v13 (ix2 r d) k = ix2 r k :=
  funext fun a => Fin.ext (by match a with | ⟨0, _⟩ => rfl | ⟨1, _⟩ => rfl)
theorem ridx_v13 (r : Fin 10000) (d : Fin 128) (k : Fin 128) : Read.ridx_main_v13 (ix2 r d) k = ix2 k d :=
  funext fun a => Fin.ext (by match a with | ⟨0, _⟩ => rfl | ⟨1, _⟩ => rfl)
theorem lidx_v18 (r : Fin 10000) (d : Fin 128) (k : Fin 128) : Read.lidx_main_v18 (ix2 r d) k = ix2 r k :=
  funext fun a => Fin.ext (by match a with | ⟨0, _⟩ => rfl | ⟨1, _⟩ => rfl)
theorem ridx_v18 (r : Fin 10000) (d : Fin 128) (k : Fin 128) : Read.ridx_main_v18 (ix2 r d) k = ix2 k d :=
  funext fun a => Fin.ext (by match a with | ⟨0, _⟩ => rfl | ⟨1, _⟩ => rfl)
theorem lidx_v23 (r : Fin 10000) (d : Fin 128) (k : Fin 128) : Read.lidx_main_v23 (ix2 r d) k = ix2 r k :=
  funext fun a => Fin.ext (by match a with | ⟨0, _⟩ => rfl | ⟨1, _⟩ => rfl)
theorem ridx_v23 (r : Fin 10000) (d : Fin 128) (k : Fin 128) : Read.ridx_main_v23 (ix2 r d) k = ix2 k d :=
  funext fun a => Fin.ext (by match a with | ⟨0, _⟩ => rfl | ⟨1, _⟩ => rfl)
theorem lidx_v26 (r : Fin 10000) (d : Fin 128) (k : Fin 128) : Read.lidx_main_v26 (ix2 r d) k = ix2 r k :=
  funext fun a => Fin.ext (by match a with | ⟨0, _⟩ => rfl | ⟨1, _⟩ => rfl)
theorem ridx_v26 (r : Fin 10000) (d : Fin 128) (k : Fin 128) : Read.ridx_main_v26 (ix2 r d) k = ix2 k d :=
  funext fun a => Fin.ext (by match a with | ⟨0, _⟩ => rfl | ⟨1, _⟩ => rfl)
theorem lidx_v29 (r : Fin 10000) (d : Fin 128) (k : Fin 128) : Read.lidx_main_v29 (ix2 r d) k = ix2 r k :=
  funext fun a => Fin.ext (by match a with | ⟨0, _⟩ => rfl | ⟨1, _⟩ => rfl)
theorem ridx_v29 (r : Fin 10000) (d : Fin 128) (k : Fin 128) : Read.ridx_main_v29 (ix2 r d) k = ix2 k d :=
  funext fun a => Fin.ext (by match a with | ⟨0, _⟩ => rfl | ⟨1, _⟩ => rfl)
theorem lidx_v1 (r : Fin 10000) (d : Fin 128) (k : Fin 10000) : Read.lidx_main_v1 (ix2 r d) k = ix2 r k :=
  funext fun a => Fin.ext (by match a with | ⟨0, _⟩ => rfl | ⟨1, _⟩ => rfl)
theorem ridx_v1 (r : Fin 10000) (d : Fin 128) (k : Fin 10000) : Read.ridx_main_v1 (ix2 r d) k = ix2 k d :=
  funext fun a => Fin.ext (by match a with | ⟨0, _⟩ => rfl | ⟨1, _⟩ => rfl)
theorem lidx_v4 (r : Fin 10000) (d : Fin 128) (k : Fin 10000) : Read.lidx_main_v4 (ix2 r d) k = ix2 r k :=
  funext fun a => Fin.ext (by match a with | ⟨0, _⟩ => rfl | ⟨1, _⟩ => rfl)
theorem ridx_v4 (r : Fin 10000) (d : Fin 128) (k : Fin 10000) : Read.ridx_main_v4 (ix2 r d) k = ix2 k d :=
  funext fun a => Fin.ext (by match a with | ⟨0, _⟩ => rfl | ⟨1, _⟩ => rfl)
theorem lidx_v25 (r : Fin 10000) (c : Fin 1) (k : Fin 128) : Read.lidx_main_v25 (ix2 r c) k = ix2 r k :=
  funext fun a => Fin.ext (by match a with | ⟨0, _⟩ => rfl | ⟨1, _⟩ => rfl)
theorem ridx_v25 (r : Fin 10000) (c : Fin 1) (k : Fin 128) : Read.ridx_main_v25 (ix2 r c) k = ix2 k c :=
  funext fun a => Fin.ext (by match a with | ⟨0, _⟩ => rfl | ⟨1, _⟩ => rfl)
theorem lidx_v28 (r : Fin 10000) (c : Fin 1) (k : Fin 128) : Read.lidx_main_v28 (ix2 r c) k = ix2 r k :=
  funext fun a => Fin.ext (by match a with | ⟨0, _⟩ => rfl | ⟨1, _⟩ => rfl)
theorem ridx_v28 (r : Fin 10000) (c : Fin 1) (k : Fin 128) : Read.ridx_main_v28 (ix2 r c) k = ix2 k c :=
  funext fun a => Fin.ext (by match a with | ⟨0, _⟩ => rfl | ⟨1, _⟩ => rfl)
theorem lidx_v31 (r : Fin 10000) (c : Fin 1) (k : Fin 128) : Read.lidx_main_v31 (ix2 r c) k = ix2 r k :=
  funext fun a => Fin.ext (by match a with | ⟨0, _⟩ => rfl | ⟨1, _⟩ => rfl)
theorem ridx_v31 (r : Fin 10000) (c : Fin 1) (k : Fin 128) : Read.ridx_main_v31 (ix2 r c) k = ix2 k c :=
  funext fun a => Fin.ext (by match a with | ⟨0, _⟩ => rfl | ⟨1, _⟩ => rfl)
theorem idx_v24 (k : Fin 128) (c : Fin 1) : Read.idx_main_v24 (ix2 k c) = ix2 c k :=
  funext fun a => Fin.ext (by match a with | ⟨0, _⟩ => rfl | ⟨1, _⟩ => rfl)
theorem idx_v27 (k : Fin 128) (c : Fin 1) : Read.idx_main_v27 (ix2 k c) = ix2 c k :=
  funext fun a => Fin.ext (by match a with | ⟨0, _⟩ => rfl | ⟨1, _⟩ => rfl)
theorem idx_v30 (k : Fin 128) (c : Fin 1) : Read.idx_main_v30 (ix2 k c) = ix2 c k :=
  funext fun a => Fin.ext (by match a with | ⟨0, _⟩ => rfl | ⟨1, _⟩ => rfl)
theorem idx_v10 (c : Fin 1) (k : Fin 128) : Read.idx_main_v10 (ix2 c k) = ix1 k :=
  funext fun a => Fin.ext (by match a with | ⟨0, _⟩ => rfl)
theorem idx_v15 (c : Fin 1) (k : Fin 128) : Read.idx_main_v15 (ix2 c k) = ix1 k :=
  funext fun a => Fin.ext (by match a with | ⟨0, _⟩ => rfl)
theorem idx_v20 (c : Fin 1) (k : Fin 128) : Read.idx_main_v20 (ix2 c k) = ix1 k :=
  funext fun a => Fin.ext (by match a with | ⟨0, _⟩ => rfl)
theorem idx_v9 (k : Fin 128) (k' : Fin 10000) : Read.idx_main_v9 (ix1 k) k' = ix2 k' k :=
  funext fun a => Fin.ext (by match a with | ⟨0, _⟩ => rfl | ⟨1, _⟩ => rfl)
theorem idx_v14 (k : Fin 128) (k' : Fin 10000) : Read.idx_main_v14 (ix1 k) k' = ix2 k' k :=
  funext fun a => Fin.ext (by match a with | ⟨0, _⟩ => rfl | ⟨1, _⟩ => rfl)
theorem idx_v19 (k : Fin 128) (k' : Fin 10000) : Read.idx_main_v19 (ix1 k) k' = ix2 k' k :=
  funext fun a => Fin.ext (by match a with | ⟨0, _⟩ => rfl | ⟨1, _⟩ => rfl)

/-! ## The three branch outputs -/

/-- The first aggregation branch: relu (adj_A · (x · W_A)). -/
theorem v2_eq (x0 : Arr 10000 128) (x1 : Arr 10000 10000) (x3 : Arr 128 128) (r : Fin 10000) (d : Fin 128) :
    Read.val_main_v2 (F := Ideal) x0 x1 x3 (ix2 r d) = outA (cur x0) (cur x1) (cur x3) r d := by
  rw [Read.val_main_v2_apply, Read.val_main_v1_apply, Read.val_main_call0_v0_apply, Read.val_main_call0_cst_apply]
  simp only [Read.val_main_v0_apply, lidx_v1, ridx_v1, lidx_v0, ridx_v0, Ideal.maximumf_def, Ideal.ofBits_def,
    Consts.ofBits_zero]
  rfl

/-- The second aggregation branch: relu (adj_A2 · (x · W_A2)). -/
theorem v5_eq (x0 : Arr 10000 128) (x2 : Arr 10000 10000) (x4 : Arr 128 128) (r : Fin 10000) (d : Fin 128) :
    Read.val_main_v5 (F := Ideal) x0 x2 x4 (ix2 r d) = outA (cur x0) (cur x2) (cur x4) r d := by
  rw [Read.val_main_v5_apply, Read.val_main_v4_apply, Read.val_main_call1_v0_apply, Read.val_main_call1_cst_apply]
  simp only [Read.val_main_v3_apply, lidx_v4, ridx_v4, lidx_v3, ridx_v3, Ideal.maximumf_def, Ideal.ofBits_def,
    Consts.ofBits_zero]
  rfl

/-- The plain branch: relu (x · W_mlp). -/
theorem v7_eq (x0 : Arr 10000 128) (x5 : Arr 128 128) (r : Fin 10000) (d : Fin 128) :
    Read.val_main_v7 (F := Ideal) x0 x5 (ix2 r d) = outM (cur x0) (cur x5) r d := by
  rw [Read.val_main_v7_apply, Read.val_main_v6_apply, Read.val_main_call2_v0_apply, Read.val_main_call2_cst_apply]
  simp only [lidx_v6, ridx_v6, Ideal.maximumf_def, Ideal.ofBits_def, Consts.ofBits_zero]
  rfl

/-! ## The three logits

Each logit column is (o · att) · kᵀ with k the column mean of o · Wk: the mean is a sum from the zero word divided by
the word 10000. -/

theorem v25_eq (x0 : Arr 10000 128) (x1 : Arr 10000 10000) (x3 x6 x9 : Arr 128 128) (r : Fin 10000) :
    Read.val_main_v25 (F := Ideal) x0 x1 x3 x6 x9 (ix2 r 0)
      = logit (outA (cur x0) (cur x1) (cur x3)) (cur x6) (cur x9) r := by
  rw [Read.val_main_v25_apply]
  simp only [lidx_v25, ridx_v25, Read.val_main_v23_apply, lidx_v23, ridx_v23, Read.val_main_v24_apply, idx_v24,
    Read.val_main_v12_apply, Read.val_main_v10_apply, idx_v10, Read.val_main_v9_apply, idx_v9, Read.val_main_cst_apply,
    Read.val_main_v8_apply, lidx_v8, ridx_v8, Read.val_main_v11_apply, Read.val_main_cst_0_apply, v2_eq,
    Ideal.hostDivf_def, Ideal.ofBits_def, Consts.ofBits_zero, Consts.ofBits_10000, zero_add]
  rfl

theorem v28_eq (x0 : Arr 10000 128) (x2 : Arr 10000 10000) (x4 x7 x10 : Arr 128 128) (r : Fin 10000) :
    Read.val_main_v28 (F := Ideal) x0 x2 x4 x7 x10 (ix2 r 0)
      = logit (outA (cur x0) (cur x2) (cur x4)) (cur x7) (cur x10) r := by
  rw [Read.val_main_v28_apply]
  simp only [lidx_v28, ridx_v28, Read.val_main_v26_apply, lidx_v26, ridx_v26, Read.val_main_v27_apply, idx_v27,
    Read.val_main_v17_apply, Read.val_main_v15_apply, idx_v15, Read.val_main_v14_apply, idx_v14, Read.val_main_cst_1_apply,
    Read.val_main_v13_apply, lidx_v13, ridx_v13, Read.val_main_v16_apply, Read.val_main_cst_2_apply, v5_eq,
    Ideal.hostDivf_def, Ideal.ofBits_def, Consts.ofBits_zero, Consts.ofBits_10000, zero_add]
  rfl

theorem v31_eq (x0 : Arr 10000 128) (x5 x8 x11 : Arr 128 128) (r : Fin 10000) :
    Read.val_main_v31 (F := Ideal) x0 x5 x8 x11 (ix2 r 0)
      = logit (outM (cur x0) (cur x5)) (cur x8) (cur x11) r := by
  rw [Read.val_main_v31_apply]
  simp only [lidx_v31, ridx_v31, Read.val_main_v29_apply, lidx_v29, ridx_v29, Read.val_main_v30_apply, idx_v30,
    Read.val_main_v22_apply, Read.val_main_v20_apply, idx_v20, Read.val_main_v19_apply, idx_v19, Read.val_main_cst_3_apply,
    Read.val_main_v18_apply, lidx_v18, ridx_v18, Read.val_main_v21_apply, Read.val_main_cst_4_apply, v7_eq,
    Ideal.hostDivf_def, Ideal.ofBits_def, Consts.ofBits_zero, Consts.ofBits_10000, zero_add]
  rfl

/-! ## The attention weights and the result -/

/-- Three columns laid side by side, read at (r, c): column c at row r. -/
theorem concat3_apply (u0 u1 u2 : Arr 10000 1)
    (h : Shape.Concatenates (([⟨S10000x1, u0⟩, ⟨S10000x1, u1⟩, ⟨S10000x1, u2⟩] : List ((s : Shape) × (s.Idx → EReal))).map (·.1)) S10000x3 1)
    (r : Fin 10000) (c : Fin 3) :
    concatenate S10000x3 1 [⟨S10000x1, u0⟩, ⟨S10000x1, u1⟩, ⟨S10000x1, u2⟩] h (ix2 r c)
      = sel3 (u0 (ix2 r 0)) (u1 (ix2 r 0)) (u2 (ix2 r 0)) c := by
  match c with
  | ⟨0, _⟩ =>
    exact concatenate_apply_piece 1 _ h (ix2 r 0) 0 (show (0 : Nat) < 3 by omega) S10000x1 u0 rfl rfl 0 rfl (ix2 r 0)
      (fun b hb => by match b with | ⟨0, _⟩ => rfl | ⟨1, _⟩ => exact absurd rfl hb) rfl
  | ⟨1, _⟩ =>
    exact concatenate_apply_piece 1 _ h (ix2 r 1) 1 (show (1 : Nat) < 3 by omega) S10000x1 u1 rfl rfl 1 rfl (ix2 r 0)
      (fun b hb => by match b with | ⟨0, _⟩ => rfl | ⟨1, _⟩ => exact absurd rfl hb) rfl
  | ⟨2, _⟩ =>
    exact concatenate_apply_piece 1 _ h (ix2 r 2) 2 (show (2 : Nat) < 3 by omega) S10000x1 u2 rfl rfl 2 rfl (ix2 r 0)
      (fun b hb => by match b with | ⟨0, _⟩ => rfl | ⟨1, _⟩ => exact absurd rfl hb) rfl

section Tail

variable (x0 : Arr 10000 128) (x1 x2 : Arr 10000 10000) (x3 x4 x5 x6 x7 x8 x9 x10 x11 : Arr 128 128) (x12 : Arr 3 3)

local notation "V32" => Read.val_main_v32 (F := Ideal) x0 x1 x2 x3 x4 x5 x6 x7 x8 x9 x10 x11
local notation "V38" => Read.val_main_v38 (F := Ideal) x0 x1 x2 x3 x4 x5 x6 x7 x8 x9 x10 x11
local notation "V41" => Read.val_main_v41 (F := Ideal) x0 x1 x2 x3 x4 x5 x6 x7 x8 x9 x10 x11 x12
local notation "V42" => Read.val_main_v42 (F := Ideal) x0 x1 x2 x3 x4 x5 x6 x7 x8 x9 x10 x11 x12
local notation "V46" => Read.val_main_v46 (F := Ideal) x0 x1 x2 x3 x4 x5 x6 x7 x8 x9 x10 x11 x12
local notation "V48" => Read.val_main_v48 (F := Ideal) x0 x1 x2 x3 x4 x5 x6 x7 x8 x9 x10 x11 x12
local notation "V51" => Read.val_main_v51 (F := Ideal) x0 x1 x2 x3 x4 x5 x6 x7 x8 x9 x10 x11 x12
local notation "V52" => Read.val_main_v52 (F := Ideal) x0 x1 x2 x3 x4 x5 x6 x7 x8 x9 x10 x11 x12
local notation "V62" => Read.val_main_v62 (F := Ideal) x0 x1 x2 x3 x4 x5 x6 x7 x8 x9 x10 x11 x12
local notation "V64" => Read.val_main_v64 (F := Ideal) x0 x1 x2 x3 x4 x5 x6 x7 x8 x9 x10 x11 x12
local notation "V67" => Read.val_main_v67 (F := Ideal) x0 x1 x2 x3 x4 x5 x6 x7 x8 x9 x10 x11 x12
local notation "V71" => Read.val_main_v71 (F := Ideal) x0 x1 x2 x3 x4 x5 x6 x7 x8 x9 x10 x11 x12

/-- The three logit columns side by side. -/
theorem v32_eq (r : Fin 10000) (c : Fin 3) :
    V32 (ix2 r c) = sel3 (Read.val_main_v25 (F := Ideal) x0 x1 x3 x6 x9 (ix2 r 0))
      (Read.val_main_v28 (F := Ideal) x0 x2 x4 x7 x10 (ix2 r 0)) (Read.val_main_v31 (F := Ideal) x0 x5 x8 x11 (ix2 r 0)) c := by
  unfold Read.val_main_v32
  exact concat3_apply _ _ _ _ r c

/-- 1 / (1 + exp (−l)) is the logistic function of the logit. -/
theorem v38_eq (i : S10000x3.Idx) : V38 i = Ideal.logistic (V32 i) := by
  rw [Read.val_main_v38_apply, Read.val_main_v37_apply, Read.val_main_cst_6_apply, Read.val_main_v36_apply,
    Read.val_main_v35_apply, Read.val_main_cst_5_apply, Read.val_main_v34_apply, Read.val_main_v33_apply]
  simp only [Ideal.hostDivf_def, Ideal.ofBits_def, Consts.ofBits_one, Ideal.addf_def, Ideal.hostUnary_exp_def,
    Ideal.hostNegf_def, Ideal.negf_def]
  rfl

theorem lidx_v39 (r : Fin 10000) (c k : Fin 3) : Read.lidx_main_v39 (ix2 r c) k = ix2 r k :=
  funext fun a => Fin.ext (by match a with | ⟨0, _⟩ => rfl | ⟨1, _⟩ => rfl)
theorem ridx_v39 (r : Fin 10000) (c k : Fin 3) : Read.ridx_main_v39 (ix2 r c) k = ix2 k c :=
  funext fun a => Fin.ext (by match a with | ⟨0, _⟩ => rfl | ⟨1, _⟩ => rfl)

/-- The scores mixed by the 3 × 3 matrix and divided by the word 3. -/
theorem v41_eq (r : Fin 10000) (c : Fin 3) :
    V41 (ix2 r c) = zrow (fun i => V38 (ix2 r i)) (cur x12) c := by
  rw [Read.val_main_v41_apply, Read.val_main_v40_apply, Read.val_main_cst_7_apply, Read.val_main_v39_apply]
  simp only [lidx_v39, ridx_v39, Ideal.hostDivf_def, Ideal.ofBits_def, Consts.ofBits_three,
    Ideal.div_coe (by norm_num : (3 : ℝ) ≠ 0)]
  rfl

end Tail

/-- The reduced index r with column c put back is (r, c). -/
theorem lift_col (h : S10000x3.Reduces [1] S10000) (r : Fin 10000) (c : Fin (S10000x3.size 1)) :
    h.lift (ix1 r) c = ix2 r (⟨c.val, c.isLt⟩ : Fin 3) := by
  funext a; apply Fin.ext
  match a with
  | ⟨0, _⟩ => rfl
  | ⟨1, _⟩ => rfl

/-- From −∞, the maximum over the three columns of a row. -/
theorem rowmax_read (y : S10000x3.Idx → EReal) (init : S_.Idx → EReal) (hinit : ∀ i, init i = ⊥)
    (h' : S10000x3.ReducesTo [1] S10000) (hu : 0 < S_.numel) (r : Fin 10000) :
    Host.reduce (FloatOps.maximumf (F := Ideal) (φ := .f32)) y init h' hu (ix1 r) = rowmax (fun c => y (ix2 r c)) := by
  have h : S10000x3.Reduces [1] S10000 := by decide
  rw [Host.reduce_eq_fold_single (FloatOps.maximumf (F := Ideal) (φ := .f32)) y init h' h hu, hinit]
  have hf : (y ∘ h.lift (ix1 r)) = fun c : Fin 3 => y (ix2 r c) := funext fun c => congrArg y (lift_col h r c)
  exact congrArg (fun f => Finset.fold max ⊥ f (Finset.univ : Finset (Fin 3))) hf

section Tail2

variable (x0 : Arr 10000 128) (x1 x2 : Arr 10000 10000) (x3 x4 x5 x6 x7 x8 x9 x10 x11 : Arr 128 128) (x12 : Arr 3 3)

local notation "V38" => Read.val_main_v38 (F := Ideal) x0 x1 x2 x3 x4 x5 x6 x7 x8 x9 x10 x11
local notation "V41" => Read.val_main_v41 (F := Ideal) x0 x1 x2 x3 x4 x5 x6 x7 x8 x9 x10 x11 x12
local notation "V42" => Read.val_main_v42 (F := Ideal) x0 x1 x2 x3 x4 x5 x6 x7 x8 x9 x10 x11 x12
local notation "V46" => Read.val_main_v46 (F := Ideal) x0 x1 x2 x3 x4 x5 x6 x7 x8 x9 x10 x11 x12
local notation "V48" => Read.val_main_v48 (F := Ideal) x0 x1 x2 x3 x4 x5 x6 x7 x8 x9 x10 x11 x12
local notation "V51" => Read.val_main_v51 (F := Ideal) x0 x1 x2 x3 x4 x5 x6 x7 x8 x9 x10 x11 x12
local notation "V52" => Read.val_main_v52 (F := Ideal) x0 x1 x2 x3 x4 x5 x6 x7 x8 x9 x10 x11 x12
local notation "V62" => Read.val_main_v62 (F := Ideal) x0 x1 x2 x3 x4 x5 x6 x7 x8 x9 x10 x11 x12
local notation "V64" => Read.val_main_v64 (F := Ideal) x0 x1 x2 x3 x4 x5 x6 x7 x8 x9 x10 x11 x12
local notation "V67" => Read.val_main_v67 (F := Ideal) x0 x1 x2 x3 x4 x5 x6 x7 x8 x9 x10 x11 x12
local notation "V71" => Read.val_main_v71 (F := Ideal) x0 x1 x2 x3 x4 x5 x6 x7 x8 x9 x10 x11 x12

/-- The row maximum of the scaled scores. -/
theorem v42_eq (r : Fin 10000) : V42 (ix1 r) = rowmax (fun c => V41 (ix2 r c)) := by
  unfold Read.val_main_v42
  exact rowmax_read _ _ (fun i => by rw [Read.val_main_cst_8_apply, Ideal.ofBits_def, Consts.ofBits_neg_inf]) _ _ r

theorem idx_v45 (r : Fin 10000) (c : Fin 1) : Read.idx_main_v45 (ix2 r c) = ix1 r :=
  funext fun a => Fin.ext (by match a with | ⟨0, _⟩ => rfl)
theorem idx_v46 (r : Fin 10000) (c : Fin 3) : Read.idx_main_v46 (ix2 r c) = ix2 r 0 :=
  funext fun a => Fin.ext (by match a with | ⟨0, _⟩ => rfl | ⟨1, _⟩ => rfl)

/-- The maximum, guarded once more against −∞ and broadcast along the row. -/
theorem v46_eq (r : Fin 10000) (c : Fin 3) : V46 (ix2 r c) = rowmax (fun c' => V41 (ix2 r c')) := by
  rw [Read.val_main_v46_apply, idx_v46, Read.val_main_v45_apply, idx_v45, Read.val_main_v44_apply,
    Read.val_main_v43_apply, Read.val_main_cst_9_apply, v42_eq]
  simp only [Ideal.maximumf_def, Ideal.ofBits_def, Consts.ofBits_neg_inf]
  exact max_bot_left _

/-- The exponential of a scaled score less the row maximum. -/
theorem v48_eq (r : Fin 10000) (c : Fin 3) :
    V48 (ix2 r c) = Ideal.exp (V41 (ix2 r c) - rowmax (fun c' => V41 (ix2 r c'))) := by
  rw [Read.val_main_v48_apply, Read.val_main_v47_apply, v46_eq]
  simp only [Ideal.hostUnary_exp_def, Ideal.subf_def]

theorem idx_v49 (r : Fin 10000) (k : Fin 3) : Read.idx_main_v49 (ix1 r) k = ix2 r k :=
  funext fun a => Fin.ext (by match a with | ⟨0, _⟩ => rfl | ⟨1, _⟩ => rfl)
theorem idx_v50 (r : Fin 10000) (c : Fin 1) : Read.idx_main_v50 (ix2 r c) = ix1 r :=
  funext fun a => Fin.ext (by match a with | ⟨0, _⟩ => rfl)
theorem idx_v51 (r : Fin 10000) (c : Fin 3) : Read.idx_main_v51 (ix2 r c) = ix2 r 0 :=
  funext fun a => Fin.ext (by match a with | ⟨0, _⟩ => rfl | ⟨1, _⟩ => rfl)

/-- The row sum of the exponentials, broadcast along the row. -/
theorem v51_eq (r : Fin 10000) (c : Fin 3) : V51 (ix2 r c) = ∑ k : Fin 3, V48 (ix2 r k) := by
  rw [Read.val_main_v51_apply, idx_v51, Read.val_main_v50_apply, idx_v50, Read.val_main_v49_apply,
    Read.val_main_cst_10_apply]
  simp only [idx_v49, Ideal.ofBits_def, Consts.ofBits_zero, zero_add]

/-- The softmax weight of branch c in row r. -/
theorem v52_eq (r : Fin 10000) (c : Fin 3) :
    V52 (ix2 r c) = attw (fun i => V38 (ix2 r i)) (cur x12) c := by
  have hz : (fun c' => V41 (ix2 r c')) = zrow (fun i => V38 (ix2 r i)) (cur x12) :=
    funext fun c' => v41_eq x0 x1 x2 x3 x4 x5 x6 x7 x8 x9 x10 x11 x12 r c'
  rw [Read.val_main_v52_apply, v51_eq]
  simp only [v48_eq, Ideal.hostDivf_def, hz, v41_eq]
  rfl

end Tail2

section Tail3

variable (x0 : Arr 10000 128) (x1 x2 : Arr 10000 10000) (x3 x4 x5 x6 x7 x8 x9 x10 x11 : Arr 128 128) (x12 : Arr 3 3)

local notation "V32" => Read.val_main_v32 (F := Ideal) x0 x1 x2 x3 x4 x5 x6 x7 x8 x9 x10 x11
local notation "V38" => Read.val_main_v38 (F := Ideal) x0 x1 x2 x3 x4 x5 x6 x7 x8 x9 x10 x11
local notation "V52" => Read.val_main_v52 (F := Ideal) x0 x1 x2 x3 x4 x5 x6 x7 x8 x9 x10 x11 x12
local notation "V62" => Read.val_main_v62 (F := Ideal) x0 x1 x2 x3 x4 x5 x6 x7 x8 x9 x10 x11 x12
local notation "V64" => Read.val_main_v64 (F := Ideal) x0 x1 x2 x3 x4 x5 x6 x7 x8 x9 x10 x11 x12
local notation "V67" => Read.val_main_v67 (F := Ideal) x0 x1 x2 x3 x4 x5 x6 x7 x8 x9 x10 x11 x12

theorem idx_v53 (r : Fin 10000) : Read.idx_main_v53 (ix2 r 0) = ix2 r 0 :=
  funext fun a => Fin.ext (by match a with | ⟨0, _⟩ => rfl | ⟨1, _⟩ => rfl)
theorem idx_v56 (r : Fin 10000) : Read.idx_main_v56 (ix2 r 0) = ix2 r 1 :=
  funext fun a => Fin.ext (by match a with | ⟨0, _⟩ => rfl | ⟨1, _⟩ => rfl)
theorem idx_v59 (r : Fin 10000) : Read.idx_main_v59 (ix2 r 0) = ix2 r 2 :=
  funext fun a => Fin.ext (by match a with | ⟨0, _⟩ => rfl | ⟨1, _⟩ => rfl)
theorem idx_v54 (r : Fin 10000) : Read.idx_main_v54 (ix1 r) = ix2 r 0 :=
  funext fun a => Fin.ext (by match a with | ⟨0, _⟩ => exact Nat.div_one _ | ⟨1, _⟩ => rfl)
theorem idx_v57 (r : Fin 10000) : Read.idx_main_v57 (ix1 r) = ix2 r 0 :=
  funext fun a => Fin.ext (by match a with | ⟨0, _⟩ => exact Nat.div_one _ | ⟨1, _⟩ => rfl)
theorem idx_v60 (r : Fin 10000) : Read.idx_main_v60 (ix1 r) = ix2 r 0 :=
  funext fun a => Fin.ext (by match a with | ⟨0, _⟩ => exact Nat.div_one _ | ⟨1, _⟩ => rfl)
theorem idx_v55 (r : Fin 10000) (c : Fin 1) : Read.idx_main_v55 (ix2 r c) = ix1 r :=
  funext fun a => Fin.ext (by match a with | ⟨0, _⟩ => rfl)
theorem idx_v58 (r : Fin 10000) (c : Fin 1) : Read.idx_main_v58 (ix2 r c) = ix1 r :=
  funext fun a => Fin.ext (by match a with | ⟨0, _⟩ => rfl)
theorem idx_v61 (r : Fin 10000) (c : Fin 1) : Read.idx_main_v61 (ix2 r c) = ix1 r :=
  funext fun a => Fin.ext (by match a with | ⟨0, _⟩ => rfl)
theorem idx_v62 (r : Fin 10000) (k : Fin 128) : Read.idx_main_v62 (ix2 r k) = ix2 r 0 :=
  funext fun a => Fin.ext (by match a with | ⟨0, _⟩ => rfl | ⟨1, _⟩ => rfl)
theorem idx_v64 (r : Fin 10000) (k : Fin 128) : Read.idx_main_v64 (ix2 r k) = ix2 r 0 :=
  funext fun a => Fin.ext (by match a with | ⟨0, _⟩ => rfl | ⟨1, _⟩ => rfl)
theorem idx_v67 (r : Fin 10000) (k : Fin 128) : Read.idx_main_v67 (ix2 r k) = ix2 r 0 :=
  funext fun a => Fin.ext (by match a with | ⟨0, _⟩ => rfl | ⟨1, _⟩ => rfl)

/-- Column 0 of the weights, sliced out, flattened and broadcast along the 128 features. -/
theorem v62_eq (r : Fin 10000) (k : Fin 128) : V62 (ix2 r k) = V52 (ix2 r 0) := by
  rw [Read.val_main_v62_apply, idx_v62, Read.val_main_v55_apply, idx_v55, Read.val_main_v54_apply, idx_v54,
    Read.val_main_v53_apply, idx_v53]
/-- Column 1 likewise. -/
theorem v64_eq (r : Fin 10000) (k : Fin 128) : V64 (ix2 r k) = V52 (ix2 r 1) := by
  rw [Read.val_main_v64_apply, idx_v64, Read.val_main_v58_apply, idx_v58, Read.val_main_v57_apply, idx_v57,
    Read.val_main_v56_apply, idx_v56]
/-- Column 2 likewise. -/
theorem v67_eq (r : Fin 10000) (k : Fin 128) : V67 (ix2 r k) = V52 (ix2 r 2) := by
  rw [Read.val_main_v67_apply, idx_v67, Read.val_main_v61_apply, idx_v61, Read.val_main_v60_apply, idx_v60,
    Read.val_main_v59_apply, idx_v59]

/-- The sigmoid scores of row r are the logistic function of its three logits. -/
theorem v38_row (r : Fin 10000) :
    (fun i => V38 (ix2 r i)) = fun i => Ideal.logistic (sel3
      (logit (outA (cur x0) (cur x1) (cur x3)) (cur x6) (cur x9) r)
      (logit (outA (cur x0) (cur x2) (cur x4)) (cur x7) (cur x10) r)
      (logit (outM (cur x0) (cur x5)) (cur x8) (cur x11) r) i) := by
  funext i
  rw [v38_eq, v32_eq, v25_eq, v28_eq, v31_eq]

end Tail3

/-- **The reference computes the specification.** Entry (r, k) of the reference's result is three times the
    attention-weighted sum of the three branch outputs at (r, k), with the reference's own spelling of the logits. -/
theorem ref_is_G (x0 : Arr 10000 128) (x1 x2 : Arr 10000 10000) (x3 x4 x5 x6 x7 x8 x9 x10 x11 : Arr 128 128) (x12 : Arr 3 3)
    (r : Fin 10000) (k : Fin 128) :
    Read.val_main_v71 (F := Ideal) x0 x1 x2 x3 x4 x5 x6 x7 x8 x9 x10 x11 x12 (ix2 r k)
      = Gref (cur x0) (cur x1) (cur x2) (cur x3) (cur x4) (cur x5) (cur x6) (cur x7) (cur x8) (cur x9) (cur x10) (cur x11) (cur x12) r k := by
  rw [Read.val_main_v71_apply, Read.val_main_v70_apply, Read.val_main_cst_11_apply, Read.val_main_v69_apply,
    Read.val_main_v66_apply, Read.val_main_v63_apply, Read.val_main_v65_apply, Read.val_main_v68_apply,
    v62_eq, v64_eq, v67_eq, v52_eq, v52_eq, v52_eq, v38_row, v2_eq, v5_eq, v7_eq]
  simp only [Ideal.mulf_def, Ideal.addf_def, Ideal.ofBits_def]
  rfl

end Cert.ReferenceIdeal.RefValue

end
-- ==== Proof.Finite.lean ====
/- From the precondition to "every entry of every argument array is a real number". The precondition is the
   conjunction, over the argument arrays, of "every entry x has |x| < +∞"; over the extended reals |x| = max x (-x), and
   max x (-x) < ⊤ excludes both infinities, so x is the coercion of a real. -/
import proofs.«148014_g67783173865566_cont_9to1c4b_46_2_alg».proof.Defs
import proofs.«148014_g67783173865566_cont_9to1c4b_46_2_alg».proof.Proof.Gen.Pre_finite_inputs
import proofs.«148014_g67783173865566_cont_9to1c4b_46_2_alg».proof.Proof.Spec
import Idealize.ShloMosaic.Lib.ReduceAll

noncomputable section

namespace Cert.KernelIdeal.Finite

open Cert.KernelIdeal Cert.GraphAtt Idealize.ShloMosaic Idealize.ShloMosaic.TcCoe Idealize.SL.Sem

/-- The rank-0 shape has one index. -/
instance : Subsingleton Cert.Pre_finite_inputs.S_.Idx := ⟨fun a b => funext fun d => d.elim0⟩

/-- The word of plus infinity denotes the top of the extended reals. -/
theorem ofBits_inf : Ideal.ofBits .f32 0x7F800000#32 = ⊤ := by
  simp [Ideal.ofBits, Ideal.ieee]

/-- An extended real whose absolute value is below plus infinity is a real number. -/
theorem real_of_abs_lt (x : EReal)
    (h : Ideal.cmp .olt (max x (-x)) (Ideal.ofBits .f32 0x7F800000#32) = 1#1) : ∃ y : ℝ, x = (y : EReal) := by
  rw [ofBits_inf] at h
  unfold Ideal.cmp at h
  induction x using EReal.rec with
  | bot => simp at h
  | coe y => exact ⟨y, rfl⟩
  | top => simp at h

/-- A conjunction of two one-bit words that is 1 has both 1. -/
theorem split {s : Shape} (x y : IVec s 1) (i : s.Idx) (h : andi x y i = 1#1) : x i = 1#1 ∧ y i = 1#1 :=
  IntOp.andi_eq_one.1 h

/-- One argument array: if "all entries have absolute value below plus infinity" came out 1, every entry is real. -/
theorem isReal_of_all {a b : ℕ} {u : Shape} (X : FVec Ideal (⟨2, ![a, b]⟩ : Shape) .f32)
    (hb : Cert.Pre_finite_inputs.S_.BroadcastsInDim (⟨2, ![a, b]⟩ : Shape) (![] : Fin 0 → Fin 2))
    (hr : (⟨2, ![a, b]⟩ : Shape).ReducesTo [0, 1] Cert.Pre_finite_inputs.S_) (init : IVec u 1) (hu : 0 < u.numel)
    (j : Cert.Pre_finite_inputs.S_.Idx)
    (e : Host.reduce IntOp.andi
          (cmpf .olt (Host.absf X)
            (broadcastInDim (⟨2, ![a, b]⟩ : Shape) ![] hb (constant Cert.Pre_finite_inputs.S_ .f32 0x7F800000#32)))
          init hr hu j = 1#1) :
    IsReal (cur X) := by
  intro r c
  have := Host.reduce_andi_all _ _ hr hu j e (ValueIdx.ix2 r c)
  exact real_of_abs_lt _ this

/-- Under the precondition every entry of every argument array is a real number. -/
theorem isReal_of_pre [Cert.Pre_finite_inputs.Facts] (m : (ℓ : Loc nD τ sig) → Buf (Elt Ideal) ℓ) (h : Cert.Pre_KernelIdeal m) (c : Dev nD) :
    IsReal (cur (m ((c.tc : Thread nD τ).loc main_arg0))) ∧ IsReal (cur (m ((c.tc : Thread nD τ).loc main_arg1)))
    ∧ IsReal (cur (m ((c.tc : Thread nD τ).loc main_arg2))) ∧ IsReal (cur (m ((c.tc : Thread nD τ).loc main_arg3)))
    ∧ IsReal (cur (m ((c.tc : Thread nD τ).loc main_arg4))) ∧ IsReal (cur (m ((c.tc : Thread nD τ).loc main_arg5)))
    ∧ IsReal (cur (m ((c.tc : Thread nD τ).loc main_arg6))) ∧ IsReal (cur (m ((c.tc : Thread nD τ).loc main_arg7)))
    ∧ IsReal (cur (m ((c.tc : Thread nD τ).loc main_arg8))) ∧ IsReal (cur (m ((c.tc : Thread nD τ).loc main_arg9)))
    ∧ IsReal (cur (m ((c.tc : Thread nD τ).loc main_arg10))) ∧ IsReal (cur (m ((c.tc : Thread nD τ).loc main_arg11))) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h58, -⟩ := split _ _ _ h0
  obtain ⟨h53, e11⟩ := split _ _ _ h58
  obtain ⟨h48, e10⟩ := split _ _ _ h53
  obtain ⟨h43, e9⟩ := split _ _ _ h48
  obtain ⟨h38, e8⟩ := split _ _ _ h43
  obtain ⟨h33, e7⟩ := split _ _ _ h38
  obtain ⟨h28, e6⟩ := split _ _ _ h33
  obtain ⟨h23, e5⟩ := split _ _ _ h28
  obtain ⟨h18, e4⟩ := split _ _ _ h23
  obtain ⟨h13, e3⟩ := split _ _ _ h18
  obtain ⟨h8, e2⟩ := split _ _ _ h13
  obtain ⟨e0, e1⟩ := split _ _ _ h8
  exact ⟨isReal_of_all _ _ _ _ _ _ e0, isReal_of_all _ _ _ _ _ _ e1, isReal_of_all _ _ _ _ _ _ e2,
    isReal_of_all _ _ _ _ _ _ e3, isReal_of_all _ _ _ _ _ _ e4, isReal_of_all _ _ _ _ _ _ e5,
    isReal_of_all _ _ _ _ _ _ e6, isReal_of_all _ _ _ _ _ _ e7, isReal_of_all _ _ _ _ _ _ e8,
    isReal_of_all _ _ _ _ _ _ e9, isReal_of_all _ _ _ _ _ _ e10, isReal_of_all _ _ _ _ _ _ e11⟩

end Cert.KernelIdeal.Finite

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.lean ====
/- The proof of `Cert.Claim`: the three frames, the idealization's ledger, and the equality of the two idealized
   programs' results.
   The kernel is a three-stage pipeline for one graph-attention layer over 10000 nodes and 128 features: the dense
   products x · W and relu(x · W_mlp) with its column sums; then, streaming the two 10000 × 10000 adjacency matrices in
   blocks of 200 rows, relu(adj · (x · W)) with column sums accumulated across the grid; then, per block of 1000 rows,
   for each of the three branches a logit (the row against ((column sums / 10000) · W_k) contracted with att_vec), a
   sigmoid, a 3 × 3 mixing scaled by 1/3, a softmax over the branches, and three times the weighted sum of the branch
   rows. The reference computes the same with whole-array operations, its logits through the column mean of out · W_k.
   Both are one function of the arguments where every argument entry is real (`Gker_eq_Gref`): moving the factor
   1/10000 and exchanging the finite sums is distributivity, which fails at infinities — the precondition is used
   exactly there. The two constants the kernel folds, 1/10000 and 1/3, are read as those rationals (the ledger). -/
import proofs.«148014_g67783173865566_cont_9to1c4b_46_2_alg».proof.Defs
import proofs.«148014_g67783173865566_cont_9to1c4b_46_2_alg».proof.Proof.Gen.Kernel
import proofs.«148014_g67783173865566_cont_9to1c4b_46_2_alg».proof.Proof.Gen.Kernel.Skeleton
import proofs.«148014_g67783173865566_cont_9to1c4b_46_2_alg».proof.Proof.Gen.Kernel.Launch
import proofs.«148014_g67783173865566_cont_9to1c4b_46_2_alg».proof.Proof.Gen.Kernel.Points
import proofs.«148014_g67783173865566_cont_9to1c4b_46_2_alg».proof.Proof.Gen.Kernel.Frame
import proofs.«148014_g67783173865566_cont_9to1c4b_46_2_alg».proof.Proof.Gen.KernelIdeal
import proofs.«148014_g67783173865566_cont_9to1c4b_46_2_alg».proof.Proof.Gen.KernelIdeal.Skeleton
import proofs.«148014_g67783173865566_cont_9to1c4b_46_2_alg».proof.Proof.Gen.KernelIdeal.Launch
import proofs.«148014_g67783173865566_cont_9to1c4b_46_2_alg».proof.Proof.Gen.KernelIdeal.Points
import proofs.«148014_g67783173865566_cont_9to1c4b_46_2_alg».proof.Proof.Gen.KernelIdeal.Frame
import proofs.«148014_g67783173865566_cont_9to1c4b_46_2_alg».proof.Proof.Gen.ReferenceIdeal
import proofs.«148014_g67783173865566_cont_9to1c4b_46_2_alg».proof.Proof.Gen.Pre_finite_inputs
import proofs.«148014_g67783173865566_cont_9to1c4b_46_2_alg».proof.Proof.Gen.ReferenceIdeal.Run
import proofs.«148014_g67783173865566_cont_9to1c4b_46_2_alg».proof.Proof.Gen.ReferenceIdeal.Read
import proofs.«148014_g67783173865566_cont_9to1c4b_46_2_alg».proof.Proof.Bridge
import proofs.«148014_g67783173865566_cont_9to1c4b_46_2_alg».proof.Proof.Region0
import proofs.«148014_g67783173865566_cont_9to1c4b_46_2_alg».proof.Proof.Region1Blocks
import proofs.«148014_g67783173865566_cont_9to1c4b_46_2_alg».proof.Proof.Region1Sums
import proofs.«148014_g67783173865566_cont_9to1c4b_46_2_alg».proof.Proof.Region2
import proofs.«148014_g67783173865566_cont_9to1c4b_46_2_alg».proof.Proof.RefIsG
import proofs.«148014_g67783173865566_cont_9to1c4b_46_2_alg».proof.Proof.Finite
import proofs.«148014_g67783173865566_cont_9to1c4b_46_2_alg».proof.Proof.LibBlockSum
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger: the constant 9.99999974E-5 is read as 1/10000 at its three sites, and 0.333333343 as 1/3. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl,
   IdealRules.named_const.statement Cert.KernelIdeal.κ "inv_3" .f32 0x3EAAAAAB#32 ((1 / 3 : ℝ) : EReal) rfl⟩

/-- The two idealized programs end with equal results: the three regions' values, the reference read operation by
    operation, and the realness of the arguments under the precondition, put together. -/
theorem algebraic : Cert.algebraic_KernelIdeal_ReferenceIdeal :=
  Cert.Bridge.algebraic
    ⟨Cert.KernelIdeal.R0.xa, Cert.KernelIdeal.R0.xa2, Cert.KernelIdeal.R0.xm, Cert.KernelIdeal.R0.colm⟩
    ⟨Cert.KernelIdeal.R1.oa, Cert.KernelIdeal.R1.oa2, Cert.KernelIdeal.R1s.cola, Cert.KernelIdeal.R1s.cola2⟩
    Cert.KernelIdeal.R2.res
    Cert.ReferenceIdeal.RefValue.ref_is_G
    (fun m h c => Cert.KernelIdeal.Finite.isReal_of_pre m h c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
